-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S128x32 : Shape := ⟨2, ![128, 32]⟩
abbrev S128x16 : Shape := ⟨2, ![128, 16]⟩
abbrev S64x16 : Shape := ⟨2, ![64, 16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S128x32 : S_.BroadcastsInDim S128x32 (![] : Fin 0 → Fin S128x32.rank)
  reducesTo_S128x32_S_d0_1 : S128x32.ReducesTo [0, 1] S_
  bcast_S_S128x16 : S_.BroadcastsInDim S128x16 (![] : Fin 0 → Fin S128x16.rank)
  reducesTo_S128x16_S_d0_1 : S128x16.ReducesTo [0, 1] S_
  bcast_S_S64x16 : S_.BroadcastsInDim S64x16 (![] : Fin 0 → Fin S64x16.rank)
  reducesTo_S64x16_S_d0_1 : S64x16.ReducesTo [0, 1] S_

variable [Facts]

def fn_part3 {F : FTy → Type} [FloatOps F] (main_arg12 : FVec F S64x16 .f32) (main_arg13 : FVec F S16 .f32) (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  let main_v54 : FVec F S64x16 .f32 := Host.absf main_arg12
  let main_cst_20 : FVec F S_ .f32 := constant S_ .f32 0x7F800000#32
  let main_v55 : FVec F S64x16 .f32 := broadcastInDim S64x16 ![] bcast_S_S64x16 main_cst_20
  let main_v56 : IVec S64x16 1 := cmpf .olt main_v54 main_v55
  let main_c_21 : IVec S_ 1 := constantI S_ 1 1#1
  let main_v57 : IVec S_ 1 := (fun x v => Host.reduce IntOp.andi x v reducesTo_S64x16_S_d0_1 h_S_) main_v56 main_c_21
  let main_v58 : IVec S_ 1 := andi main_v53 main_v57
  let main_v59 : FVec F S16 .f32 := Host.absf main_arg13
  let main_cst_22 : FVec F S_ .f32 := constant S_ .f32 0x7F800000#32
  let main_v60 : FVec F S16 .f32 := broadcastInDim S16 ![] bcast_S_S16 main_cst_22
  let main_v61 : IVec S16 1 := cmpf .olt main_v59 main_v60
  let main_c_23 : IVec S_ 1 := constantI S_ 1 1#1
  let main_v62 : IVec S_ 1 := (fun x v => Host.reduce IntOp.andi x v reducesTo_S16_S_d0 h_S_) main_v61 main_c_23
  let main_v63 : IVec S_ 1 := andi main_v58 main_v62
  main_v63

def fn_part2 {F : FTy → Type} [FloatOps F] (main_arg8 : FVec F S128x32 .f32) (main_arg9 : FVec F S32 .f32) (main_arg10 : FVec F S128x16 .f32) (main_arg11 : FVec F S16 .f32) (main_arg12 : FVec F S64x16 .f32) (main_arg13 : FVec F S16 .f32) (main_v33 : IVec S_ 1) : IVec S_ 1 :=
  let main_v34 : FVec F S128x32 .f32 := Host.absf main_arg8
  let main_cst_12 : FVec F S_ .f32 := constant S_ .f32 0x7F800000#32
  let main_v35 : FVec F S128x32 .f32 := broadcastInDim S128x32 ![] bcast_S_S128x32 main_cst_12
  let main_v36 : IVec S128x32 1 := cmpf .olt main_v34 main_v35
  let main_c_13 : IVec S_ 1 := constantI S_ 1 1#1
  let main_v37 : IVec S_ 1 := (fun x v => Host.reduce IntOp.andi x v reducesTo_S128x32_S_d0_1 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S128x16 .f32 := Host.absf main_arg10
  let main_cst_16 : FVec F S_ .f32 := constant S_ .f32 0x7F800000#32
  let main_v45 : FVec F S128x16 .f32 := broadcastInDim S128x16 ![] bcast_S_S128x16 main_cst_16
  let main_v46 : IVec S128x16 1 := cmpf .olt main_v44 main_v45
  let main_c_17 : IVec S_ 1 := constantI S_ 1 1#1
  let main_v47 : IVec S_ 1 := (fun x v => Host.reduce IntOp.andi x v reducesTo_S128x16_S_d0_1 h_S_) main_v46 main_c_17
  let main_v48 : IVec S_ 1 := andi main_v43 main_v47
  let main_v49 : FVec F S16 .f32 := Host.absf main_arg11
  let main_cst_18 : FVec F S_ .f32 := constant S_ .f32 0x7F800000#32
  let main_v50 : FVec F S16 .f32 := broadcastInDim S16 ![] bcast_S_S16 main_cst_18
  fn_part3 (F := F) main_arg12 main_arg13 main_v48 main_v49 main_v50

def fn_part1 {F : FTy → Type} [FloatOps F] (main_arg5 : FVec F S32 .f32) (main_arg6 : FVec F S32x16 .f32) (main_arg7 : FVec F S16 .f32) (main_arg8 : FVec F S128x32 .f32) (main_arg9 : FVec F S32 .f32) (main_arg10 : FVec F S128x16 .f32) (main_arg11 : FVec F S16 .f32) (main_arg12 : FVec F S64x16 .f32) (main_arg13 : FVec F S16 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x16 .f32 := Host.absf main_arg6
  let main_cst_8 : FVec F S_ .f32 := constant S_ .f32 0x7F800000#32
  let main_v25 : FVec F S32x16 .f32 := broadcastInDim S32x16 ![] bcast_S_S32x16 main_cst_8
  let main_v26 : IVec S32x16 1 := cmpf .olt main_v24 main_v25
  let main_c_9 : IVec S_ 1 := constantI S_ 1 1#1
  let main_v27 : IVec S_ 1 := (fun x v => Host.reduce IntOp.andi x v reducesTo_S32x16_S_d0_1 h_S_) main_v26 main_c_9
  let main_v28 : IVec S_ 1 := andi main_v23 main_v27
  let main_v29 : FVec F S16 .f32 := Host.absf main_arg7
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  fn_part2 (F := F) main_arg8 main_arg9 main_arg10 main_arg11 main_arg12 main_arg13 main_v33

def fn {F : FTy → Type} [FloatOps F] (main_arg0 : FVec F S100000x128 .f32) (main_arg1 : IVec S2x3200000 32) (main_arg2 : FVec F S128x64 .f32) (main_arg3 : FVec F S64 .f32) (main_arg4 : FVec F S64x32 .f32) (main_arg5 : FVec F S32 .f32) (main_arg6 : FVec F S32x16 .f32) (main_arg7 : FVec F S16 .f32) (main_arg8 : FVec F S128x32 .f32) (main_arg9 : FVec F S32 .f32) (main_arg10 : FVec F S128x16 .f32) (main_arg11 : FVec F S16 .f32) (main_arg12 : FVec F S64x16 .f32) (main_arg13 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_arg6 main_arg7 main_arg8 main_arg9 main_arg10 main_arg11 main_arg12 main_arg13 main_v13 main_v16
-- ==== Kernel.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S128x32 : Shape := ⟨2, ![128, 32]⟩
abbrev S128x16 : Shape := ⟨2, ![128, 16]⟩
abbrev S64x16 : Shape := ⟨2, ![64, 16]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x1 : Shape := ⟨2, ![100000, 1]⟩
abbrev S100000x64 : Shape := ⟨2, ![100000, 64]⟩
abbrev S5000x128 : Shape := ⟨2, ![5000, 128]⟩
abbrev S5000x64 : Shape := ⟨2, ![5000, 64]⟩
abbrev S3200000x64 : Shape := ⟨2, ![3200000, 64]⟩
abbrev S1x64 : Shape := ⟨2, ![1, 64]⟩
abbrev S5000x1 : Shape := ⟨2, ![5000, 1]⟩
abbrev S1x32 : Shape := ⟨2, ![1, 32]⟩
abbrev S100000x32 : Shape := ⟨2, ![100000, 32]⟩
abbrev S5000x32 : Shape := ⟨2, ![5000, 32]⟩
abbrev S3200000x32 : Shape := ⟨2, ![3200000, 32]⟩
abbrev S1x16 : Shape := ⟨2, ![1, 16]⟩
abbrev S100000x16 : Shape := ⟨2, ![100000, 16]⟩
abbrev S5000x16 : Shape := ⟨2, ![5000, 16]⟩
abbrev S3200000x16 : Shape := ⟨2, ![3200000, 16]⟩

abbrev nBuf : Space → Nat
  | .hbm => 110
  | .vmem => 66
  | .smem => 0
  | _ => 0

abbrev bufTy : (tb : Table) → Fin (tcTables nBuf tb) → BufTy
  | .hbm, ⟨0, _⟩ => ⟨S100000x128, .f32⟩
  | .hbm, ⟨1, _⟩ => ⟨S2x3200000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x16, .f32⟩
  | .hbm, ⟨7, _⟩ => ⟨S16, .f32⟩
  | .hbm, ⟨8, _⟩ => ⟨S128x32, .f32⟩
  | .hbm, ⟨9, _⟩ => ⟨S32, .f32⟩
  | .hbm, ⟨10, _⟩ => ⟨S128x16, .f32⟩
  | .hbm, ⟨11, _⟩ => ⟨S16, .f32⟩
  | .hbm, ⟨12, _⟩ => ⟨S64x16, .f32⟩
  | .hbm, ⟨13, _⟩ => ⟨S16, .f32⟩
  | .hbm, ⟨14, _⟩ => ⟨S1x3200000, .i32⟩
  | .hbm, ⟨15, _⟩ => ⟨S3200000, .i32⟩
  | .hbm, ⟨16, _⟩ => ⟨S1x3200000, .i32⟩
  | .hbm, ⟨17, _⟩ => ⟨S3200000, .i32⟩
  | .hbm, ⟨18, _⟩ => ⟨S_, .f32⟩
  | .hbm, ⟨19, _⟩ => ⟨S3200000, .f32⟩
  | .hbm, ⟨20, _⟩ => ⟨S_, .f32⟩
  | .hbm, ⟨21, _⟩ => ⟨S100000, .f32⟩
  | .hbm, ⟨22, _⟩ => ⟨S3200000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S100000, .f32⟩
  | .hbm, ⟨29, _⟩ => ⟨S100000x1, .f32⟩
  | .hbm, ⟨30, _⟩ => ⟨S_, .i32⟩
  | .hbm, ⟨31, _⟩ => ⟨S3200000, .i32⟩
  | .hbm, ⟨32, _⟩ => ⟨S3200000, .i1⟩
  | .hbm, ⟨33, _⟩ => ⟨S_, .i32⟩
  | .hbm, ⟨34, _⟩ => ⟨S3200000, .i32⟩
  | .hbm, ⟨35, _⟩ => ⟨S3200000, .i32⟩
  | .hbm, ⟨36, _⟩ => ⟨S3200000, .i32⟩
  | .hbm, ⟨37, _⟩ => ⟨S3200000x1, .i32⟩
  | .hbm, ⟨38, _⟩ => ⟨S3200000, .f32⟩
  | .hbm, ⟨39, _⟩ => ⟨S_, .i32⟩
  | .hbm, ⟨40, _⟩ => ⟨S3200000, .i32⟩
  | .hbm, ⟨41, _⟩ => ⟨S3200000, .i1⟩
  | .hbm, ⟨42, _⟩ => ⟨S_, .i32⟩
  | .hbm, ⟨43, _⟩ => ⟨S3200000, .i32⟩
  | .hbm, ⟨44, _⟩ => ⟨S3200000, .i32⟩
  | .hbm, ⟨45, _⟩ => ⟨S3200000, .i32⟩
  | .hbm, ⟨46, _⟩ => ⟨S3200000x1, .i32⟩
  | .hbm, ⟨47, _⟩ => ⟨S3200000, .f32⟩
  | .hbm, ⟨48, _⟩ => ⟨S3200000, .f32⟩
  | .hbm, ⟨49, _⟩ => ⟨S3200000x1, .f32⟩
  | .hbm, ⟨50, _⟩ => ⟨S100000x64, .f32⟩
  | .hbm, ⟨51, _⟩ => ⟨S_, .i32⟩
  | .hbm, ⟨52, _⟩ => ⟨S3200000, .i32⟩
  | .hbm, ⟨53, _⟩ => ⟨S3200000, .i1⟩
  | .hbm, ⟨54, _⟩ => ⟨S_, .i32⟩
  | .hbm, ⟨55, _⟩ => ⟨S3200000, .i32⟩
  | .hbm, ⟨56, _⟩ => ⟨S3200000, .i32⟩
  | .hbm, ⟨57, _⟩ => ⟨S3200000, .i32⟩
  | .hbm, ⟨58, _⟩ => ⟨S3200000x1, .i32⟩
  | .hbm, ⟨59, _⟩ => ⟨S3200000x64, .f32⟩
  | .hbm, ⟨60, _⟩ => ⟨S3200000x64, .f32⟩
  | .hbm, ⟨61, _⟩ => ⟨S3200000x64, .f32⟩
  | .hbm, ⟨62, _⟩ => ⟨S_, .f32⟩
  | .hbm, ⟨63, _⟩ => ⟨S100000x64, .f32⟩
  | .hbm, ⟨64, _⟩ => ⟨S3200000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S1x32, .f32⟩
  | .hbm, ⟨69, _⟩ => ⟨S100000x32, .f32⟩
  | .hbm, ⟨70, _⟩ => ⟨S100000x32, .f32⟩
  | .hbm, ⟨71, _⟩ => ⟨S_, .i32⟩
  | .hbm, ⟨72, _⟩ => ⟨S3200000, .i32⟩
  | .hbm, ⟨73, _⟩ => ⟨S3200000, .i1⟩
  | .hbm, ⟨74, _⟩ => ⟨S_, .i32⟩
  | .hbm, ⟨75, _⟩ => ⟨S3200000, .i32⟩
  | .hbm, ⟨76, _⟩ => ⟨S3200000, .i32⟩
  | .hbm, ⟨77, _⟩ => ⟨S3200000, .i32⟩
  | .hbm, ⟨78, _⟩ => ⟨S3200000x1, .i32⟩
  | .hbm, ⟨79, _⟩ => ⟨S3200000x32, .f32⟩
  | .hbm, ⟨80, _⟩ => ⟨S3200000x32, .f32⟩
  | .hbm, ⟨81, _⟩ => ⟨S3200000x32, .f32⟩
  | .hbm, ⟨82, _⟩ => ⟨S_, .f32⟩
  | .hbm, ⟨83, _⟩ => ⟨S100000x32, .f32⟩
  | .hbm, ⟨84, _⟩ => ⟨S3200000x1, .i32⟩
  | .hbm, ⟨85, _⟩ => ⟨S100000x32, .f32⟩
  | .hbm, ⟨86, _⟩ => ⟨S1x32, .f32⟩
  | .hbm, ⟨87, _⟩ => ⟨S100000x32, .f32⟩
  | .hbm, ⟨88, _⟩ => ⟨S1x16, .f32⟩
  | .hbm, ⟨89, _⟩ => ⟨S100000x16, .f32⟩
  | .hbm, ⟨90, _⟩ => ⟨S1x16, .f32⟩
  | .hbm, ⟨91, _⟩ => ⟨S100000x16, .f32⟩
  | .hbm, ⟨92, _⟩ => ⟨S100000x16, .f32⟩
  | .hbm, ⟨93, _⟩ => ⟨S_, .i32⟩
  | .hbm, ⟨94, _⟩ => ⟨S3200000, .i32⟩
  | .hbm, ⟨95, _⟩ => ⟨S3200000, .i1⟩
  | .hbm, ⟨96, _⟩ => ⟨S_, .i32⟩
  | .hbm, ⟨97, _⟩ => ⟨S3200000, .i32⟩
  | .hbm, ⟨98, _⟩ => ⟨S3200000, .i32⟩
  | .hbm, ⟨99, _⟩ => ⟨S3200000, .i32⟩
  | .hbm, ⟨100, _⟩ => ⟨S3200000x1, .i32⟩
  | .hbm, ⟨101, _⟩ => ⟨S3200000x16, .f32⟩
  | .hbm, ⟨102, _⟩ => ⟨S3200000x16, .f32⟩
  | .hbm, ⟨103, _⟩ => ⟨S3200000x16, .f32⟩
  | .hbm, ⟨104, _⟩ => ⟨S_, .f32⟩
  | .hbm, ⟨105, _⟩ => ⟨S100000x16, .f32⟩
  | .hbm, ⟨106, _⟩ => ⟨S3200000x1, .i32⟩
  | .hbm, ⟨107, _⟩ => ⟨S100000x16, .f32⟩
  | .hbm, ⟨108, _⟩ => ⟨S1x16, .f32⟩
  | .hbm, ⟨109, _⟩ => ⟨S100000x16, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S5000x128, .f32⟩
  | .local _ .vmem, ⟨15, _⟩ => ⟨S5000x128, .f32⟩
  | .local _ .vmem, ⟨16, _⟩ => ⟨S128x32, .f32⟩
  | .local _ .vmem, ⟨17, _⟩ => ⟨S1x32, .f32⟩
  | .local _ .vmem, ⟨18, _⟩ => ⟨S5000x32, .f32⟩
  | .local _ .vmem, ⟨19, _⟩ => ⟨S5000x32, .f32⟩
  | .local _ .vmem, ⟨20, _⟩ => ⟨S5000x64, .f32⟩
  | .local _ .vmem, ⟨21, _⟩ => ⟨S5000x64, .f32⟩
  | .local _ .vmem, ⟨22, _⟩ => ⟨S64x32, .f32⟩
  | .local _ .vmem, ⟨23, _⟩ => ⟨S5000x32, .f32⟩
  | .local _ .vmem, ⟨24, _⟩ => ⟨S5000x32, .f32⟩
  | .local _ .vmem, ⟨25, _⟩ => ⟨S5000x32, .f32⟩
  | .local _ .vmem, ⟨26, _⟩ => ⟨S5000x32, .f32⟩
  | .local _ .vmem, ⟨27, _⟩ => ⟨S5000x32, .f32⟩
  | .local _ .vmem, ⟨28, _⟩ => ⟨S5000x32, .f32⟩
  | .local _ .vmem, ⟨29, _⟩ => ⟨S5000x1, .f32⟩
  | .local _ .vmem, ⟨30, _⟩ => ⟨S5000x1, .f32⟩
  | .local _ .vmem, ⟨31, _⟩ => ⟨S1x32, .f32⟩
  | .local _ .vmem, ⟨32, _⟩ => ⟨S5000x32, .f32⟩
  | .local _ .vmem, ⟨33, _⟩ => ⟨S5000x32, .f32⟩
  | .local _ .vmem, ⟨34, _⟩ => ⟨S5000x32, .f32⟩
  | .local _ .vmem, ⟨35, _⟩ => ⟨S5000x32, .f32⟩
  | .local _ .vmem, ⟨36, _⟩ => ⟨S5000x128, .f32⟩
  | .local _ .vmem, ⟨37, _⟩ => ⟨S5000x128, .f32⟩
  | .local _ .vmem, ⟨38, _⟩ => ⟨S128x16, .f32⟩
  | .local _ .vmem, ⟨39, _⟩ => ⟨S1x16, .f32⟩
  | .local _ .vmem, ⟨40, _⟩ => ⟨S5000x16, .f32⟩
  | .local _ .vmem, ⟨41, _⟩ => ⟨S5000x16, .f32⟩
  | .local _ .vmem, ⟨42, _⟩ => ⟨S5000x64, .f32⟩
  | .local _ .vmem, ⟨43, _⟩ => ⟨S5000x64, .f32⟩
  | .local _ .vmem, ⟨44, _⟩ => ⟨S64x16, .f32⟩
  | .local _ .vmem, ⟨45, _⟩ => ⟨S1x16, .f32⟩
  | .local _ .vmem, ⟨46, _⟩ => ⟨S5000x16, .f32⟩
  | .local _ .vmem, ⟨47, _⟩ => ⟨S5000x16, .f32⟩
  | .local _ .vmem, ⟨48, _⟩ => ⟨S5000x32, .f32⟩
  | .local _ .vmem, ⟨49, _⟩ => ⟨S5000x32, .f32⟩
  | .local _ .vmem, ⟨50, _⟩ => ⟨S32x16, .f32⟩
  | .local _ .vmem, ⟨51, _⟩ => ⟨S5000x16, .f32⟩
  | .local _ .vmem, ⟨52, _⟩ => ⟨S5000x16, .f32⟩
  | .local _ .vmem, ⟨53, _⟩ => ⟨S5000x16, .f32⟩
  | .local _ .vmem, ⟨54, _⟩ => ⟨S5000x16, .f32⟩
  | .local _ .vmem, ⟨55, _⟩ => ⟨S5000x16, .f32⟩
  | .local _ .vmem, ⟨56, _⟩ => ⟨S5000x16, .f32⟩
  | .local _ .vmem, ⟨57, _⟩ => ⟨S5000x1, .f32⟩
  | .local _ .vmem, ⟨58, _⟩ => ⟨S5000x1, .f32⟩
  | .local _ .vmem, ⟨59, _⟩ => ⟨S1x16, .f32⟩
  | .local _ .vmem, ⟨60, _⟩ => ⟨S5000x16, .f32⟩
  | .local _ .vmem, ⟨61, _⟩ => ⟨S5000x16, .f32⟩
  | .local _ .vmem, ⟨62, _⟩ => ⟨S5000x16, .f32⟩
  | .local _ .vmem, ⟨63, _⟩ => ⟨S5000x16, .f32⟩
  | .local _ .vmem, ⟨64, _⟩ => ⟨S5000x16, .f32⟩
  | .local _ .vmem, ⟨65, _⟩ => ⟨S5000x16, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | _, _ => false

abbrev semScoped : Fin 0 → Bool
  | ⟨_, h⟩ => absurd h (Nat.not_lt_zero _)

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  ofTc nBuf bufTy 0 66 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c : Ref sig .tc := ⟨.hbm, 30, rfl⟩
abbrev main_v13 : Ref sig .tc := ⟨.hbm, 31, rfl⟩
abbrev main_v14 : Ref sig .tc := ⟨.hbm, 32, rfl⟩
abbrev main_c_2 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_c_3 : Ref sig .tc := ⟨.hbm, 39, rfl⟩
abbrev main_v20 : Ref sig .tc := ⟨.hbm, 40, rfl⟩
abbrev main_v21 : Ref sig .tc := ⟨.hbm, 41, rfl⟩
abbrev main_c_4 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_5 : Ref sig .tc := ⟨.hbm, 51, rfl⟩
abbrev main_v30 : Ref sig .tc := ⟨.hbm, 52, rfl⟩
abbrev main_v31 : Ref sig .tc := ⟨.hbm, 53, rfl⟩
abbrev main_c_6 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_7 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_c_8 : Ref sig .tc := ⟨.hbm, 71, rfl⟩
abbrev main_v47 : Ref sig .tc := ⟨.hbm, 72, rfl⟩
abbrev main_v48 : Ref sig .tc := ⟨.hbm, 73, rfl⟩
abbrev main_c_9 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_cst_10 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_c_11 : Ref sig .tc := ⟨.hbm, 93, rfl⟩
abbrev main_v66 : Ref sig .tc := ⟨.hbm, 94, rfl⟩
abbrev main_v67 : Ref sig .tc := ⟨.hbm, 95, rfl⟩
abbrev main_c_12 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_13 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc3_stg0_0 : Ref sig .tc := ⟨.vmem, 20, rfl⟩
abbrev cc3_stg0_1 : Ref sig .tc := ⟨.vmem, 21, rfl⟩
abbrev cc3_stg1_0 : Ref sig .tc := ⟨.vmem, 22, rfl⟩
abbrev cc3_stg2_0 : Ref sig .tc := ⟨.vmem, 23, rfl⟩
abbrev cc3_stg2_1 : Ref sig .tc := ⟨.vmem, 24, rfl⟩
abbrev cc4_stg0_0 : Ref sig .tc := ⟨.vmem, 25, rfl⟩
abbrev cc4_stg0_1 : Ref sig .tc := ⟨.vmem, 26, rfl⟩
abbrev cc4_stg1_0 : Ref sig .tc := ⟨.vmem, 27, rfl⟩
abbrev cc4_stg1_1 : Ref sig .tc := ⟨.vmem, 28, rfl⟩
abbrev cc4_stg2_0 : Ref sig .tc := ⟨.vmem, 29, rfl⟩
abbrev cc4_stg2_1 : Ref sig .tc := ⟨.vmem, 30, rfl⟩
abbrev cc4_stg3_0 : Ref sig .tc := ⟨.vmem, 31, rfl⟩
abbrev cc4_stg4_0 : Ref sig .tc := ⟨.vmem, 32, rfl⟩
abbrev cc4_stg4_1 : Ref sig .tc := ⟨.vmem, 33, rfl⟩
abbrev cc4_stg5_0 : Ref sig .tc := ⟨.vmem, 34, rfl⟩
abbrev cc4_stg5_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg3_1 : Ref sig .tc := ⟨.vmem, 41, rfl⟩
abbrev cc6_stg0_0 : Ref sig .tc := ⟨.vmem, 42, rfl⟩
abbrev cc6_stg0_1 : Ref sig .tc := ⟨.vmem, 43, rfl⟩
abbrev cc6_stg1_0 : Ref sig .tc := ⟨.vmem, 44, rfl⟩
abbrev cc6_stg2_0 : Ref sig .tc := ⟨.vmem, 45, rfl⟩
abbrev cc6_stg3_0 : Ref sig .tc := ⟨.vmem, 46, rfl⟩
abbrev cc6_stg3_1 : Ref sig .tc := ⟨.vmem, 47, rfl⟩
abbrev cc7_stg0_0 : Ref sig .tc := ⟨.vmem, 48, rfl⟩
abbrev cc7_stg0_1 : Ref sig .tc := ⟨.vmem, 49, rfl⟩
abbrev cc7_stg1_0 : Ref sig .tc := ⟨.vmem, 50, rfl⟩
abbrev cc7_stg2_0 : Ref sig .tc := ⟨.vmem, 51, rfl⟩
abbrev cc7_stg2_1 : Ref sig .tc := ⟨.vmem, 52, rfl⟩
abbrev cc8_stg0_0 : Ref sig .tc := ⟨.vmem, 53, rfl⟩
abbrev cc8_stg0_1 : Ref sig .tc := ⟨.vmem, 54, rfl⟩
abbrev cc8_stg1_0 : Ref sig .tc := ⟨.vmem, 55, rfl⟩
abbrev cc8_stg1_1 : Ref sig .tc := ⟨.vmem, 56, rfl⟩
abbrev cc8_stg2_0 : Ref sig .tc := ⟨.vmem, 57, rfl⟩
abbrev cc8_stg2_1 : Ref sig .tc := ⟨.vmem, 58, rfl⟩
abbrev cc8_stg3_0 : Ref sig .tc := ⟨.vmem, 59, rfl⟩
abbrev cc8_stg4_0 : Ref sig .tc := ⟨.vmem, 60, rfl⟩
abbrev cc8_stg4_1 : Ref sig .tc := ⟨.vmem, 61, rfl⟩
abbrev cc8_stg5_0 : Ref sig .tc := ⟨.vmem, 62, rfl⟩
abbrev cc8_stg5_1 : Ref sig .tc := ⟨.vmem, 63, rfl⟩
abbrev cc8_stg6_0 : Ref sig .tc := ⟨.vmem, 64, rfl⟩
abbrev cc8_stg6_1 : Ref sig .tc := ⟨.vmem, 65, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19
abbrev cc3_sem0_0 : DmaSem sig := 20
abbrev cc3_sem0_1 : DmaSem sig := 21
abbrev cc3_sem1_0 : DmaSem sig := 22
abbrev cc3_sem2_0 : DmaSem sig := 23
abbrev cc3_sem2_1 : DmaSem sig := 24
abbrev cc4_sem0_0 : DmaSem sig := 25
abbrev cc4_sem0_1 : DmaSem sig := 26
abbrev cc4_sem1_0 : DmaSem sig := 27
abbrev cc4_sem1_1 : DmaSem sig := 28
abbrev cc4_sem2_0 : DmaSem sig := 29
abbrev cc4_sem2_1 : DmaSem sig := 30
abbrev cc4_sem3_0 : DmaSem sig := 31
abbrev cc4_sem4_0 : DmaSem sig := 32
abbrev cc4_sem4_1 : DmaSem sig := 33
abbrev cc4_sem5_0 : DmaSem sig := 34
abbrev cc4_sem5_1 : DmaSem sig := 35
abbrev cc5_sem0_0 : DmaSem sig := 36
abbrev cc5_sem0_1 : DmaSem sig := 37
abbrev cc5_sem1_0 : DmaSem sig := 38
abbrev cc5_sem2_0 : DmaSem sig := 39
abbrev cc5_sem3_0 : DmaSem sig := 40
abbrev cc5_sem3_1 : DmaSem sig := 41
abbrev cc6_sem0_0 : DmaSem sig := 42
abbrev cc6_sem0_1 : DmaSem sig := 43
abbrev cc6_sem1_0 : DmaSem sig := 44
abbrev cc6_sem2_0 : DmaSem sig := 45
abbrev cc6_sem3_0 : DmaSem sig := 46
abbrev cc6_sem3_1 : DmaSem sig := 47
abbrev cc7_sem0_0 : DmaSem sig := 48
abbrev cc7_sem0_1 : DmaSem sig := 49
abbrev cc7_sem1_0 : DmaSem sig := 50
abbrev cc7_sem2_0 : DmaSem sig := 51
abbrev cc7_sem2_1 : DmaSem sig := 52
abbrev cc8_sem0_0 : DmaSem sig := 53
abbrev cc8_sem0_1 : DmaSem sig := 54
abbrev cc8_sem1_0 : DmaSem sig := 55
abbrev cc8_sem1_1 : DmaSem sig := 56
abbrev cc8_sem2_0 : DmaSem sig := 57
abbrev cc8_sem2_1 : DmaSem sig := 58
abbrev cc8_sem3_0 : DmaSem sig := 59
abbrev cc8_sem4_0 : DmaSem sig := 60
abbrev cc8_sem4_1 : DmaSem sig := 61
abbrev cc8_sem5_0 : DmaSem sig := 62
abbrev cc8_sem5_1 : DmaSem sig := 63
abbrev cc8_sem6_0 : DmaSem sig := 64
abbrev cc8_sem6_1 : DmaSem sig := 65

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x32 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S5000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x32 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x32 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S5000x32 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x16 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x16 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x16 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x16 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x16 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x16 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x32 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S32x16 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S5000x16 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_6 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x16 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x16 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S5000x1 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S1x16 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 2 → Memref sig .tc .vmem S5000x16 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev stage8_5 : Fin 2 → Memref sig .tc .vmem S5000x16 .f32 := fun | 0 => Memref.whole cc8_stg5_0 | 1 => Memref.whole cc8_stg5_1 | ⟨_ + 2, h⟩ => absurd h (Nat.not_lt.2 (Nat.le_add_left _ _))
abbrev sem8_5 : Fin 2 → DmaSem sig := fun | 0 => cc8_sem5_0 | 1 => cc8_sem5_1 | ⟨_ + 2, h⟩ => absurd h (Nat.not_lt.2 (Nat.le_add_left _ _))
abbrev reads8_5 : Fin grid8.rank → Bool := ![true]

abbrev stage8_6 : Fin 2 → Memref sig .tc .vmem S5000x16 .f32 := fun | 0 => Memref.whole cc8_stg6_0 | 1 => Memref.whole cc8_stg6_1 | ⟨_ + 2, h⟩ => absurd h (Nat.not_lt.2 (Nat.le_add_left _ _))
abbrev sem8_6 : Fin 2 → DmaSem sig := fun | 0 => cc8_sem6_0 | 1 => cc8_sem6_1 | ⟨_ + 2, h⟩ => absurd h (Nat.not_lt.2 (Nat.le_add_left _ _))
abbrev reads8_6 : Fin grid8.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  shapeCasts_S100000_S100000x1 : S100000.ShapeCasts S100000x1
  shapeCasts_S3200000_S3200000x1 : S3200000.ShapeCasts S3200000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  shapeCasts_S32_S1x32 : S32.ShapeCasts S1x32
  inb_S128x32_S128x32_0_0 : ∀ a, (![0, 0] : Fin 2 → Nat) a + S128x32.size a ≤ S128x32.size a
  h_S128x32 : 0 < S128x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S5000x32_S5000x32_0_0 : ∀ a, (![0, 0] : Fin 2 → Nat) a + S5000x32.size a ≤ S5000x32.size a
  h_S5000x32 : 0 < S5000x32.numel
  inb_S64x32_S64x32_0_0 : ∀ a, (![0, 0] : Fin 2 → Nat) a + S64x32.size a ≤ S64x32.size a
  h_S64x32 : 0 < S64x32.numel
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  shapeCasts_S5000x32_S5000x32 : S5000x32.ShapeCasts S5000x32
  broadcasts_S5000x1_S5000x32 : S5000x1.Broadcasts S5000x32
  shapeCasts_S16_S1x16 : S16.ShapeCasts S1x16
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S5000x16_S5000x16_0_0 : ∀ a, (![0, 0] : Fin 2 → Nat) a + S5000x16.size a ≤ S5000x16.size a
  h_S5000x16 : 0 < S5000x16.numel
  inb_S64x16_S64x16_0_0 : ∀ a, (![0, 0] : Fin 2 → Nat) a + S64x16.size a ≤ S64x16.size a
  h_S64x16 : 0 < S64x16.numel
  inb_S32x16_S32x16_0_0 : ∀ a, (![0, 0] : Fin 2 → Nat) a + S32x16.size a ≤ S32x16.size a
  h_S32x16 : 0 < S32x16.numel
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  shapeCasts_S5000x16_S5000x16 : S5000x16.ShapeCasts S5000x16
  broadcasts_S5000x1_S5000x16 : S5000x1.Broadcasts S5000x16
  scatter_S100000_S3200000x1_S3200000_n_0_0_1_wf : ScatterDims.WF S100000 S3200000x1 S3200000 [] [0] [0] 1
  gather_S100000_S3200000x1_S3200000_n_0_n_n_0_1_1_wf : GatherDims.WF S100000 S3200000x1 S3200000 [] [0] [] [0] [] 1 ![1]
  dot_S5000x128_S128x64_S5000x64_1_0_0_1_n_n_wf : DotDims.WF S5000x128 S128x64 S5000x64 [1] [0] [0] [1] [] []
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S5000x128_S128x32_S5000x32_1_0_0_1_n_n_wf : DotDims.WF S5000x128 S128x32 S5000x32 [1] [0] [0] [1] [] []
  dot_S5000x64_S64x32_S5000x32_1_0_0_1_n_n_wf : DotDims.WF S5000x64 S64x32 S5000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S5000x128_S128x16_S5000x16_1_0_0_1_n_n_wf : DotDims.WF S5000x128 S128x16 S5000x16 [1] [0] [0] [1] [] []
  dot_S5000x64_S64x16_S5000x16_1_0_0_1_n_n_wf : DotDims.WF S5000x64 S64x16 S5000x16 [1] [0] [0] [1] [] []
  dot_S5000x32_S32x16_S5000x16_1_0_0_1_n_n_wf : DotDims.WF S5000x32 S32x16 S5000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S100000x64.size a
  hwx1_4 : ∀ i : grid1.Coords, EltTy.bits .f32 = 32 ∨ (Rect.block (s := S100000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x32.size a ≤ S128x32.size a
  hwx2_1 : ∀ i : grid2.Coords, EltTy.bits .f32 = 32 ∨ (Rect.block (s := S128x32) S128x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x32.size a ≤ S100000x32.size a
  hwx2_3 : ∀ i : grid2.Coords, EltTy.bits .f32 = 32 ∨ (Rect.block (s := S100000x32) S5000x32.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x32.size a ≤ S64x32.size a
  hwx3_1 : ∀ i : grid3.Coords, EltTy.bits .f32 = 32 ∨ (Rect.block (s := S64x32) S64x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x32.size a ≤ S100000x32.size a
  hwx3_2 : ∀ i : grid3.Coords, EltTy.bits .f32 = 32 ∨ (Rect.block (s := S100000x32) S5000x32.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x32.size a ≤ S100000x32.size a
  hwx4_0 : ∀ i : grid4.Coords, EltTy.bits .f32 = 32 ∨ (Rect.block (s := S100000x32) S5000x32.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x32.size a ≤ S100000x32.size a
  hwx4_1 : ∀ i : grid4.Coords, EltTy.bits .f32 = 32 ∨ (Rect.block (s := S100000x32) S5000x32.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x1.size a ≤ S100000x1.size a
  hwx4_2 : ∀ i : grid4.Coords, EltTy.bits .f32 = 32 ∨ (Rect.block (s := S100000x1) S5000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x32.size a ≤ S1x32.size a
  hwx4_3 : ∀ i : grid4.Coords, EltTy.bits .f32 = 32 ∨ (Rect.block (s := S1x32) S1x32.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x32.size a ≤ S100000x32.size a
  hwx4_4 : ∀ i : grid4.Coords, EltTy.bits .f32 = 32 ∨ (Rect.block (s := S100000x32) S5000x32.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x32.size a ≤ S100000x32.size a
  hwx4_5 : ∀ i : grid4.Coords, EltTy.bits .f32 = 32 ∨ (Rect.block (s := S100000x32) S5000x32.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x16.size a ≤ S128x16.size a
  hwx5_1 : ∀ i : grid5.Coords, EltTy.bits .f32 = 32 ∨ (Rect.block (s := S128x16) S128x16.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x16.size a ≤ S1x16.size a
  hwx5_2 : ∀ i : grid5.Coords, EltTy.bits .f32 = 32 ∨ (Rect.block (s := S1x16) S1x16.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x16.size a ≤ S100000x16.size a
  hwx5_3 : ∀ i : grid5.Coords, EltTy.bits .f32 = 32 ∨ (Rect.block (s := S100000x16) S5000x16.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S100000x64.size a
  hwx6_0 : ∀ i : grid6.Coords, EltTy.bits .f32 = 32 ∨ (Rect.block (s := S100000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x16.size a ≤ S64x16.size a
  hwx6_1 : ∀ i : grid6.Coords, EltTy.bits .f32 = 32 ∨ (Rect.block (s := S64x16) S64x16.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x16.size a ≤ S1x16.size a
  hwx6_2 : ∀ i : grid6.Coords, EltTy.bits .f32 = 32 ∨ (Rect.block (s := S1x16) S1x16.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x16.size a ≤ S100000x16.size a
  hwx6_3 : ∀ i : grid6.Coords, EltTy.bits .f32 = 32 ∨ (Rect.block (s := S100000x16) S5000x16.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x32.size a ≤ S100000x32.size a
  hwx7_0 : ∀ i : grid7.Coords, EltTy.bits .f32 = 32 ∨ (Rect.block (s := S100000x32) S5000x32.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S32x16.size a ≤ S32x16.size a
  hwx7_1 : ∀ i : grid7.Coords, EltTy.bits .f32 = 32 ∨ (Rect.block (s := S32x16) S32x16.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S5000x16.size a ≤ S100000x16.size a
  hwx7_2 : ∀ i : grid7.Coords, EltTy.bits .f32 = 32 ∨ (Rect.block (s := S100000x16) S5000x16.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x16.size a ≤ S100000x16.size a
  hwx8_0 : ∀ i : grid8.Coords, EltTy.bits .f32 = 32 ∨ (Rect.block (s := S100000x16) S5000x16.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x16.size a ≤ S100000x16.size a
  hwx8_1 : ∀ i : grid8.Coords, EltTy.bits .f32 = 32 ∨ (Rect.block (s := S100000x16) S5000x16.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S5000x1.size a ≤ S100000x1.size a
  hwx8_2 : ∀ i : grid8.Coords, EltTy.bits .f32 = 32 ∨ (Rect.block (s := S100000x1) S5000x1.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x16.size a ≤ S1x16.size a
  hwx8_3 : ∀ i : grid8.Coords, EltTy.bits .f32 = 32 ∨ (Rect.block (s := S1x16) S1x16.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S5000x16.size a ≤ S100000x16.size a
  hwx8_4 : ∀ i : grid8.Coords, EltTy.bits .f32 = 32 ∨ (Rect.block (s := S100000x16) S5000x16.size (cc8_transform_4 i) (hinb8_4 i)).WholeWords (EltTy.packing .f32)
  hstage8_5 : ∀ j, (stage8_5 j).IsWhole
  nbuf8_5 : grid8.bufCount reads8_5 false = 2
  hreads8_5 : ∀ i i' : grid8.Coords, (∀ a, reads8_5 a = true → i a = i' a) → cc8_transform_5 i = cc8_transform_5 i'
  hinb8_5 : ∀ (i : grid8.Coords) a, (cc8_transform_5 i a + 1) * S5000x16.size a ≤ S100000x16.size a
  hwx8_5 : ∀ i : grid8.Coords, EltTy.bits .f32 = 32 ∨ (Rect.block (s := S100000x16) S5000x16.size (cc8_transform_5 i) (hinb8_5 i)).WholeWords (EltTy.packing .f32)
  hstage8_6 : ∀ j, (stage8_6 j).IsWhole
  nbuf8_6 : grid8.bufCount reads8_6 false = 2
  hreads8_6 : ∀ i i' : grid8.Coords, (∀ a, reads8_6 a = true → i a = i' a) → cc8_transform_6 i = cc8_transform_6 i'
  hinb8_6 : ∀ (i : grid8.Coords) a, (cc8_transform_6 i a + 1) * S5000x16.size a ≤ S100000x16.size a
  hwx8_6 : ∀ i : grid8.Coords, EltTy.bits .f32 = 32 ∨ (Rect.block (s := S100000x16) S5000x16.size (cc8_transform_6 i) (hinb8_6 i)).WholeWords (EltTy.packing .f32)

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S5000x128_S128x32_S5000x32_1_0_0_1_n_n : DotDims S5000x128 S128x32 S5000x32 where
  lhsContracting := [1]
  rhsContracting := [0]
  lhsNonContracting := [0]
  rhsNonContracting := [1]
  lhsBatch := []
  rhsBatch := []
  wf := dot_S5000x128_S128x32_S5000x32_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S5000x128_S128x16_S5000x16_1_0_0_1_n_n : DotDims S5000x128 S128x16 S5000x16 where
  lhsContracting := [1]
  rhsContracting := [0]
  lhsNonContracting := [0]
  rhsNonContracting := [1]
  lhsBatch := []
  rhsBatch := []
  wf := dot_S5000x128_S128x16_S5000x16_1_0_0_1_n_n_wf
def dot_S5000x64_S64x16_S5000x16_1_0_0_1_n_n : DotDims S5000x64 S64x16 S5000x16 where
  lhsContracting := [1]
  rhsContracting := [0]
  lhsNonContracting := [0]
  rhsNonContracting := [1]
  lhsBatch := []
  rhsBatch := []
  wf := dot_S5000x64_S64x16_S5000x16_1_0_0_1_n_n_wf
def dot_S5000x32_S32x16_S5000x16_1_0_0_1_n_n : DotDims S5000x32 S32x16 S5000x16 where
  lhsContracting := [1]
  rhsContracting := [0]
  lhsNonContracting := [0]
  rhsNonContracting := [1]
  lhsBatch := []
  rhsBatch := []
  wf := dot_S5000x32_S32x16_S5000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v29) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg8) S128x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v44) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v45) S5000x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v43) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S64x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v46) S5000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v46) S5000x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v58) S5000x32.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v12) S5000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v59) S1x32.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v45) S5000x32.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v60) S5000x32.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_arg0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg10) S128x16.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v61) S1x16.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v62) S5000x16.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v43) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg12) S64x16.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v63) S1x16.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v64) S5000x16.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v60) S5000x32.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg6) S32x16.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v65) S5000x16.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v65) S5000x16.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v77) S5000x16.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v12) S5000x1.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v78) S1x16.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v62) S5000x16.size cc8_transform_4 reads8_4 false false 2 stage8_4 sem8_4
    hrank8 hreads8_4 hinb8_4 nbuf8_4 (Memref.isWhole_whole _) hwx8_4 hstage8_4

abbrev win8_5 : Pipeline.Window sig grid8 :=
  Pipeline.Window.ofSpec (Memref.whole main_v64) S5000x16.size cc8_transform_5 reads8_5 false false 2 stage8_5 sem8_5
    hrank8 hreads8_5 hinb8_5 nbuf8_5 (Memref.isWhole_whole _) hwx8_5 hstage8_5

abbrev win8_6 : Pipeline.Window sig grid8 :=
  Pipeline.Window.ofSpec (Memref.whole main_v79) S5000x16.size cc8_transform_6 reads8_6 true false 2 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

class Facts : Prop extends Facts₀ where

variable [Facts]
-- ==== ReferenceIdeal.lean ====
abbrev S100000x128 : Shape := ⟨2, ![100000, 128]⟩
abbrev S2x3200000 : Shape := ⟨2, ![2, 3200000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S128x32 : Shape := ⟨2, ![128, 32]⟩
abbrev S128x16 : Shape := ⟨2, ![128, 16]⟩
abbrev S64x16 : Shape := ⟨2, ![64, 16]⟩
abbrev S1x3200000 : Shape := ⟨2, ![1, 3200000]⟩
abbrev S3200000 : Shape := ⟨1, ![3200000]⟩
abbrev S_ : Shape := ⟨0, ![]⟩
abbrev S100000 : Shape := ⟨1, ![100000]⟩
abbrev S3200000x1 : Shape := ⟨2, ![3200000, 1]⟩
abbrev S100000x64 : Shape := ⟨2, ![100000, 64]⟩
abbrev S3200000x64 : Shape := ⟨2, ![3200000, 64]⟩
abbrev S100000x1 : Shape := ⟨2, ![100000, 1]⟩
abbrev S1x64 : Shape := ⟨2, ![1, 64]⟩
abbrev S100000x32 : Shape := ⟨2, ![100000, 32]⟩
abbrev S3200000x32 : Shape := ⟨2, ![3200000, 32]⟩
abbrev S1x32 : Shape := ⟨2, ![1, 32]⟩
abbrev S100000x16 : Shape := ⟨2, ![100000, 16]⟩
abbrev S3200000x16 : Shape := ⟨2, ![3200000, 16]⟩
abbrev S1x16 : Shape := ⟨2, ![1, 16]⟩

abbrev nBuf : Space → Nat
  | .hbm => 184
  | .vmem => 0
  | .smem => 0
  | _ => 0

abbrev hbmTy0_0 (i : Nat) : BufTy := match i % 128 with
  | 0 => ⟨S100000x128, .f32⟩
  | 1 => ⟨S2x3200000, .i32⟩
  | 2 => ⟨S128x64, .f32⟩
  | 3 => ⟨S64, .f32⟩
  | 4 => ⟨S64x32, .f32⟩
  | 5 => ⟨S32, .f32⟩
  | 6 => ⟨S32x16, .f32⟩
  | 7 => ⟨S16, .f32⟩
  | 8 => ⟨S128x32, .f32⟩
  | 9 => ⟨S32, .f32⟩
  | 10 => ⟨S128x16, .f32⟩
  | 11 => ⟨S16, .f32⟩
  | 12 => ⟨S64x16, .f32⟩
  | 13 => ⟨S16, .f32⟩
  | 14 => ⟨S1x3200000, .i32⟩
  | 15 => ⟨S3200000, .i32⟩
  | 16 => ⟨S1x3200000, .i32⟩
  | 17 => ⟨S3200000, .i32⟩
  | 18 => ⟨S_, .f32⟩
  | 19 => ⟨S3200000, .f32⟩
  | 20 => ⟨S_, .f32⟩
  | 21 => ⟨S100000, .f32⟩
  | 22 => ⟨S3200000x1, .i32⟩
  | 23 => ⟨S100000, .f32⟩
  | 24 => ⟨S_, .f32⟩
  | 25 => ⟨S100000, .f32⟩
  | 26 => ⟨S100000, .f32⟩
  | 27 => ⟨S100000, .f32⟩
  | 28 => ⟨S100000x64, .f32⟩
  | 29 => ⟨S_, .i32⟩
  | 30 => ⟨S3200000, .i32⟩
  | 31 => ⟨S3200000, .i1⟩
  | 32 => ⟨S_, .i32⟩
  | 33 => ⟨S3200000, .i32⟩
  | 34 => ⟨S3200000, .i32⟩
  | 35 => ⟨S3200000, .i32⟩
  | 36 => ⟨S3200000x1, .i32⟩
  | 37 => ⟨S3200000, .f32⟩
  | 38 => ⟨S_, .i32⟩
  | 39 => ⟨S3200000, .i32⟩
  | 40 => ⟨S3200000, .i1⟩
  | 41 => ⟨S_, .i32⟩
  | 42 => ⟨S3200000, .i32⟩
  | 43 => ⟨S3200000, .i32⟩
  | 44 => ⟨S3200000, .i32⟩
  | 45 => ⟨S3200000x1, .i32⟩
  | 46 => ⟨S3200000, .f32⟩
  | 47 => ⟨S3200000, .f32⟩
  | 48 => ⟨S3200000x1, .f32⟩
  | 49 => ⟨S_, .i32⟩
  | 50 => ⟨S3200000, .i32⟩
  | 51 => ⟨S3200000, .i1⟩
  | 52 => ⟨S_, .i32⟩
  | 53 => ⟨S3200000, .i32⟩
  | 54 => ⟨S3200000, .i32⟩
  | 55 => ⟨S3200000, .i32⟩
  | 56 => ⟨S3200000x1, .i32⟩
  | 57 => ⟨S3200000x64, .f32⟩
  | 58 => ⟨S3200000x64, .f32⟩
  | 59 => ⟨S3200000x64, .f32⟩
  | 60 => ⟨S_, .f32⟩
  | 61 => ⟨S100000x64, .f32⟩
  | 62 => ⟨S3200000x1, .i32⟩
  | 63 => ⟨S100000x64, .f32⟩
  | 64 => ⟨S100000, .f32⟩
  | 65 => ⟨S100000x1, .f32⟩
  | 66 => ⟨S100000x64, .f32⟩
  | 67 => ⟨S100000x64, .f32⟩
  | 68 => ⟨S100000x64, .f32⟩
  | 69 => ⟨S1x64, .f32⟩
  | 70 => ⟨S100000x64, .f32⟩
  | 71 => ⟨S100000x64, .f32⟩
  | 72 => ⟨S_, .f32⟩
  | 73 => ⟨S100000x64, .f32⟩
  | 74 => ⟨S100000x64, .f32⟩
  | 75 => ⟨S100000x32, .f32⟩
  | 76 => ⟨S_, .i32⟩
  | 77 => ⟨S3200000, .i32⟩
  | 78 => ⟨S3200000, .i1⟩
  | 79 => ⟨S_, .i32⟩
  | 80 => ⟨S3200000, .i32⟩
  | 81 => ⟨S3200000, .i32⟩
  | 82 => ⟨S3200000, .i32⟩
  | 83 => ⟨S3200000x1, .i32⟩
  | 84 => ⟨S3200000, .f32⟩
  | 85 => ⟨S_, .i32⟩
  | 86 => ⟨S3200000, .i32⟩
  | 87 => ⟨S3200000, .i1⟩
  | 88 => ⟨S_, .i32⟩
  | 89 => ⟨S3200000, .i32⟩
  | 90 => ⟨S3200000, .i32⟩
  | 91 => ⟨S3200000, .i32⟩
  | 92 => ⟨S3200000x1, .i32⟩
  | 93 => ⟨S3200000, .f32⟩
  | 94 => ⟨S3200000, .f32⟩
  | 95 => ⟨S3200000x1, .f32⟩
  | 96 => ⟨S_, .i32⟩
  | 97 => ⟨S3200000, .i32⟩
  | 98 => ⟨S3200000, .i1⟩
  | 99 => ⟨S_, .i32⟩
  | 100 => ⟨S3200000, .i32⟩
  | 101 => ⟨S3200000, .i32⟩
  | 102 => ⟨S3200000, .i32⟩
  | 103 => ⟨S3200000x1, .i32⟩
  | 104 => ⟨S3200000x32, .f32⟩
  | 105 => ⟨S3200000x32, .f32⟩
  | 106 => ⟨S3200000x32, .f32⟩
  | 107 => ⟨S_, .f32⟩
  | 108 => ⟨S100000x32, .f32⟩
  | 109 => ⟨S3200000x1, .i32⟩
  | 110 => ⟨S100000x32, .f32⟩
  | 111 => ⟨S100000, .f32⟩
  | 112 => ⟨S100000x1, .f32⟩
  | 113 => ⟨S100000x32, .f32⟩
  | 114 => ⟨S100000x32, .f32⟩
  | 115 => ⟨S100000x32, .f32⟩
  | 116 => ⟨S1x32, .f32⟩
  | 117 => ⟨S100000x32, .f32⟩
  | 118 => ⟨S100000x32, .f32⟩
  | 119 => ⟨S_, .f32⟩
  | 120 => ⟨S100000x32, .f32⟩
  | 121 => ⟨S100000x32, .f32⟩
  | 122 => ⟨S100000x32, .f32⟩
  | 123 => ⟨S1x32, .f32⟩
  | 124 => ⟨S100000x32, .f32⟩
  | 125 => ⟨S100000x32, .f32⟩
  | 126 => ⟨S100000x32, .f32⟩
  | 127 => ⟨S100000x16, .f32⟩
  | _ => ⟨S100000x128, .f32⟩

abbrev hbmTy0_1 (i : Nat) : BufTy := match i % 128 with
  | 0 => ⟨S_, .i32⟩
  | 1 => ⟨S3200000, .i32⟩
  | 2 => ⟨S3200000, .i1⟩
  | 3 => ⟨S_, .i32⟩
  | 4 => ⟨S3200000, .i32⟩
  | 5 => ⟨S3200000, .i32⟩
  | 6 => ⟨S3200000, .i32⟩
  | 7 => ⟨S3200000x1, .i32⟩
  | 8 => ⟨S3200000, .f32⟩
  | 9 => ⟨S_, .i32⟩
  | 10 => ⟨S3200000, .i32⟩
  | 11 => ⟨S3200000, .i1⟩
  | 12 => ⟨S_, .i32⟩
  | 13 => ⟨S3200000, .i32⟩
  | 14 => ⟨S3200000, .i32⟩
  | 15 => ⟨S3200000, .i32⟩
  | 16 => ⟨S3200000x1, .i32⟩
  | 17 => ⟨S3200000, .f32⟩
  | 18 => ⟨S3200000, .f32⟩
  | 19 => ⟨S3200000x1, .f32⟩
  | 20 => ⟨S_, .i32⟩
  | 21 => ⟨S3200000, .i32⟩
  | 22 => ⟨S3200000, .i1⟩
  | 23 => ⟨S_, .i32⟩
  | 24 => ⟨S3200000, .i32⟩
  | 25 => ⟨S3200000, .i32⟩
  | 26 => ⟨S3200000, .i32⟩
  | 27 => ⟨S3200000x1, .i32⟩
  | 28 => ⟨S3200000x16, .f32⟩
  | 29 => ⟨S3200000x16, .f32⟩
  | 30 => ⟨S3200000x16, .f32⟩
  | 31 => ⟨S_, .f32⟩
  | 32 => ⟨S100000x16, .f32⟩
  | 33 => ⟨S3200000x1, .i32⟩
  | 34 => ⟨S100000x16, .f32⟩
  | 35 => ⟨S100000, .f32⟩
  | 36 => ⟨S100000x1, .f32⟩
  | 37 => ⟨S100000x16, .f32⟩
  | 38 => ⟨S100000x16, .f32⟩
  | 39 => ⟨S100000x16, .f32⟩
  | 40 => ⟨S1x16, .f32⟩
  | 41 => ⟨S100000x16, .f32⟩
  | 42 => ⟨S100000x16, .f32⟩
  | 43 => ⟨S_, .f32⟩
  | 44 => ⟨S100000x16, .f32⟩
  | 45 => ⟨S100000x16, .f32⟩
  | 46 => ⟨S100000x16, .f32⟩
  | 47 => ⟨S1x16, .f32⟩
  | 48 => ⟨S100000x16, .f32⟩
  | 49 => ⟨S100000x16, .f32⟩
  | 50 => ⟨S100000x16, .f32⟩
  | 51 => ⟨S100000x16, .f32⟩
  | 52 => ⟨S1x16, .f32⟩
  | 53 => ⟨S100000x16, .f32⟩
  | 54 => ⟨S100000x16, .f32⟩
  | 55 => ⟨S100000x16, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_cst_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst_1 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_c : Ref sig .tc := ⟨.hbm, 29, rfl⟩
abbrev main_v12 : Ref sig .tc := ⟨.hbm, 30, rfl⟩
abbrev main_v13 : Ref sig .tc := ⟨.hbm, 31, rfl⟩
abbrev main_c_2 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_3 : Ref sig .tc := ⟨.hbm, 38, rfl⟩
abbrev main_v19 : Ref sig .tc := ⟨.hbm, 39, rfl⟩
abbrev main_v20 : Ref sig .tc := ⟨.hbm, 40, rfl⟩
abbrev main_c_4 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_c_5 : Ref sig .tc := ⟨.hbm, 49, rfl⟩
abbrev main_v28 : Ref sig .tc := ⟨.hbm, 50, rfl⟩
abbrev main_v29 : Ref sig .tc := ⟨.hbm, 51, rfl⟩
abbrev main_c_6 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_7 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_call0_cst : Ref sig .tc := ⟨.hbm, 72, rfl⟩
abbrev main_call0_v0 : Ref sig .tc := ⟨.hbm, 73, rfl⟩
abbrev main_v48 : Ref sig .tc := ⟨.hbm, 74, rfl⟩
abbrev main_v49 : Ref sig .tc := ⟨.hbm, 75, rfl⟩
abbrev main_c_8 : Ref sig .tc := ⟨.hbm, 76, rfl⟩
abbrev main_v50 : Ref sig .tc := ⟨.hbm, 77, rfl⟩
abbrev main_v51 : Ref sig .tc := ⟨.hbm, 78, rfl⟩
abbrev main_c_9 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_c_10 : Ref sig .tc := ⟨.hbm, 85, rfl⟩
abbrev main_v57 : Ref sig .tc := ⟨.hbm, 86, rfl⟩
abbrev main_v58 : Ref sig .tc := ⟨.hbm, 87, rfl⟩
abbrev main_c_11 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_c_12 : Ref sig .tc := ⟨.hbm, 96, rfl⟩
abbrev main_v66 : Ref sig .tc := ⟨.hbm, 97, rfl⟩
abbrev main_v67 : Ref sig .tc := ⟨.hbm, 98, rfl⟩
abbrev main_c_13 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_cst_14 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_call1_cst : Ref sig .tc := ⟨.hbm, 119, rfl⟩
abbrev main_call1_v0 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_c_15 : Ref sig .tc := ⟨.hbm, 128, rfl⟩
abbrev main_v93 : Ref sig .tc := ⟨.hbm, 129, rfl⟩
abbrev main_v94 : Ref sig .tc := ⟨.hbm, 130, rfl⟩
abbrev main_c_16 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_c_17 : Ref sig .tc := ⟨.hbm, 137, rfl⟩
abbrev main_v100 : Ref sig .tc := ⟨.hbm, 138, rfl⟩
abbrev main_v101 : Ref sig .tc := ⟨.hbm, 139, rfl⟩
abbrev main_c_18 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_c_19 : Ref sig .tc := ⟨.hbm, 148, rfl⟩
abbrev main_v109 : Ref sig .tc := ⟨.hbm, 149, rfl⟩
abbrev main_v110 : Ref sig .tc := ⟨.hbm, 150, rfl⟩
abbrev main_c_20 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_cst_21 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_v125 : Ref sig .tc := ⟨.hbm, 167, rfl⟩
abbrev main_v126 : Ref sig .tc := ⟨.hbm, 168, rfl⟩
abbrev main_v127 : Ref sig .tc := ⟨.hbm, 169, rfl⟩
abbrev main_v128 : Ref sig .tc := ⟨.hbm, 170, rfl⟩
abbrev main_call2_cst : Ref sig .tc := ⟨.hbm, 171, rfl⟩
abbrev main_call2_v0 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S_S100000 : S_.BroadcastsInDim S100000 (![] : Fin 0 → Fin S100000.rank)
  bcast_S3200000_S3200000x1_0 : S3200000.BroadcastsInDim S3200000x1 (![0] : Fin 1 → Fin S3200000x1.rank)
  bcast_S3200000x1_S3200000x64_0_1 : S3200000x1.BroadcastsInDim S3200000x64 (![0, 1] : Fin 2 → Fin S3200000x64.rank)
  bcast_S_S100000x64 : S_.BroadcastsInDim S100000x64 (![] : Fin 0 → Fin S100000x64.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S3200000x1_S3200000x32_0_1 : S3200000x1.BroadcastsInDim S3200000x32 (![0, 1] : Fin 2 → Fin S3200000x32.rank)
  bcast_S_S100000x32 : S_.BroadcastsInDim S100000x32 (![] : Fin 0 → Fin S100000x32.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S3200000x1_S3200000x16_0_1 : S3200000x1.BroadcastsInDim S3200000x16 (![0, 1] : Fin 2 → Fin S3200000x16.rank)
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S3200000x1_S3200000_n_0_0_1_wf : ScatterDims.WF S100000 S3200000x1 S3200000 [] [0] [0] 1
  dot_S100000x128_S128x64_S100000x64_1_0_0_1_n_n_wf : DotDims.WF S100000x128 S128x64 S100000x64 [1] [0] [0] [1] [] []
  gather_S100000_S3200000x1_S3200000_n_0_n_n_0_1_1_wf : GatherDims.WF S100000 S3200000x1 S3200000 [] [0] [] [0] [] 1 ![1]
  gather_S100000x64_S3200000x1_S3200000x64_1_0_n_n_0_1_164_wf : GatherDims.WF S100000x64 S3200000x1 S3200000x64 [1] [0] [] [0] [] 1 ![1, 64]
  scatter_S100000x64_S3200000x1_S3200000x64_1_0_0_1_wf : ScatterDims.WF S100000x64 S3200000x1 S3200000x64 [1] [0] [0] 1
  dot_S100000x64_S64x32_S100000x32_1_0_0_1_n_n_wf : DotDims.WF S100000x64 S64x32 S100000x32 [1] [0] [0] [1] [] []
  gather_S100000x32_S3200000x1_S3200000x32_1_0_n_n_0_1_132_wf : GatherDims.WF S100000x32 S3200000x1 S3200000x32 [1] [0] [] [0] [] 1 ![1, 32]
  scatter_S100000x32_S3200000x1_S3200000x32_1_0_0_1_wf : ScatterDims.WF S100000x32 S3200000x1 S3200000x32 [1] [0] [0] 1
  dot_S100000x128_S128x32_S100000x32_1_0_0_1_n_n_wf : DotDims.WF S100000x128 S128x32 S100000x32 [1] [0] [0] [1] [] []
  dot_S100000x32_S32x16_S100000x16_1_0_0_1_n_n_wf : DotDims.WF S100000x32 S32x16 S100000x16 [1] [0] [0] [1] [] []
  gather_S100000x16_S3200000x1_S3200000x16_1_0_n_n_0_1_116_wf : GatherDims.WF S100000x16 S3200000x1 S3200000x16 [1] [0] [] [0] [] 1 ![1, 16]
  scatter_S100000x16_S3200000x1_S3200000x16_1_0_0_1_wf : ScatterDims.WF S100000x16 S3200000x1 S3200000x16 [1] [0] [0] 1
  dot_S100000x128_S128x16_S100000x16_1_0_0_1_n_n_wf : DotDims.WF S100000x128 S128x16 S100000x16 [1] [0] [0] [1] [] []
  dot_S100000x64_S64x16_S100000x16_1_0_0_1_n_n_wf : DotDims.WF S100000x64 S64x16 S100000x16 [1] [0] [0] [1] [] []

variable [Facts₀]

def scatter_S100000_S3200000x1_S3200000_n_0_0_1 : ScatterDims S100000 S3200000x1 S3200000 where
  updateWindowDims := []
  insertedWindowDims := [0]
  scatterDimsToOperandDims := [0]
  indexVectorDim := 1
  wf := scatter_S100000_S3200000x1_S3200000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000_S3200000x1_S3200000_n_0_n_n_0_1_1 : GatherDims S100000 S3200000x1 S3200000 where
  offsetDims := []
  collapsedSliceDims := [0]
  operandBatchingDims := []
  startIndicesBatchingDims := []
  startIndexMap := [0]
  indexVectorDim := 1
  sliceSizes := ![1]
  wf := gather_S100000_S3200000x1_S3200000_n_0_n_n_0_1_1_wf
def gather_S100000x64_S3200000x1_S3200000x64_1_0_n_n_0_1_164 : GatherDims S100000x64 S3200000x1 S3200000x64 where
  offsetDims := [1]
  collapsedSliceDims := [0]
  operandBatchingDims := []
  startIndicesBatchingDims := []
  startIndexMap := [0]
  indexVectorDim := 1
  sliceSizes := ![1, 64]
  wf := gather_S100000x64_S3200000x1_S3200000x64_1_0_n_n_0_1_164_wf
def scatter_S100000x64_S3200000x1_S3200000x64_1_0_0_1 : ScatterDims S100000x64 S3200000x1 S3200000x64 where
  updateWindowDims := [1]
  insertedWindowDims := [0]
  scatterDimsToOperandDims := [0]
  indexVectorDim := 1
  wf := scatter_S100000x64_S3200000x1_S3200000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S3200000x1_S3200000x32_1_0_n_n_0_1_132 : GatherDims S100000x32 S3200000x1 S3200000x32 where
  offsetDims := [1]
  collapsedSliceDims := [0]
  operandBatchingDims := []
  startIndicesBatchingDims := []
  startIndexMap := [0]
  indexVectorDim := 1
  sliceSizes := ![1, 32]
  wf := gather_S100000x32_S3200000x1_S3200000x32_1_0_n_n_0_1_132_wf
def scatter_S100000x32_S3200000x1_S3200000x32_1_0_0_1 : ScatterDims S100000x32 S3200000x1 S3200000x32 where
  updateWindowDims := [1]
  insertedWindowDims := [0]
  scatterDimsToOperandDims := [0]
  indexVectorDim := 1
  wf := scatter_S100000x32_S3200000x1_S3200000x32_1_0_0_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S3200000x1_S3200000x16_1_0_n_n_0_1_116 : GatherDims S100000x16 S3200000x1 S3200000x16 where
  offsetDims := [1]
  collapsedSliceDims := [0]
  operandBatchingDims := []
  startIndicesBatchingDims := []
  startIndexMap := [0]
  indexVectorDim := 1
  sliceSizes := ![1, 16]
  wf := gather_S100000x16_S3200000x1_S3200000x16_1_0_n_n_0_1_116_wf
def scatter_S100000x16_S3200000x1_S3200000x16_1_0_0_1 : ScatterDims S100000x16 S3200000x1 S3200000x16 where
  updateWindowDims := [1]
  insertedWindowDims := [0]
  scatterDimsToOperandDims := [0]
  indexVectorDim := 1
  wf := scatter_S100000x16_S3200000x1_S3200000x16_1_0_0_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def dot_S100000x64_S64x16_S100000x16_1_0_0_1_n_n : DotDims S100000x64 S64x16 S100000x16 where
  lhsContracting := [1]
  rhsContracting := [0]
  lhsNonContracting := [0]
  rhsNonContracting := [1]
  lhsBatch := []
  rhsBatch := []
  wf := dot_S100000x64_S64x16_S100000x16_1_0_0_1_n_n_wf

class Facts : Prop extends Facts₀ where

variable [Facts]
-- ==== Proof.KernelRun.lean ====
import proofs.«164043_j44212393345739_2_alg».proof.Proof.Gen.KernelIdeal.Frame

/-! # The whole run of @main, with the output buffer

The launch of @main's sixteen segments from any memory with zero counters: every weakly fair execution on the
TensorCores terminates, and in every final state the output buffer `main_v79` holds the last boundary's contents
`Gen.W16` read at that buffer, while every argument array is as launched. The thread state carried between segments
is "every unscoped buffer at the boundary's contents", so the final state determines every unscoped buffer; here the
output buffer is kept beside the fourteen argument arrays. -/

set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- From any memory with zero counters every weakly fair execution of @main on the TensorCores terminates without a
    fault, and every final state has the output buffer at the last boundary's contents and the argument arrays as
    launched. -/
theorem run : θ_run defs (onTc (τ := τ) (main (F := F))) ⟨m, fun _ => 0, ρ⟩ (fun r => ∀ c : Dev nD,
      r.2.mem ((c.tc : Thread nD τ).loc main_v79) = W16 m ρ c (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨(h c _ (mem_uc main_v79 (by decide))),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c),
       (h c _ (mem_uc main_arg11 (by decide))).trans (W16_main_arg11 m ρ c),
       (h c _ (mem_uc main_arg12 (by decide))).trans (W16_main_arg12 m ρ c),
       (h c _ (mem_uc main_arg13 (by decide))).trans (W16_main_arg13 m ρ c)⟩)

end Cert.KernelIdeal.Whole

end
-- ==== Proof.FoldSteps.lean ====
/-
  @main's buffers from boundary to boundary.

  The run of @main is cut at sixteen boundaries into host stretches and regions; the contents of every buffer at each
  boundary are a fold from the launch memory. This file says what each segment leaves alone: a host stretch keeps every
  buffer that is not the result of one of its operations, a region keeps every buffer but its one output array (a
  buffer outside its windows is untouched, an input window's array is left as entered). The boundaries are then
  gathered into one family indexed by a number, so that "this buffer is not written between boundary i and boundary
  i + k" is one decidable side condition and the buffer's contents are carried across all k segments at once.

  Also here: a vector recast as a one-column or one-row matrix is the same array as the vector laid along that
  matrix's long axis, which is how the two programs spell the same column and row operands.
-/
import proofs.«164043_j44212393345739_2_alg».proof.Proof.Gen.KernelIdeal.Frame
import Idealize.ShloMosaic.Lib.Pipeline.Value
import Idealize.ShloMosaic.Lib.ValueIdx

set_option maxRecDepth 16384

noncomputable section

namespace Cert.KernelIdeal.Whole

open Cert.KernelIdeal.Gen
open Idealize.ShloMosaic Idealize.ShloMosaic.TcCoe Idealize.SL.Sem
open Idealize.ShloMosaic.ValueIdx

/-! ## A vector as a column, and as a row -/

/-- A vector recast as a column is the vector laid along the column's long axis. -/
theorem shapeCast_col {α : Type} {a : ℕ} (x : (⟨1, ![a]⟩ : Shape).Idx → α)
    (h : (⟨1, ![a]⟩ : Shape).ShapeCasts ⟨2, ![a, 1]⟩)
    (hb : (⟨1, ![a]⟩ : Shape).BroadcastsInDim ⟨2, ![a, 1]⟩ (![0] : Fin 1 → Fin 2)) :
    shapeCast ⟨2, ![a, 1]⟩ x h = broadcastInDim ⟨2, ![a, 1]⟩ (![0] : Fin 1 → Fin 2) hb x := by
  funext j
  obtain ⟨i, u, rfl⟩ : ∃ (i : Fin a) (u : Fin 1), j = ix2 i u := ⟨j 0, j 1, eq_ix2 j⟩
  have hu : u.val = 0 := by omega
  refine (shapeCast_apply x h _ (ix1 i) ?_).trans (broadcastInDim_apply _ hb x _ (ix1 i) ?_).symm
  · rw [Shape.rowMajor_val_two, Shape.rowMajor_val_one]
    show i.val = i.val * 1 + u.val
    rw [hu, Nat.mul_one, Nat.add_zero]
  · intro d
    match d with
    | ⟨0, _⟩ =>
      show i.val = if a = 1 then 0 else i.val
      split
      · have := i.isLt; omega
      · rfl

/-- A vector recast as a row is the vector laid along the row's long axis. -/
theorem shapeCast_row {α : Type} {a : ℕ} (x : (⟨1, ![a]⟩ : Shape).Idx → α)
    (h : (⟨1, ![a]⟩ : Shape).ShapeCasts ⟨2, ![1, a]⟩)
    (hb : (⟨1, ![a]⟩ : Shape).BroadcastsInDim ⟨2, ![1, a]⟩ (![1] : Fin 1 → Fin 2)) :
    shapeCast ⟨2, ![1, a]⟩ x h = broadcastInDim ⟨2, ![1, a]⟩ (![1] : Fin 1 → Fin 2) hb x := by
  funext j
  obtain ⟨u, i, rfl⟩ : ∃ (u : Fin 1) (i : Fin a), j = ix2 u i := ⟨j 0, j 1, eq_ix2 j⟩
  have hu : u.val = 0 := by omega
  refine (shapeCast_apply x h _ (ix1 i) ?_).trans (broadcastInDim_apply _ hb x _ (ix1 i) ?_).symm
  · rw [Shape.rowMajor_val_two, Shape.rowMajor_val_one]
    show i.val = u.val * a + i.val
    rw [hu, Nat.zero_mul, Nat.zero_add]
  · intro d
    match d with
    | ⟨0, _⟩ =>
      show i.val = if a = 1 then 0 else i.val
      split
      · have := i.isLt; omega
      · rfl

variable (m : (ℓ : Loc nD τ sig) → Buf (Elt Ideal) ℓ) (ρ : Dev nD → PrngReg)

/-! ## What each segment of @main writes

Segment n runs from boundary n - 1 to boundary n. A host stretch writes the result buffers of its operations; a
region writes its one output array (its other windows are inputs, which the pipeline leaves as entered, and every
buffer outside its windows is kept). -/

/-- The buffers the host stretch before boundary 1 writes. -/
def wr1 : List (Ref sig .tc) := [main_v0, main_v1, main_v2, main_v3, main_cst, main_v4, main_cst_0, main_v5, main_v6, main_v7, main_cst_1, main_v8, main_v9, main_v10, main_v11, main_v12, main_c, main_v13, main_v14, main_c_2, main_v15, main_v16, main_v17, main_v18, main_v19, main_c_3, main_v20, main_v21, main_c_4, main_v22, main_v23, main_v24, main_v25, main_v26, main_v27, main_v28]
theorem hW1 : (hostOps0 : List (HloOp τ sig (Elt Ideal))).Forall fun op => op.writes ⊆ (wr1.map (Proc.devRef (τ := τ) .tc)).toFinset := by
  simp only [hostOps0, List.Forall, StableHlo.nullary_writes, StableHlo.unary_writes, StableHlo.binary_writes, StableHlo.ternary_writes, StableHlo.reshape_writes, Finset.singleton_subset_iff, List.mem_toFinset, List.mem_map]
  repeat' apply And.intro
  all_goals exact ⟨_, by decide, rfl⟩
/-- A buffer the stretch does not write is kept. -/
theorem keep1 (c : Dev nD) (b : Ref sig .tc) (hb : b ∉ wr1) :
    W1 m ρ c (Proc.devRef .tc b) = W0 m ρ c (Proc.devRef .tc b) :=
  StableHlo.after_of_writes_sub hostOps0 _ hW1 hb

/-- The region before boundary 2 writes its output array only. -/
def wr2 : List (Ref sig .tc) := [main_v29]
/-- Every other buffer is kept: outside the region's windows by the frame, at an input window by the pipeline. -/
theorem keep2 (c : Dev nD) (b : Ref sig .tc) (hb : b ∉ wr2) :
    W2 m ρ c (Proc.devRef .tc b) = W1 m ρ c (Proc.devRef .tc b) := by
  by_cases h : ∀ w, Pipeline.arrRef spec0 w ≠ b
  · exact W2_of_ne m ρ c b h
  · simp only [not_forall, not_not] at h
    obtain ⟨w, rfl⟩ := h
    match w, hb with
    | ⟨0, _⟩, _ => exact (W2_arr m ρ c 0).trans (((dat0 (V1 m ρ) c).arrAt_in 0 rfl _).trans (A_eq0 (V1 m ρ) c 0))
    | ⟨1, _⟩, _ => exact (W2_arr m ρ c 1).trans (((dat0 (V1 m ρ) c).arrAt_in 1 rfl _).trans (A_eq0 (V1 m ρ) c 1))
    | ⟨2, _⟩, hb => exact absurd (List.mem_singleton.mpr rfl) hb

/-- The buffers the host stretch before boundary 3 writes. -/
def wr3 : List (Ref sig .tc) := [main_c_5, main_v30, main_v31, main_c_6, main_v32, main_v33, main_v34, main_v35, main_v36, main_v37, main_v38, main_cst_7, main_v39, main_v40, main_v41, main_v42]
theorem hW3 : (hostOps1 : List (HloOp τ sig (Elt Ideal))).Forall fun op => op.writes ⊆ (wr3.map (Proc.devRef (τ := τ) .tc)).toFinset := by
  simp only [hostOps1, List.Forall, StableHlo.nullary_writes, StableHlo.unary_writes, StableHlo.binary_writes, StableHlo.ternary_writes, StableHlo.reshape_writes, Finset.singleton_subset_iff, List.mem_toFinset, List.mem_map]
  repeat' apply And.intro
  all_goals exact ⟨_, by decide, rfl⟩
/-- A buffer the stretch does not write is kept. -/
theorem keep3 (c : Dev nD) (b : Ref sig .tc) (hb : b ∉ wr3) :
    W3 m ρ c (Proc.devRef .tc b) = W2 m ρ c (Proc.devRef .tc b) :=
  StableHlo.after_of_writes_sub hostOps1 _ hW3 hb

/-- The region before boundary 4 writes its output array only. -/
def wr4 : List (Ref sig .tc) := [main_v43]
/-- Every other buffer is kept: outside the region's windows by the frame, at an input window by the pipeline. -/
theorem keep4 (c : Dev nD) (b : Ref sig .tc) (hb : b ∉ wr4) :
    W4 m ρ c (Proc.devRef .tc b) = W3 m ρ c (Proc.devRef .tc b) := by
  by_cases h : ∀ w, Pipeline.arrRef spec1 w ≠ b
  · exact W4_of_ne m ρ c b h
  · simp only [not_forall, not_not] at h
    obtain ⟨w, rfl⟩ := h
    match w, hb with
    | ⟨0, _⟩, _ => exact (W4_arr m ρ c 0).trans (((dat1 (V3 m ρ) c).arrAt_in 0 rfl _).trans (A_eq1 (V3 m ρ) c 0))
    | ⟨1, _⟩, _ => exact (W4_arr m ρ c 1).trans (((dat1 (V3 m ρ) c).arrAt_in 1 rfl _).trans (A_eq1 (V3 m ρ) c 1))
    | ⟨2, _⟩, _ => exact (W4_arr m ρ c 2).trans (((dat1 (V3 m ρ) c).arrAt_in 2 rfl _).trans (A_eq1 (V3 m ρ) c 2))
    | ⟨3, _⟩, _ => exact (W4_arr m ρ c 3).trans (((dat1 (V3 m ρ) c).arrAt_in 3 rfl _).trans (A_eq1 (V3 m ρ) c 3))
    | ⟨4, _⟩, hb => exact absurd (List.mem_singleton.mpr rfl) hb

/-- The buffers the host stretch before boundary 5 writes. -/
def wr5 : List (Ref sig .tc) := [main_v44]
theorem hW5 : (hostOps2 : List (HloOp τ sig (Elt Ideal))).Forall fun op => op.writes ⊆ (wr5.map (Proc.devRef (τ := τ) .tc)).toFinset := by
  simp only [hostOps2, List.Forall, StableHlo.nullary_writes, StableHlo.unary_writes, StableHlo.binary_writes, StableHlo.ternary_writes, StableHlo.reshape_writes, Finset.singleton_subset_iff, List.mem_toFinset, List.mem_map]
  exact ⟨_, by decide, rfl⟩
/-- A buffer the stretch does not write is kept. -/
theorem keep5 (c : Dev nD) (b : Ref sig .tc) (hb : b ∉ wr5) :
    W5 m ρ c (Proc.devRef .tc b) = W4 m ρ c (Proc.devRef .tc b) :=
  StableHlo.after_of_writes_sub hostOps2 _ hW5 hb

/-- The region before boundary 6 writes its output array only. -/
def wr6 : List (Ref sig .tc) := [main_v45]
/-- Every other buffer is kept: outside the region's windows by the frame, at an input window by the pipeline. -/
theorem keep6 (c : Dev nD) (b : Ref sig .tc) (hb : b ∉ wr6) :
    W6 m ρ c (Proc.devRef .tc b) = W5 m ρ c (Proc.devRef .tc b) := by
  by_cases h : ∀ w, Pipeline.arrRef spec2 w ≠ b
  · exact W6_of_ne m ρ c b h
  · simp only [not_forall, not_not] at h
    obtain ⟨w, rfl⟩ := h
    match w, hb with
    | ⟨0, _⟩, _ => exact (W6_arr m ρ c 0).trans (((dat2 (V5 m ρ) c).arrAt_in 0 rfl _).trans (A_eq2 (V5 m ρ) c 0))
    | ⟨1, _⟩, _ => exact (W6_arr m ρ c 1).trans (((dat2 (V5 m ρ) c).arrAt_in 1 rfl _).trans (A_eq2 (V5 m ρ) c 1))
    | ⟨2, _⟩, _ => exact (W6_arr m ρ c 2).trans (((dat2 (V5 m ρ) c).arrAt_in 2 rfl _).trans (A_eq2 (V5 m ρ) c 2))
    | ⟨3, _⟩, hb => exact absurd (List.mem_singleton.mpr rfl) hb

/-- The region before boundary 7 writes its output array only. -/
def wr7 : List (Ref sig .tc) := [main_v46]
/-- Every other buffer is kept: outside the region's windows by the frame, at an input window by the pipeline. -/
theorem keep7 (c : Dev nD) (b : Ref sig .tc) (hb : b ∉ wr7) :
    W7 m ρ c (Proc.devRef .tc b) = W6 m ρ c (Proc.devRef .tc b) := by
  by_cases h : ∀ w, Pipeline.arrRef spec3 w ≠ b
  · exact W7_of_ne m ρ c b h
  · simp only [not_forall, not_not] at h
    obtain ⟨w, rfl⟩ := h
    match w, hb with
    | ⟨0, _⟩, _ => exact (W7_arr m ρ c 0).trans (((dat3 (V6 m ρ) c).arrAt_in 0 rfl _).trans (A_eq3 (V6 m ρ) c 0))
    | ⟨1, _⟩, _ => exact (W7_arr m ρ c 1).trans (((dat3 (V6 m ρ) c).arrAt_in 1 rfl _).trans (A_eq3 (V6 m ρ) c 1))
    | ⟨2, _⟩, hb => exact absurd (List.mem_singleton.mpr rfl) hb

/-- The buffers the host stretch before boundary 8 writes. -/
def wr8 : List (Ref sig .tc) := [main_c_8, main_v47, main_v48, main_c_9, main_v49, main_v50, main_v51, main_v52, main_v53, main_v54, main_v55, main_cst_10, main_v56, main_v57, main_v58, main_v59]
theorem hW8 : (hostOps4 : List (HloOp τ sig (Elt Ideal))).Forall fun op => op.writes ⊆ (wr8.map (Proc.devRef (τ := τ) .tc)).toFinset := by
  simp only [hostOps4, List.Forall, StableHlo.nullary_writes, StableHlo.unary_writes, StableHlo.binary_writes, StableHlo.ternary_writes, StableHlo.reshape_writes, Finset.singleton_subset_iff, List.mem_toFinset, List.mem_map]
  repeat' apply And.intro
  all_goals exact ⟨_, by decide, rfl⟩
/-- A buffer the stretch does not write is kept. -/
theorem keep8 (c : Dev nD) (b : Ref sig .tc) (hb : b ∉ wr8) :
    W8 m ρ c (Proc.devRef .tc b) = W7 m ρ c (Proc.devRef .tc b) :=
  StableHlo.after_of_writes_sub hostOps4 _ hW8 hb

/-- The region before boundary 9 writes its output array only. -/
def wr9 : List (Ref sig .tc) := [main_v60]
/-- Every other buffer is kept: outside the region's windows by the frame, at an input window by the pipeline. -/
theorem keep9 (c : Dev nD) (b : Ref sig .tc) (hb : b ∉ wr9) :
    W9 m ρ c (Proc.devRef .tc b) = W8 m ρ c (Proc.devRef .tc b) := by
  by_cases h : ∀ w, Pipeline.arrRef spec4 w ≠ b
  · exact W9_of_ne m ρ c b h
  · simp only [not_forall, not_not] at h
    obtain ⟨w, rfl⟩ := h
    match w, hb with
    | ⟨0, _⟩, _ => exact (W9_arr m ρ c 0).trans (((dat4 (V8 m ρ) c).arrAt_in 0 rfl _).trans (A_eq4 (V8 m ρ) c 0))
    | ⟨1, _⟩, _ => exact (W9_arr m ρ c 1).trans (((dat4 (V8 m ρ) c).arrAt_in 1 rfl _).trans (A_eq4 (V8 m ρ) c 1))
    | ⟨2, _⟩, _ => exact (W9_arr m ρ c 2).trans (((dat4 (V8 m ρ) c).arrAt_in 2 rfl _).trans (A_eq4 (V8 m ρ) c 2))
    | ⟨3, _⟩, _ => exact (W9_arr m ρ c 3).trans (((dat4 (V8 m ρ) c).arrAt_in 3 rfl _).trans (A_eq4 (V8 m ρ) c 3))
    | ⟨4, _⟩, _ => exact (W9_arr m ρ c 4).trans (((dat4 (V8 m ρ) c).arrAt_in 4 rfl _).trans (A_eq4 (V8 m ρ) c 4))
    | ⟨5, _⟩, hb => exact absurd (List.mem_singleton.mpr rfl) hb

/-- The buffers the host stretch before boundary 10 writes. -/
def wr10 : List (Ref sig .tc) := [main_v61]
theorem hW10 : (hostOps5 : List (HloOp τ sig (Elt Ideal))).Forall fun op => op.writes ⊆ (wr10.map (Proc.devRef (τ := τ) .tc)).toFinset := by
  simp only [hostOps5, List.Forall, StableHlo.nullary_writes, StableHlo.unary_writes, StableHlo.binary_writes, StableHlo.ternary_writes, StableHlo.reshape_writes, Finset.singleton_subset_iff, List.mem_toFinset, List.mem_map]
  exact ⟨_, by decide, rfl⟩
/-- A buffer the stretch does not write is kept. -/
theorem keep10 (c : Dev nD) (b : Ref sig .tc) (hb : b ∉ wr10) :
    W10 m ρ c (Proc.devRef .tc b) = W9 m ρ c (Proc.devRef .tc b) :=
  StableHlo.after_of_writes_sub hostOps5 _ hW10 hb

/-- The region before boundary 11 writes its output array only. -/
def wr11 : List (Ref sig .tc) := [main_v62]
/-- Every other buffer is kept: outside the region's windows by the frame, at an input window by the pipeline. -/
theorem keep11 (c : Dev nD) (b : Ref sig .tc) (hb : b ∉ wr11) :
    W11 m ρ c (Proc.devRef .tc b) = W10 m ρ c (Proc.devRef .tc b) := by
  by_cases h : ∀ w, Pipeline.arrRef spec5 w ≠ b
  · exact W11_of_ne m ρ c b h
  · simp only [not_forall, not_not] at h
    obtain ⟨w, rfl⟩ := h
    match w, hb with
    | ⟨0, _⟩, _ => exact (W11_arr m ρ c 0).trans (((dat5 (V10 m ρ) c).arrAt_in 0 rfl _).trans (A_eq5 (V10 m ρ) c 0))
    | ⟨1, _⟩, _ => exact (W11_arr m ρ c 1).trans (((dat5 (V10 m ρ) c).arrAt_in 1 rfl _).trans (A_eq5 (V10 m ρ) c 1))
    | ⟨2, _⟩, _ => exact (W11_arr m ρ c 2).trans (((dat5 (V10 m ρ) c).arrAt_in 2 rfl _).trans (A_eq5 (V10 m ρ) c 2))
    | ⟨3, _⟩, hb => exact absurd (List.mem_singleton.mpr rfl) hb

/-- The buffers the host stretch before boundary 12 writes. -/
def wr12 : List (Ref sig .tc) := [main_v63]
theorem hW12 : (hostOps6 : List (HloOp τ sig (Elt Ideal))).Forall fun op => op.writes ⊆ (wr12.map (Proc.devRef (τ := τ) .tc)).toFinset := by
  simp only [hostOps6, List.Forall, StableHlo.nullary_writes, StableHlo.unary_writes, StableHlo.binary_writes, StableHlo.ternary_writes, StableHlo.reshape_writes, Finset.singleton_subset_iff, List.mem_toFinset, List.mem_map]
  exact ⟨_, by decide, rfl⟩
/-- A buffer the stretch does not write is kept. -/
theorem keep12 (c : Dev nD) (b : Ref sig .tc) (hb : b ∉ wr12) :
    W12 m ρ c (Proc.devRef .tc b) = W11 m ρ c (Proc.devRef .tc b) :=
  StableHlo.after_of_writes_sub hostOps6 _ hW12 hb

/-- The region before boundary 13 writes its output array only. -/
def wr13 : List (Ref sig .tc) := [main_v64]
/-- Every other buffer is kept: outside the region's windows by the frame, at an input window by the pipeline. -/
theorem keep13 (c : Dev nD) (b : Ref sig .tc) (hb : b ∉ wr13) :
    W13 m ρ c (Proc.devRef .tc b) = W12 m ρ c (Proc.devRef .tc b) := by
  by_cases h : ∀ w, Pipeline.arrRef spec6 w ≠ b
  · exact W13_of_ne m ρ c b h
  · simp only [not_forall, not_not] at h
    obtain ⟨w, rfl⟩ := h
    match w, hb with
    | ⟨0, _⟩, _ => exact (W13_arr m ρ c 0).trans (((dat6 (V12 m ρ) c).arrAt_in 0 rfl _).trans (A_eq6 (V12 m ρ) c 0))
    | ⟨1, _⟩, _ => exact (W13_arr m ρ c 1).trans (((dat6 (V12 m ρ) c).arrAt_in 1 rfl _).trans (A_eq6 (V12 m ρ) c 1))
    | ⟨2, _⟩, _ => exact (W13_arr m ρ c 2).trans (((dat6 (V12 m ρ) c).arrAt_in 2 rfl _).trans (A_eq6 (V12 m ρ) c 2))
    | ⟨3, _⟩, hb => exact absurd (List.mem_singleton.mpr rfl) hb

/-- The region before boundary 14 writes its output array only. -/
def wr14 : List (Ref sig .tc) := [main_v65]
/-- Every other buffer is kept: outside the region's windows by the frame, at an input window by the pipeline. -/
theorem keep14 (c : Dev nD) (b : Ref sig .tc) (hb : b ∉ wr14) :
    W14 m ρ c (Proc.devRef .tc b) = W13 m ρ c (Proc.devRef .tc b) := by
  by_cases h : ∀ w, Pipeline.arrRef spec7 w ≠ b
  · exact W14_of_ne m ρ c b h
  · simp only [not_forall, not_not] at h
    obtain ⟨w, rfl⟩ := h
    match w, hb with
    | ⟨0, _⟩, _ => exact (W14_arr m ρ c 0).trans (((dat7 (V13 m ρ) c).arrAt_in 0 rfl _).trans (A_eq7 (V13 m ρ) c 0))
    | ⟨1, _⟩, _ => exact (W14_arr m ρ c 1).trans (((dat7 (V13 m ρ) c).arrAt_in 1 rfl _).trans (A_eq7 (V13 m ρ) c 1))
    | ⟨2, _⟩, hb => exact absurd (List.mem_singleton.mpr rfl) hb

/-- The buffers the host stretch before boundary 15 writes. -/
def wr15 : List (Ref sig .tc) := [main_c_11, main_v66, main_v67, main_c_12, main_v68, main_v69, main_v70, main_v71, main_v72, main_v73, main_v74, main_cst_13, main_v75, main_v76, main_v77, main_v78]
theorem hW15 : (hostOps8 : List (HloOp τ sig (Elt Ideal))).Forall fun op => op.writes ⊆ (wr15.map (Proc.devRef (τ := τ) .tc)).toFinset := by
  simp only [hostOps8, List.Forall, StableHlo.nullary_writes, StableHlo.unary_writes, StableHlo.binary_writes, StableHlo.ternary_writes, StableHlo.reshape_writes, Finset.singleton_subset_iff, List.mem_toFinset, List.mem_map]
  repeat' apply And.intro
  all_goals exact ⟨_, by decide, rfl⟩
/-- A buffer the stretch does not write is kept. -/
theorem keep15 (c : Dev nD) (b : Ref sig .tc) (hb : b ∉ wr15) :
    W15 m ρ c (Proc.devRef .tc b) = W14 m ρ c (Proc.devRef .tc b) :=
  StableHlo.after_of_writes_sub hostOps8 _ hW15 hb

/-! ## The boundaries as one family, and a buffer carried across several segments -/

/-- The buffer contents at boundary n, up to the last region's entry (that one from 15 on). -/
def Wn : ℕ → Dev nD → Valuation τ sig (Elt Ideal)
  | 0 => W0 m ρ
  | 1 => W1 m ρ
  | 2 => W2 m ρ
  | 3 => W3 m ρ
  | 4 => W4 m ρ
  | 5 => W5 m ρ
  | 6 => W6 m ρ
  | 7 => W7 m ρ
  | 8 => W8 m ρ
  | 9 => W9 m ρ
  | 10 => W10 m ρ
  | 11 => W11 m ρ
  | 12 => W12 m ρ
  | 13 => W13 m ρ
  | 14 => W14 m ρ
  | _ => W15 m ρ
/-- The buffers segment n writes. -/
def wr : ℕ → List (Ref sig .tc)
  | 1 => wr1
  | 2 => wr2
  | 3 => wr3
  | 4 => wr4
  | 5 => wr5
  | 6 => wr6
  | 7 => wr7
  | 8 => wr8
  | 9 => wr9
  | 10 => wr10
  | 11 => wr11
  | 12 => wr12
  | 13 => wr13
  | 14 => wr14
  | 15 => wr15
  | _ => []
/-- One segment keeps every buffer it does not write. -/
theorem step (c : Dev nD) (b : Ref sig .tc) : ∀ n, n < 15 → b ∉ wr (n + 1) →
    Wn m ρ (n + 1) c (Proc.devRef .tc b) = Wn m ρ n c (Proc.devRef .tc b)
  | 0, _, hb => keep1 m ρ c b hb
  | 1, _, hb => keep2 m ρ c b hb
  | 2, _, hb => keep3 m ρ c b hb
  | 3, _, hb => keep4 m ρ c b hb
  | 4, _, hb => keep5 m ρ c b hb
  | 5, _, hb => keep6 m ρ c b hb
  | 6, _, hb => keep7 m ρ c b hb
  | 7, _, hb => keep8 m ρ c b hb
  | 8, _, hb => keep9 m ρ c b hb
  | 9, _, hb => keep10 m ρ c b hb
  | 10, _, hb => keep11 m ρ c b hb
  | 11, _, hb => keep12 m ρ c b hb
  | 12, _, hb => keep13 m ρ c b hb
  | 13, _, hb => keep14 m ρ c b hb
  | 14, _, hb => keep15 m ρ c b hb
  | n + 15, h, _ => absurd h (by omega)
/-- Segments i + 1 … i + k keep a buffer none of them writes. -/
theorem keep (c : Dev nD) (b : Ref sig .tc) (i : ℕ) : ∀ k, i + k ≤ 15 → (∀ n, n < k → b ∉ wr (i + n + 1)) →
    Wn m ρ (i + k) c (Proc.devRef .tc b) = Wn m ρ i c (Proc.devRef .tc b)
  | 0, _, _ => rfl
  | k + 1, hk, hb =>
    (step m ρ c b (i + k) (by omega) (hb k (by omega))).trans
      (keep c b i k (by omega) fun n hn => hb n (by omega))

end Cert.KernelIdeal.Whole

end
-- ==== Proof.LibDenseRows.lean ====
/-
  General lemmas for kernels that push rows through dense layers, read at the exact (extended-real) instance.

  * `matmulT_zero_apply`: a matrix product of an [M, K] left operand with an [N, K] right operand, both contracted on
    their LAST axis, into a zero accumulator, is at (p, j) the plain sum over k of left (p, k) times right (j, k).
  * `rowSum_apply`: a sum of an [A, B] array along its last axis is at p the plain sum over k of the array at (p, k).
  * `shapeCast_a_a1_apply`: an [a] vector recast as an [a, 1] column reads, at (i, u), the vector at i.
  * `denseT_relu_apply`: a hidden layer as a kernel body spells it (product over last axes into a zero accumulator, bias
    row repeated down the rows, maximum with zero) is at (p, j) max (∑ₖ h (p, k) · w (j, k) + b j) 0.
  * `rowDot_bias_apply`: an output layer of width one spelt as multiply by the one weight row, sum along the row, add the
    one bias, is at (p, u) ∑ₖ h (p, k) · w (0, k) + b 0.
-/
import Idealize.ShloMosaic.Lib.ValueIdx
import Idealize.ShloMosaic.Lib.ValueLayout
import Idealize.ShloMosaic.PureOps.Ideal.Laws

noncomputable section

open scoped BigOperators

namespace Cert.DenseRows

open Idealize.ShloMosaic Idealize.ShloMosaic.ValueIdx

variable {M K N : ℕ}

/-! ## The operand indices of a product contracted on both last axes -/

/-- The left operand's row is the result's row. -/
theorem lhsT_0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column is the contraction position. -/
theorem lhsT_1 (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

/-- The right operand's row is the result's column. -/
theorem rhsT_0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column is the contraction position. -/
theorem rhsT_1 (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- A product of an [M, K] array with an [N, K] array over their last axes, into a zero accumulator, at (p, j):
    the sum over k of left (p, k) times right (j, k). No order of summation is left in it: the sum is the
    extended reals' commutative one. -/
theorem matmulT_zero_apply {φ₁ φ₂ : FTy} (prec : Option ContractPrecision) (h : FVec Ideal ⟨2, ![M, K]⟩ φ₁) (w : FVec Ideal ⟨2, ![N, K]⟩ φ₂)
    (p : Fin M) (j : Fin N) :
    FloatOps.matmul (DotDims.transposedRhs M K N) prec h w (constant ⟨2, ![M, N]⟩ .f32 0x00000000#32) (ix2 p j)
      = ∑ k : Fin K, h (ix2 p k) * w (ix2 j k) := by
  rw [Ideal.matmul_constant_zero_apply, ← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p j) ((contrEquiv1 (DotDims.transposedRhs M K N) K rfl rfl).symm k) = ix2 p k :=
    funext fun a => Fin.ext (by
      match a with
      | ⟨0, _⟩ => exact lhsT_0 _ _
      | ⟨1, _⟩ => exact (lhsT_1 _ _).trans hk)
  have er : (DotDims.transposedRhs M K N).rhsIdx (ix2 p j) ((contrEquiv1 (DotDims.transposedRhs M K N) K rfl rfl).symm k) = ix2 j k :=
    funext fun a => Fin.ext (by
      match a with
      | ⟨0, _⟩ => exact rhsT_0 _ _
      | ⟨1, _⟩ => exact (rhsT_1 _ _).trans hk)
  rw [el, er]

/-! ## A sum along the last axis -/

/-- The sum of an [A, B] array along its last axis, at p, is the sum over k of the array at (p, k). -/
theorem rowSum_apply {A B : ℕ} {φ : FTy} (src : FVec Ideal ⟨2, ![A, B]⟩ φ) (acc : BitVec φ.bits)
    (h : (⟨2, ![A, B]⟩ : Shape).Reduces [1] ⟨1, ![A]⟩) (hφ : FKind.Formats φ) (hacc : acc = FKind.add.neutral φ hφ) (p : Fin A) :
    multiReduction .add [1] ⟨1, ![A]⟩ src acc h hφ hacc (ix1 p) = ∑ k : Fin B, src (ix2 p k) := by
  refine (Ideal.multiReduction_add_single src acc h hφ hacc (ix1 p)).trans ?_
  refine Finset.sum_congr rfl fun k _ => congrArg src (funext fun c => Fin.ext ?_)
  rw [h.lift_val]
  match c with
  | ⟨0, _⟩ => rfl
  | ⟨1, _⟩ => rfl

/-! ## A vector recast as a column -/

/-- An [a] vector recast as an [a, 1] column reads, at (i, u), the vector at i, whatever the unit coordinate u. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-! ## Whole layers at one entry -/

/-- A hidden layer as a kernel body spells it — the product of [M, K] activations with [J, K] weights over their last
    axes into a zero accumulator, plus the [J] bias recast as one row and repeated down the rows, then the maximum with
    the zero splat — is, at (p, j), max (∑ₖ h (p, k) · w (j, k) + b j) 0. -/
theorem denseT_relu_apply {J : ℕ} {φ₁ φ₂ : FTy} (prec : Option ContractPrecision) (h : FVec Ideal ⟨2, ![M, K]⟩ φ₁)
    (w : FVec Ideal ⟨2, ![J, K]⟩ φ₂) (b : FVec Ideal ⟨1, ![J]⟩ .f32) (hc : (⟨1, ![J]⟩ : Shape).ShapeCasts ⟨2, ![1, J]⟩)
    (hb : (⟨2, ![1, J]⟩ : Shape).Broadcasts ⟨2, ![M, J]⟩) (p : Fin M) (j : Fin J) :
    maximumf (addf (matmul (DotDims.transposedRhs M K J) prec h w (constant ⟨2, ![M, J]⟩ .f32 0x00000000#32))
        (broadcastTo ⟨2, ![M, J]⟩ (shapeCast ⟨2, ![1, J]⟩ b hc) hb))
      (broadcast ⟨2, ![M, J]⟩ (Scalar.ofBits (F := Ideal) .f32 0x00000000#32)) (ix2 p j)
      = max ((∑ k : Fin K, h (ix2 p k) * w (ix2 j k)) + b (ix1 j)) 0 :=
  congrArg₂ max (congrArg₂ (· + ·) (matmulT_zero_apply prec h w p j)
    ((broadcastTo_1b_ab_apply _ hb p j).trans (shapeCast_a_1a_apply b hc 0 j))) Ideal.ofBits_zero_f32

/-- An output layer of width one spelt on the vector unit — the [M, K] activations times the one [1, K] weight row repeated
    down the rows, summed along each row, recast as a column, plus the one bias repeated down the column — is, at
    (p, u), ∑ₖ h (p, k) · w (0, k) + b 0. -/
theorem rowDot_bias_apply (h : FVec Ideal ⟨2, ![M, K]⟩ .f32) (w : FVec Ideal ⟨2, ![1, K]⟩ .f32) (b : FVec Ideal ⟨1, ![1]⟩ .f32)
    (hw : (⟨2, ![1, K]⟩ : Shape).Broadcasts ⟨2, ![M, K]⟩) (hr : (⟨2, ![M, K]⟩ : Shape).Reduces [1] ⟨1, ![M]⟩)
    (hφ : FKind.Formats .f32) (hacc : (0x00000000#32 : BitVec FTy.f32.bits) = FKind.add.neutral .f32 hφ)
    (hs : (⟨1, ![M]⟩ : Shape).ShapeCasts ⟨2, ![M, 1]⟩) (hc : (⟨1, ![1]⟩ : Shape).ShapeCasts ⟨2, ![1, 1]⟩)
    (hb : (⟨2, ![1, 1]⟩ : Shape).Broadcasts ⟨2, ![M, 1]⟩) (p : Fin M) (u : Fin 1) :
    addf (shapeCast ⟨2, ![M, 1]⟩ (multiReduction .add [1] ⟨1, ![M]⟩ (mulf h (broadcastTo ⟨2, ![M, K]⟩ w hw)) 0x00000000#32 hr hφ hacc) hs)
        (broadcastTo ⟨2, ![M, 1]⟩ (shapeCast ⟨2, ![1, 1]⟩ b hc) hb) (ix2 p u)
      = (∑ k : Fin K, h (ix2 p k) * w (ix2 (0 : Fin 1) k)) + b (ix1 (0 : Fin 1)) :=
  congrArg₂ (· + ·)
    (((shapeCast_a_a1_apply _ hs p u).trans (rowSum_apply _ _ hr hφ hacc p)).trans
      (Finset.sum_congr rfl fun k _ => congrArg (h (ix2 p k) * ·) (broadcastTo_1b_ab_apply w hw p k)))
    (((broadcastTo_1b_ab_apply _ hb p u).trans (shapeCast_a_1a_apply b hc 0 u)).trans
      (congrArg (fun t : Fin 1 => b (ix1 t)) (Subsingleton.elim u 0)))

end Cert.DenseRows

end
-- ==== Proof.LibColumns.lean ====
/-
  General lemmas for kernels that keep a per-row number as an [a, 1] column.

  * `broadcastTo_a1_ab_apply`: an [a, 1] column repeated along the rows of an [a, b] array reads, at (p, c), the column at p.
  * `keepdimsSum_apply`: a sum of an [a, b] array along its last axis kept as an [a, 1] column reads, at (p, u), the plain
    sum over k of the array at (p, k).
-/
import Idealize.ShloMosaic.Lib.ValueIdx
import Idealize.ShloMosaic.Lib.ValueLayout
import Idealize.ShloMosaic.Lib.Pipeline.Value
import Idealize.ShloMosaic.PureOps.Ideal.Laws
import proofs.«164043_j44212393345739_2_alg».proof.Proof.LibDenseRows

noncomputable section

open scoped BigOperators

namespace Cert.Columns

open Idealize.ShloMosaic Idealize.ShloMosaic.ValueIdx

/-- An [a, 1] column broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum of an [a, b] array along its last axis, kept as an [a, 1] column: at (p, u) the sum over k of the array at (p, k). -/
theorem keepdimsSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (p : Fin a) (u : Fin 1) :
    shapeCast ⟨2, ![a, 1]⟩ (multiReduction .add [1] ⟨1, ![a]⟩ src acc h hφ hacc) hs (ix2 p u) = ∑ k : Fin b, src (ix2 p k) :=
  (Cert.DenseRows.shapeCast_a_a1_apply _ hs p u).trans (Cert.DenseRows.rowSum_apply src acc h hφ hacc p)

end Cert.Columns

end
-- ==== Proof.LibPlainLayers.lean ====
/-
  General lemmas for kernels built of plain matrix products, bias rows and row normalisation, read at the exact
  (extended-real) instance, one entry at a time.

  * `plainMM_zero_apply`: an [M, K] by [K, N] product into a zero accumulator is at (p, j) the plain sum over k of
    left (p, k) times right (k, j); `plainMM_of_eq` is the same for any record of dimension numbers equal to the plain one.
  * `dense_relu_apply`: product, plus a [1, N] bias row repeated down the rows, then the maximum with zero.
  * `dense_bias_apply`: product plus the repeated bias row.
  * `l2norm_apply`: each row times the reciprocal square root of the larger of its sum of squares and a floor.
-/
import Idealize.ShloMosaic.Lib.ValueIdx
import Idealize.ShloMosaic.Lib.ValueLayout
import Idealize.ShloMosaic.Lib.Pipeline.Value
import Idealize.ShloMosaic.PureOps.Ideal.Laws
import proofs.«164043_j44212393345739_2_alg».proof.Proof.LibDenseRows
import proofs.«164043_j44212393345739_2_alg».proof.Proof.LibColumns

noncomputable section

open scoped BigOperators

namespace Cert.PlainLayers

open Idealize.ShloMosaic Idealize.ShloMosaic.ValueIdx

variable {M K N : ℕ}

/-! ## The operand indices of a plain product -/

theorem plainL_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plainL_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plainR_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plainR_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- A plain product into a zero accumulator at (p, j): the sum over k of left (p, k) times right (k, j). -/
theorem plainMM_zero_apply {φ₁ φ₂ : FTy} (prec : Option ContractPrecision) (h : FVec Ideal ⟨2, ![M, K]⟩ φ₁) (w : FVec Ideal ⟨2, ![K, N]⟩ φ₂)
    (p : Fin M) (j : Fin N) :
    FloatOps.matmul (DotDims.plain M K N) prec h w (constant ⟨2, ![M, N]⟩ .f32 0x00000000#32) (ix2 p j)
      = ∑ k : Fin K, h (ix2 p k) * w (ix2 k j) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact plainL_0 _ _
      | ⟨1, _⟩ => exact (plainL_1 _ _).trans hk)
  have er : (DotDims.plain M K N).rhsIdx (ix2 p j) ((contrEquiv1 (DotDims.plain M K N) K rfl rfl).symm k) = ix2 k j :=
    funext fun a => Fin.ext (by
      match a with
      | ⟨0, _⟩ => exact (plainR_0 _ _).trans hk
      | ⟨1, _⟩ => exact plainR_1 _ _)
  rw [el, er]

/-- The same for any record of dimension numbers that is the plain one. -/
theorem plainMM_of_eq {φ₁ φ₂ : FTy} (D : DotDims ⟨2, ![M, K]⟩ ⟨2, ![K, N]⟩ ⟨2, ![M, N]⟩) (hD : D = DotDims.plain M K N)
    (prec : Option ContractPrecision) (h : FVec Ideal ⟨2, ![M, K]⟩ φ₁) (w : FVec Ideal ⟨2, ![K, N]⟩ φ₂) (p : Fin M) (j : Fin N) :
    FloatOps.matmul D prec h w (constant ⟨2, ![M, N]⟩ .f32 0x00000000#32) (ix2 p j) = ∑ k : Fin K, h (ix2 p k) * w (ix2 k j) := by
  subst hD; exact plainMM_zero_apply prec h w p j

/-- A plain product into any accumulator at (p, j): the accumulator there plus the sum. -/
theorem plainMM_acc_of_eq {φ₁ φ₂ : FTy} (D : DotDims ⟨2, ![M, K]⟩ ⟨2, ![K, N]⟩ ⟨2, ![M, N]⟩) (hD : D = DotDims.plain M K N)
    (prec : Option ContractPrecision) (h : FVec Ideal ⟨2, ![M, K]⟩ φ₁) (w : FVec Ideal ⟨2, ![K, N]⟩ φ₂) (acc : FVec Ideal ⟨2, ![M, N]⟩ .f32)
    (p : Fin M) (j : Fin N) :
    FloatOps.matmul D prec h w acc (ix2 p j) = acc (ix2 p j) + ∑ k : Fin K, h (ix2 p k) * w (ix2 k j) := by
  subst hD
  rw [Ideal.matmul_apply, ← plainMM_zero_apply prec h w p j, Ideal.matmul_constant_zero_apply]

/-- Product plus a [1, N] bias row repeated down the rows, at (p, j). -/
theorem dense_bias_apply (D : DotDims ⟨2, ![M, K]⟩ ⟨2, ![K, N]⟩ ⟨2, ![M, N]⟩) (hD : D = DotDims.plain M K N)
    (prec : Option ContractPrecision) (h : FVec Ideal ⟨2, ![M, K]⟩ .f32) (w : FVec Ideal ⟨2, ![K, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩) (p : Fin M) (j : Fin N) :
    addf (matmul D prec h w (constant ⟨2, ![M, N]⟩ .f32 0x00000000#32)) (broadcastTo ⟨2, ![M, N]⟩ (shapeCast ⟨2, ![1, N]⟩ b hc) hb) (ix2 p j)
      = (∑ k : Fin K, h (ix2 p k) * w (ix2 k j)) + b (ix2 (0 : Fin 1) j) :=
  congrArg₂ (· + ·) (plainMM_of_eq D hD prec h w p j)
    ((broadcastTo_1b_ab_apply _ hb p j).trans (congrFun (shapeCast_self b hc) _))

/-- Product, bias row, maximum with zero, at (p, j). -/
theorem dense_relu_apply (D : DotDims ⟨2, ![M, K]⟩ ⟨2, ![K, N]⟩ ⟨2, ![M, N]⟩) (hD : D = DotDims.plain M K N)
    (prec : Option ContractPrecision) (h : FVec Ideal ⟨2, ![M, K]⟩ .f32) (w : FVec Ideal ⟨2, ![K, N]⟩ .f32) (b : FVec Ideal ⟨2, ![1, N]⟩ .f32)
    (hc : (⟨2, ![1, N]⟩ : Shape).ShapeCasts ⟨2, ![1, N]⟩) (hb : (⟨2, ![1, N]⟩ : Shape).Broadcasts ⟨2, ![M, N]⟩) (p : Fin M) (j : Fin N) :
    maximumf (addf (matmul D prec h w (constant ⟨2, ![M, N]⟩ .f32 0x00000000#32)) (broadcastTo ⟨2, ![M, N]⟩ (shapeCast ⟨2, ![1, N]⟩ b hc) hb))
        (broadcast ⟨2, ![M, N]⟩ (Scalar.ofBits (F := Ideal) .f32 0x00000000#32)) (ix2 p j)
      = max ((∑ k : Fin K, h (ix2 p k) * w (ix2 k j)) + b (ix2 (0 : Fin 1) j)) 0 :=
  congrArg₂ max (dense_bias_apply D hD prec h w b hc hb p j) Ideal.ofBits_zero_f32

/-- Each row of an [A, B] array times the reciprocal square root of the larger of the row's sum of squares and a floor,
    at (p, q). -/
theorem l2norm_apply {A B : ℕ} (P : FVec Ideal ⟨2, ![A, B]⟩ .f32) (acc : BitVec FTy.f32.bits)
    (hr : (⟨2, ![A, B]⟩ : Shape).Reduces [1] ⟨1, ![A]⟩) (hφ : FKind.Formats .f32) (hacc : acc = FKind.add.neutral .f32 hφ)
    (hs : (⟨1, ![A]⟩ : Shape).ShapeCasts ⟨2, ![A, 1]⟩) (fl : BitVec FTy.f32.bits) (hbc : (⟨2, ![A, 1]⟩ : Shape).Broadcasts ⟨2, ![A, B]⟩)
    (p : Fin A) (q : Fin B) :
    mulf P (broadcastTo ⟨2, ![A, B]⟩ (rsqrt (maximumf (shapeCast ⟨2, ![A, 1]⟩ (multiReduction .add [1] ⟨1, ![A]⟩ (mulf P P) acc hr hφ hacc) hs)
        (broadcast ⟨2, ![A, 1]⟩ (Scalar.ofBits (F := Ideal) .f32 fl)))) hbc) (ix2 p q)
      = P (ix2 p q) * FloatOps.rsqrt (F := Ideal) (φ := .f32) (max (∑ k : Fin B, P (ix2 p k) * P (ix2 p k)) (Ideal.ofBits .f32 fl)) := by
  refine congrArg (P (ix2 p q) * ·) ?_
  refine (Cert.Columns.broadcastTo_a1_ab_apply _ hbc p q).trans ?_
  exact congrArg (fun t => FloatOps.rsqrt (F := Ideal) (φ := .f32) (max t (Ideal.ofBits .f32 fl)))
    (Cert.Columns.keepdimsSum_apply (mulf P P) acc hr hφ hacc hs p 0)

/-- The same, the array's entries of row p given by a formula `R`. -/
theorem l2norm_apply_of {A B : ℕ} (P : FVec Ideal ⟨2, ![A, B]⟩ .f32) (R : Fin B → EReal) (p : Fin A) (hP : ∀ e, P (ix2 p e) = R e)
    (acc : BitVec FTy.f32.bits)
    (hr : (⟨2, ![A, B]⟩ : Shape).Reduces [1] ⟨1, ![A]⟩) (hφ : FKind.Formats .f32) (hacc : acc = FKind.add.neutral .f32 hφ)
    (hs : (⟨1, ![A]⟩ : Shape).ShapeCasts ⟨2, ![A, 1]⟩) (fl : BitVec FTy.f32.bits) (hbc : (⟨2, ![A, 1]⟩ : Shape).Broadcasts ⟨2, ![A, B]⟩)
    (q : Fin B) :
    mulf P (broadcastTo ⟨2, ![A, B]⟩ (rsqrt (maximumf (shapeCast ⟨2, ![A, 1]⟩ (multiReduction .add [1] ⟨1, ![A]⟩ (mulf P P) acc hr hφ hacc) hs)
        (broadcast ⟨2, ![A, 1]⟩ (Scalar.ofBits (F := Ideal) .f32 fl)))) hbc) (ix2 p q)
      = R q * FloatOps.rsqrt (F := Ideal) (φ := .f32) (max (∑ k : Fin B, R k * R k) (Ideal.ofBits .f32 fl)) := by
  rw [l2norm_apply P acc hr hφ hacc hs fl hbc p q]
  simp only [hP]

/-- A sum of an [A, 1, B] array along its leading axis, at (u, e): the sum over s of the array at (s, u, e). -/
theorem leadSum_apply {A B : ℕ} {φ : FTy} (src : FVec Ideal ⟨3, ![A, 1, B]⟩ φ) (acc : BitVec φ.bits)
    (h : (⟨3, ![A, 1, B]⟩ : Shape).Reduces [0] ⟨2, ![1, B]⟩) (hφ : FKind.Formats φ) (hacc : acc = FKind.add.neutral φ hφ)
    (u : Fin 1) (e : Fin B) :
    multiReduction .add [0] ⟨2, ![1, B]⟩ src acc h hφ hacc (ix2 u e) = ∑ s : Fin A, src (ix3 s u e) := by
  refine (Ideal.multiReduction_add_single src acc h hφ hacc (ix2 u e)).trans ?_
  refine Finset.sum_congr rfl fun k _ => congrArg src (funext fun c => Fin.ext ?_)
  rw [h.lift_val]
  match c with
  | ⟨0, _⟩ => rfl
  | ⟨1, _⟩ => rfl
  | ⟨2, _⟩ => rfl

end Cert.PlainLayers

end
-- ==== Proof.LibGraphConv.lean ====
/-
  General lemmas for graph-convolution layers, read at the exact (extended-real) instance, one entry at a time.
  A layer's value at node p, feature j is  max (agg (p, j) + d p · h (p, j) + b j) 0 : the neighbours' weighted sum,
  plus the node's own row weighted by its self-loop coefficient, plus the bias, cut at zero.

  * `hostMM_apply`: the host's product of an [M, K] by a [K, N] array, at (p, j), is the plain sum over k.
  * `hostCol_apply`: an [a, 1] column laid along the rows by the host reads, at (p, j), the column at p.
  * `hostDense_apply`: the host's product plus a [1, N] bias row laid down the rows.
  * `hostConv_apply`: the layer as a host program spells it (host broadcasts, maximum with the zero scalar broadcast).
  * `bodyConv_apply`: the layer as a kernel body spells it (identity recasts, vector broadcasts, maximum with a zero splat).
  Both spellings read the same number, so a kernel tile and the host's whole array agree entry by entry.
-/
import Idealize.ShloMosaic.Lib.ValueIdx
import Idealize.ShloMosaic.Lib.ValueLayout
import Idealize.ShloMosaic.Lib.Pipeline.Value
import Idealize.ShloMosaic.Lib.KernelVsHost
import Idealize.ShloMosaic.PureOps.Ideal.Laws
import proofs.«164043_j44212393345739_2_alg».proof.Proof.LibPlainLayers

noncomputable section

open scoped BigOperators

namespace Cert.GraphConv

open Idealize.ShloMosaic Idealize.ShloMosaic.ValueIdx

variable {M K N : ℕ}

/-- The host's product of an [M, K] array with a [K, N] array at (p, j): the sum over k of left (p, k) times right (k, j). -/
theorem hostMM_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (w : FVec Ideal ⟨2, ![K, N]⟩ φ₂) (p : Fin M) (j : Fin N) :
    Host.dotGeneral D prec x w (ix2 p j) = ∑ k : Fin K, x (ix2 p k) * w (ix2 k j) := by
  rw [← matmul_zero_eq_dotGeneral]
  exact Cert.PlainLayers.plainMM_of_eq D hD prec x w p j

/-- An [a, 1] column laid along the rows of an [a, b] array by the host reads, at (p, j), the column's entry of row p. -/
theorem hostCol_apply {α : Type} {a b : ℕ} (h : (⟨2, ![a, 1]⟩ : Shape).BroadcastsInDim ⟨2, ![a, b]⟩ ![0, 1])
    (v : (⟨2, ![a, 1]⟩ : Shape).Idx → α) (p : Fin a) (j : Fin b) :
    broadcastInDim ⟨2, ![a, b]⟩ ![0, 1] h v (ix2 p j) = v (ix2 p (0 : Fin 1)) := by
  refine broadcastInDim_apply ![0, 1] h v (ix2 p j) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else j.val
    rw [if_pos rfl]

/-- The host's product plus a [1, N] bias row laid down the rows, at (p, j). -/
theorem hostDense_apply (D : DotDims ⟨2, ![M, K]⟩ ⟨2, ![K, N]⟩ ⟨2, ![M, N]⟩) (hD : D = DotDims.plain M K N)
    (prec : Option ContractPrecision) (x : FVec Ideal ⟨2, ![M, K]⟩ .f32) (w : FVec Ideal ⟨2, ![K, N]⟩ .f32)
    (b : FVec Ideal ⟨2, ![1, N]⟩ .f32) (hb : (⟨2, ![1, N]⟩ : Shape).BroadcastsInDim ⟨2, ![M, N]⟩ ![0, 1]) (p : Fin M) (j : Fin N) :
    addf (Host.dotGeneral D prec x w) (broadcastInDim ⟨2, ![M, N]⟩ ![0, 1] hb b) (ix2 p j)
      = (∑ k : Fin K, x (ix2 p k) * w (ix2 k j)) + b (ix2 (0 : Fin 1) j) :=
  congrArg₂ (· + ·) (hostMM_apply D hD prec x w p j) (broadcastInDim_oneRow_apply hb b p j)

/-- The layer as a host program spells it, at (p, j). -/
theorem hostConv_apply {a b : ℕ} {s0 : Shape} (hd : (⟨2, ![a, 1]⟩ : Shape).BroadcastsInDim ⟨2, ![a, b]⟩ ![0, 1])
    (hb : (⟨2, ![1, b]⟩ : Shape).BroadcastsInDim ⟨2, ![a, b]⟩ ![0, 1])
    (dz : Fin s0.rank → Fin (⟨2, ![a, b]⟩ : Shape).rank) (hz : s0.BroadcastsInDim ⟨2, ![a, b]⟩ dz)
    (h agg : FVec Ideal ⟨2, ![a, b]⟩ .f32) (d : FVec Ideal ⟨2, ![a, 1]⟩ .f32) (bias : FVec Ideal ⟨2, ![1, b]⟩ .f32)
    (p : Fin a) (j : Fin b) :
    maximumf (addf (addf agg (mulf (broadcastInDim ⟨2, ![a, b]⟩ ![0, 1] hd d) h)) (broadcastInDim ⟨2, ![a, b]⟩ ![0, 1] hb bias))
        (broadcastInDim ⟨2, ![a, b]⟩ dz hz (constant s0 .f32 0x00000000#32)) (ix2 p j)
      = max ((agg (ix2 p j) + d (ix2 p (0 : Fin 1)) * h (ix2 p j)) + bias (ix2 (0 : Fin 1) j)) 0 :=
  congrArg₂ max
    (congrArg₂ (· + ·) (congrArg (agg (ix2 p j) + ·) (congrArg (· * h (ix2 p j)) (hostCol_apply hd d p j)))
      (broadcastInDim_oneRow_apply hb bias p j))
    Ideal.ofBits_zero_f32

/-- The layer as a kernel body spells it on one tile, at (p, j): the recasts are of a shape to itself. -/
theorem bodyConv_apply {a b : ℕ} (ca : (⟨2, ![a, b]⟩ : Shape).ShapeCasts ⟨2, ![a, b]⟩)
    (cd : (⟨2, ![a, 1]⟩ : Shape).ShapeCasts ⟨2, ![a, 1]⟩) (cb : (⟨2, ![1, b]⟩ : Shape).ShapeCasts ⟨2, ![1, b]⟩)
    (hd : (⟨2, ![a, 1]⟩ : Shape).Broadcasts ⟨2, ![a, b]⟩) (hb : (⟨2, ![1, b]⟩ : Shape).Broadcasts ⟨2, ![a, b]⟩)
    (h agg : FVec Ideal ⟨2, ![a, b]⟩ .f32) (d : FVec Ideal ⟨2, ![a, 1]⟩ .f32) (bias : FVec Ideal ⟨2, ![1, b]⟩ .f32)
    (p : Fin a) (j : Fin b) :
    maximumf (addf (addf (shapeCast ⟨2, ![a, b]⟩ agg ca)
          (mulf (broadcastTo ⟨2, ![a, b]⟩ (shapeCast ⟨2, ![a, 1]⟩ d cd) hd) (shapeCast ⟨2, ![a, b]⟩ h ca)))
        (broadcastTo ⟨2, ![a, b]⟩ (shapeCast ⟨2, ![1, b]⟩ bias cb) hb))
        (broadcast ⟨2, ![a, b]⟩ (Scalar.ofBits (F := Ideal) .f32 0x00000000#32)) (ix2 p j)
      = max ((agg (ix2 p j) + d (ix2 p (0 : Fin 1)) * h (ix2 p j)) + bias (ix2 (0 : Fin 1) j)) 0 :=
  congrArg₂ max
    (congrArg₂ (· + ·)
      (congrArg₂ (· + ·) (congrFun (shapeCast_self agg ca) _)
        (congrArg₂ (· * ·) ((Cert.Columns.broadcastTo_a1_ab_apply _ hd p j).trans (congrFun (shapeCast_self d cd) _))
          (congrFun (shapeCast_self h ca) _)))
      ((broadcastTo_1b_ab_apply _ hb p j).trans (congrFun (shapeCast_self bias cb) _)))
    Ideal.ofBits_zero_f32

end Cert.GraphConv

end
-- ==== Proof.Layers.lean ====
/-
  The network's layers as whole-array functions, spelt with the host operations the reference program applies, so that
  each stage of the reference is, by unfolding, one of them applied to earlier stages:

    rows times weights                      mm64, mm32, mm16          (x · W)
    rows times weights plus a bias row      lin32, lin16a, lin16b     (x · W + b)
    a graph-convolution layer               conv64, conv32, conv16    max (agg + d · h + b) 0, plus the skip inputs

  Here h = x · W is the transformed features, agg the neighbours' normalised sum, d the column of self-loop coefficients
  1 / deg, b the bias as one row. Each is then read at one entry (node p, feature j) over the extended reals; those
  readings are what a kernel tile is compared with.
-/
import proofs.«164043_j44212393345739_2_alg».proof.Proof.Gen.ReferenceIdeal.Read
import proofs.«164043_j44212393345739_2_alg».proof.Proof.LibGraphConv

noncomputable section

open scoped BigOperators

namespace Cert.Layers

open Cert.ReferenceIdeal Cert.ReferenceIdeal.Gen Cert.ReferenceIdeal.Read Idealize.ShloMosaic Idealize.ShloMosaic.ValueIdx

section Defs
variable {F : FTy → Type} [FloatOps F]

/-- Rows times weights. -/
def mm64 (x : (⟨S100000x128, .f32⟩ : BufTy).Contents (Elt F)) (w : (⟨S128x64, .f32⟩ : BufTy).Contents (Elt F)) : (⟨S100000x64, .f32⟩ : BufTy).Contents (Elt F) :=
  Host.dotGeneral dot_S100000x128_S128x64_S100000x64_1_0_0_1_n_n none x w
def mm32 (x : (⟨S100000x64, .f32⟩ : BufTy).Contents (Elt F)) (w : (⟨S64x32, .f32⟩ : BufTy).Contents (Elt F)) : (⟨S100000x32, .f32⟩ : BufTy).Contents (Elt F) :=
  Host.dotGeneral dot_S100000x64_S64x32_S100000x32_1_0_0_1_n_n none x w
def mm16 (x : (⟨S100000x32, .f32⟩ : BufTy).Contents (Elt F)) (w : (⟨S32x16, .f32⟩ : BufTy).Contents (Elt F)) : (⟨S100000x16, .f32⟩ : BufTy).Contents (Elt F) :=
  Host.dotGeneral dot_S100000x32_S32x16_S100000x16_1_0_0_1_n_n none x w

/-- Rows times weights plus the bias row laid down the rows. -/
def lin32 (x : (⟨S100000x128, .f32⟩ : BufTy).Contents (Elt F)) (w : (⟨S128x32, .f32⟩ : BufTy).Contents (Elt F)) (b : (⟨S1x32, .f32⟩ : BufTy).Contents (Elt F)) : (⟨S100000x32, .f32⟩ : BufTy).Contents (Elt F) :=
  addf (Host.dotGeneral dot_S100000x128_S128x32_S100000x32_1_0_0_1_n_n none x w) (broadcastInDim S100000x32 ![0, 1] bcast_S1x32_S100000x32_0_1 b)
def lin16a (x : (⟨S100000x128, .f32⟩ : BufTy).Contents (Elt F)) (w : (⟨S128x16, .f32⟩ : BufTy).Contents (Elt F)) (b : (⟨S1x16, .f32⟩ : BufTy).Contents (Elt F)) : (⟨S100000x16, .f32⟩ : BufTy).Contents (Elt F) :=
  addf (Host.dotGeneral dot_S100000x128_S128x16_S100000x16_1_0_0_1_n_n none x w) (broadcastInDim S100000x16 ![0, 1] bcast_S1x16_S100000x16_0_1 b)
def lin16b (x : (⟨S100000x64, .f32⟩ : BufTy).Contents (Elt F)) (w : (⟨S64x16, .f32⟩ : BufTy).Contents (Elt F)) (b : (⟨S1x16, .f32⟩ : BufTy).Contents (Elt F)) : (⟨S100000x16, .f32⟩ : BufTy).Contents (Elt F) :=
  addf (Host.dotGeneral dot_S100000x64_S64x16_S100000x16_1_0_0_1_n_n none x w) (broadcastInDim S100000x16 ![0, 1] bcast_S1x16_S100000x16_0_1 b)

/-- A graph-convolution layer: neighbours' sum, plus the node's own transformed row times its self-loop coefficient,
    plus the bias, cut at zero. -/
def conv64 (h agg : (⟨S100000x64, .f32⟩ : BufTy).Contents (Elt F)) (d : (⟨S100000x1, .f32⟩ : BufTy).Contents (Elt F)) (b : (⟨S1x64, .f32⟩ : BufTy).Contents (Elt F)) : (⟨S100000x64, .f32⟩ : BufTy).Contents (Elt F) :=
  maximumf (addf (addf agg (mulf (broadcastInDim S100000x64 ![0, 1] bcast_S100000x1_S100000x64_0_1 d) h)) (broadcastInDim S100000x64 ![0, 1] bcast_S1x64_S100000x64_0_1 b)) (broadcastInDim S100000x64 ![] bcast_S_S100000x64 (constant S_ .f32 0x00000000#32))
/-- The same, plus one skip input. -/
def conv32 (h agg : (⟨S100000x32, .f32⟩ : BufTy).Contents (Elt F)) (d : (⟨S100000x1, .f32⟩ : BufTy).Contents (Elt F)) (b : (⟨S1x32, .f32⟩ : BufTy).Contents (Elt F)) (s : (⟨S100000x32, .f32⟩ : BufTy).Contents (Elt F)) : (⟨S100000x32, .f32⟩ : BufTy).Contents (Elt F) :=
  addf (maximumf (addf (addf agg (mulf (broadcastInDim S100000x32 ![0, 1] bcast_S100000x1_S100000x32_0_1 d) h)) (broadcastInDim S100000x32 ![0, 1] bcast_S1x32_S100000x32_0_1 b)) (broadcastInDim S100000x32 ![] bcast_S_S100000x32 (constant S_ .f32 0x00000000#32))) s
/-- The same, plus two skip inputs, added in order. -/
def conv16 (h agg : (⟨S100000x16, .f32⟩ : BufTy).Contents (Elt F)) (d : (⟨S100000x1, .f32⟩ : BufTy).Contents (Elt F)) (b : (⟨S1x16, .f32⟩ : BufTy).Contents (Elt F)) (s u : (⟨S100000x16, .f32⟩ : BufTy).Contents (Elt F)) : (⟨S100000x16, .f32⟩ : BufTy).Contents (Elt F) :=
  addf (addf (maximumf (addf (addf agg (mulf (broadcastInDim S100000x16 ![0, 1] bcast_S100000x1_S100000x16_0_1 d) h)) (broadcastInDim S100000x16 ![0, 1] bcast_S1x16_S100000x16_0_1 b)) (broadcastInDim S100000x16 ![] bcast_S_S100000x16 (constant S_ .f32 0x00000000#32))) s) u

/-! ## The reference's stages are these layers of earlier stages -/

theorem v11_eq (x0 : (⟨S100000x128, .f32⟩ : BufTy).Contents (Elt F)) (x2 : (⟨S128x64, .f32⟩ : BufTy).Contents (Elt F)) : val_main_v11 (F := F) x0 x2 = mm64 x0 x2 := rfl

theorem v48_eq (x0 : (⟨S100000x128, .f32⟩ : BufTy).Contents (Elt F)) (x1 : (⟨S2x3200000, .i32⟩ : BufTy).Contents (Elt F)) (x2 : (⟨S128x64, .f32⟩ : BufTy).Contents (Elt F)) (x3 : (⟨S64, .f32⟩ : BufTy).Contents (Elt F)) :
    val_main_v48 (F := F) x0 x1 x2 x3 = conv64 (val_main_v11 x0 x2) (val_main_v39 x0 x1 x2) (val_main_v41 x1) (val_main_v45 x3) := rfl

theorem v49_eq (x0 : (⟨S100000x128, .f32⟩ : BufTy).Contents (Elt F)) (x1 : (⟨S2x3200000, .i32⟩ : BufTy).Contents (Elt F)) (x2 : (⟨S128x64, .f32⟩ : BufTy).Contents (Elt F)) (x3 : (⟨S64, .f32⟩ : BufTy).Contents (Elt F)) (x4 : (⟨S64x32, .f32⟩ : BufTy).Contents (Elt F)) :
    val_main_v49 (F := F) x0 x1 x2 x3 x4 = mm32 (val_main_v48 x0 x1 x2 x3) x4 := rfl

theorem v90_eq (x0 : (⟨S100000x128, .f32⟩ : BufTy).Contents (Elt F)) (x8 : (⟨S128x32, .f32⟩ : BufTy).Contents (Elt F)) (x9 : (⟨S32, .f32⟩ : BufTy).Contents (Elt F)) :
    val_main_v90 (F := F) x0 x8 x9 = lin32 x0 x8 (val_main_v88 x9) := rfl

theorem v91_eq (x0 : (⟨S100000x128, .f32⟩ : BufTy).Contents (Elt F)) (x1 : (⟨S2x3200000, .i32⟩ : BufTy).Contents (Elt F)) (x2 : (⟨S128x64, .f32⟩ : BufTy).Contents (Elt F)) (x3 : (⟨S64, .f32⟩ : BufTy).Contents (Elt F)) (x4 : (⟨S64x32, .f32⟩ : BufTy).Contents (Elt F)) (x5 : (⟨S32, .f32⟩ : BufTy).Contents (Elt F)) (x8 : (⟨S128x32, .f32⟩ : BufTy).Contents (Elt F)) (x9 : (⟨S32, .f32⟩ : BufTy).Contents (Elt F)) :
    val_main_v91 (F := F) x0 x1 x2 x3 x4 x5 x8 x9
      = conv32 (val_main_v49 x0 x1 x2 x3 x4) (val_main_v77 x0 x1 x2 x3 x4) (val_main_v79 x1) (val_main_v83 x5) (val_main_v90 x0 x8 x9) := rfl

theorem v92_eq (x0 : (⟨S100000x128, .f32⟩ : BufTy).Contents (Elt F)) (x1 : (⟨S2x3200000, .i32⟩ : BufTy).Contents (Elt F)) (x2 : (⟨S128x64, .f32⟩ : BufTy).Contents (Elt F)) (x3 : (⟨S64, .f32⟩ : BufTy).Contents (Elt F)) (x4 : (⟨S64x32, .f32⟩ : BufTy).Contents (Elt F)) (x5 : (⟨S32, .f32⟩ : BufTy).Contents (Elt F)) (x6 : (⟨S32x16, .f32⟩ : BufTy).Contents (Elt F)) (x8 : (⟨S128x32, .f32⟩ : BufTy).Contents (Elt F)) (x9 : (⟨S32, .f32⟩ : BufTy).Contents (Elt F)) :
    val_main_v92 (F := F) x0 x1 x2 x3 x4 x5 x6 x8 x9 = mm16 (val_main_v91 x0 x1 x2 x3 x4 x5 x8 x9) x6 := rfl

theorem v133_eq (x0 : (⟨S100000x128, .f32⟩ : BufTy).Contents (Elt F)) (x10 : (⟨S128x16, .f32⟩ : BufTy).Contents (Elt F)) (x11 : (⟨S16, .f32⟩ : BufTy).Contents (Elt F)) :
    val_main_v133 (F := F) x0 x10 x11 = lin16a x0 x10 (val_main_v131 x11) := rfl

theorem v138_eq (x0 : (⟨S100000x128, .f32⟩ : BufTy).Contents (Elt F)) (x1 : (⟨S2x3200000, .i32⟩ : BufTy).Contents (Elt F)) (x2 : (⟨S128x64, .f32⟩ : BufTy).Contents (Elt F)) (x3 : (⟨S64, .f32⟩ : BufTy).Contents (Elt F)) (x12 : (⟨S64x16, .f32⟩ : BufTy).Contents (Elt F)) (x13 : (⟨S16, .f32⟩ : BufTy).Contents (Elt F)) :
    val_main_v138 (F := F) x0 x1 x2 x3 x12 x13 = lin16b (val_main_v48 x0 x1 x2 x3) x12 (val_main_v136 x13) := rfl

theorem v139_eq (x0 : (⟨S100000x128, .f32⟩ : BufTy).Contents (Elt F)) (x1 : (⟨S2x3200000, .i32⟩ : BufTy).Contents (Elt F)) (x2 : (⟨S128x64, .f32⟩ : BufTy).Contents (Elt F)) (x3 : (⟨S64, .f32⟩ : BufTy).Contents (Elt F)) (x4 : (⟨S64x32, .f32⟩ : BufTy).Contents (Elt F)) (x5 : (⟨S32, .f32⟩ : BufTy).Contents (Elt F)) (x6 : (⟨S32x16, .f32⟩ : BufTy).Contents (Elt F)) (x7 : (⟨S16, .f32⟩ : BufTy).Contents (Elt F)) (x8 : (⟨S128x32, .f32⟩ : BufTy).Contents (Elt F)) (x9 : (⟨S32, .f32⟩ : BufTy).Contents (Elt F)) (x10 : (⟨S128x16, .f32⟩ : BufTy).Contents (Elt F)) (x11 : (⟨S16, .f32⟩ : BufTy).Contents (Elt F)) (x12 : (⟨S64x16, .f32⟩ : BufTy).Contents (Elt F)) (x13 : (⟨S16, .f32⟩ : BufTy).Contents (Elt F)) :
    val_main_v139 (F := F) x0 x1 x2 x3 x4 x5 x6 x7 x8 x9 x10 x11 x12 x13
      = conv16 (val_main_v92 x0 x1 x2 x3 x4 x5 x6 x8 x9) (val_main_v120 x0 x1 x2 x3 x4 x5 x6 x8 x9) (val_main_v122 x1) (val_main_v126 x7)
          (val_main_v133 x0 x10 x11) (val_main_v138 x0 x1 x2 x3 x12 x13) := rfl

end Defs

/-! ## Each layer at one entry, over the extended reals -/

theorem mm64_apply (x : (⟨S100000x128, .f32⟩ : BufTy).Contents (Elt Ideal)) (w : (⟨S128x64, .f32⟩ : BufTy).Contents (Elt Ideal)) (p : Fin 100000) (j : Fin 64) :
    mm64 x w (ix2 p j) = ∑ k : Fin 128, x (ix2 p k) * w (ix2 k j) :=
  Cert.GraphConv.hostMM_apply _ rfl none x w p j
theorem mm32_apply (x : (⟨S100000x64, .f32⟩ : BufTy).Contents (Elt Ideal)) (w : (⟨S64x32, .f32⟩ : BufTy).Contents (Elt Ideal)) (p : Fin 100000) (j : Fin 32) :
    mm32 x w (ix2 p j) = ∑ k : Fin 64, x (ix2 p k) * w (ix2 k j) :=
  Cert.GraphConv.hostMM_apply _ rfl none x w p j
theorem mm16_apply (x : (⟨S100000x32, .f32⟩ : BufTy).Contents (Elt Ideal)) (w : (⟨S32x16, .f32⟩ : BufTy).Contents (Elt Ideal)) (p : Fin 100000) (j : Fin 16) :
    mm16 x w (ix2 p j) = ∑ k : Fin 32, x (ix2 p k) * w (ix2 k j) :=
  Cert.GraphConv.hostMM_apply _ rfl none x w p j

theorem lin32_apply (x : (⟨S100000x128, .f32⟩ : BufTy).Contents (Elt Ideal)) (w : (⟨S128x32, .f32⟩ : BufTy).Contents (Elt Ideal)) (b : (⟨S1x32, .f32⟩ : BufTy).Contents (Elt Ideal)) (p : Fin 100000) (j : Fin 32) :
    lin32 x w b (ix2 p j) = (∑ k : Fin 128, x (ix2 p k) * w (ix2 k j)) + b (ix2 (0 : Fin 1) j) :=
  Cert.GraphConv.hostDense_apply _ rfl none x w b _ p j
theorem lin16a_apply (x : (⟨S100000x128, .f32⟩ : BufTy).Contents (Elt Ideal)) (w : (⟨S128x16, .f32⟩ : BufTy).Contents (Elt Ideal)) (b : (⟨S1x16, .f32⟩ : BufTy).Contents (Elt Ideal)) (p : Fin 100000) (j : Fin 16) :
    lin16a x w b (ix2 p j) = (∑ k : Fin 128, x (ix2 p k) * w (ix2 k j)) + b (ix2 (0 : Fin 1) j) :=
  Cert.GraphConv.hostDense_apply _ rfl none x w b _ p j
theorem lin16b_apply (x : (⟨S100000x64, .f32⟩ : BufTy).Contents (Elt Ideal)) (w : (⟨S64x16, .f32⟩ : BufTy).Contents (Elt Ideal)) (b : (⟨S1x16, .f32⟩ : BufTy).Contents (Elt Ideal)) (p : Fin 100000) (j : Fin 16) :
    lin16b x w b (ix2 p j) = (∑ k : Fin 64, x (ix2 p k) * w (ix2 k j)) + b (ix2 (0 : Fin 1) j) :=
  Cert.GraphConv.hostDense_apply _ rfl none x w b _ p j

theorem conv64_apply (h agg : (⟨S100000x64, .f32⟩ : BufTy).Contents (Elt Ideal)) (d : (⟨S100000x1, .f32⟩ : BufTy).Contents (Elt Ideal)) (b : (⟨S1x64, .f32⟩ : BufTy).Contents (Elt Ideal)) (p : Fin 100000) (j : Fin 64) :
    conv64 h agg d b (ix2 p j) = max ((agg (ix2 p j) + d (ix2 p (0 : Fin 1)) * h (ix2 p j)) + b (ix2 (0 : Fin 1) j)) 0 :=
  Cert.GraphConv.hostConv_apply _ _ _ _ h agg d b p j
theorem conv32_apply (h agg : (⟨S100000x32, .f32⟩ : BufTy).Contents (Elt Ideal)) (d : (⟨S100000x1, .f32⟩ : BufTy).Contents (Elt Ideal)) (b : (⟨S1x32, .f32⟩ : BufTy).Contents (Elt Ideal)) (s : (⟨S100000x32, .f32⟩ : BufTy).Contents (Elt Ideal)) (p : Fin 100000) (j : Fin 32) :
    conv32 h agg d b s (ix2 p j)
      = max ((agg (ix2 p j) + d (ix2 p (0 : Fin 1)) * h (ix2 p j)) + b (ix2 (0 : Fin 1) j)) 0 + s (ix2 p j) :=
  congrArg (· + s (ix2 p j)) (Cert.GraphConv.hostConv_apply _ _ _ _ h agg d b p j)
theorem conv16_apply (h agg : (⟨S100000x16, .f32⟩ : BufTy).Contents (Elt Ideal)) (d : (⟨S100000x1, .f32⟩ : BufTy).Contents (Elt Ideal)) (b : (⟨S1x16, .f32⟩ : BufTy).Contents (Elt Ideal)) (s u : (⟨S100000x16, .f32⟩ : BufTy).Contents (Elt Ideal)) (p : Fin 100000) (j : Fin 16) :
    conv16 h agg d b s u (ix2 p j)
      = max ((agg (ix2 p j) + d (ix2 p (0 : Fin 1)) * h (ix2 p j)) + b (ix2 (0 : Fin 1) j)) 0 + s (ix2 p j) + u (ix2 p j) :=
  congrArg (· + u (ix2 p j)) (congrArg (· + s (ix2 p j)) (Cert.GraphConv.hostConv_apply _ _ _ _ h agg d b p j))

end Cert.Layers

end
-- ==== Proof.Region0.lean ====
/-
  Pipeline 0 multiplies a tile of 5000 rows by the whole weight matrix: point t of its 20 grid points reads rows
  5000 t … 5000 t + 4999 of the left array and all of the right one, and writes the same rows of the result. Entry (p, j)
  of a tile is the sum over k of left (5000 t + p, k) · right (k, j) — the bf16 roundings are the identity on the extended
  reals — which is entry (5000 t + p, j) of the whole product. The 20 tiles cover the result's 100000 rows, so the
  result array ends holding the whole product of the two arrays the region found.
-/
import proofs.«164043_j44212393345739_2_alg».proof.Proof.Gen.KernelIdeal.Frame
import proofs.«164043_j44212393345739_2_alg».proof.Proof.Layers

set_option maxRecDepth 16384

noncomputable section

open scoped BigOperators

namespace Cert.KernelIdeal.Region0

open Cert.KernelIdeal Cert.KernelIdeal.Gen Idealize.ShloMosaic Idealize.ShloMosaic.TcCoe Idealize.ShloMosaic.ValueIdx
open Idealize.ShloMosaic.Pipeline Idealize.SL.Sem

variable (V : (c : Dev nD) → (b : Ref sig .tc) → Buf (Elt Ideal) ((c : Thread nD τ).loc b))

theorem origin : (![0, 0] : Fin 2 → Nat) = fun _ => 0 := funext fun a => by fin_cases a <;> rfl

/-- Where each window's block sits at point t: the row-tiled windows at block (t, 0), the weights at block (0, 0). -/
theorem blockAt : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- One tile of the product at (p, j): the sum over k of the left tile at (p, k) times the weights at (k, j). -/
theorem tile_apply (x : Vec Ideal S5000x128 .f32) (w : Vec Ideal S128x64 .f32) (p : Fin 5000) (j : Fin 64) :
    k0_pay1 x w (ix2 p j) = ∑ k : Fin 128, x (ix2 p k) * w (ix2 k j) := by
  unfold k0_pay1
  exact Cert.PlainLayers.plainMM_of_eq dot_S5000x128_S128x64_S5000x64_1_0_0_1_n_n rfl none _ _ p j

/-- What point t writes back is rows 5000 t … of the whole product. -/
theorem flushed_eq (c : Dev nD) (t : Fin cfg0.N) :
    (dat0 V c).flushed 2 t
      = ((cfg0.win 2).blk t).view.read (Elt Ideal) (Cert.Layers.mm64 (V c main_arg0) (V c main_arg2)) := by
  show (cfg0.win 2).cut (grid0.coords t) ((dat0 V c).after 2 t) = _
  rw [after0_2]
  unfold out0_2
  rw [View.canon_unit_zero origin]
  simp only [View.ld_unit_zero (S := S5000x128) origin, View.ld_unit_zero (S := S128x64) origin]
  obtain ⟨e0, e1, e2, e3, e4, e5⟩ := blockAt t
  have ht : t.val < 20 := t.isLt
  funext y
  obtain ⟨p, j, rfl⟩ : ∃ (p : Fin 5000) (j : Fin 64), y = ix2 p j := ⟨y 0, y 1, eq_ix2 y⟩
  have hp : p.val < 5000 := p.isLt
  have hP : t.val * 5000 + p.val < 100000 := by omega
  have hO : ((cfg0.win 2).blk t).view.emb (ix2 p j) = ix2 (⟨t.val * 5000 + p.val, hP⟩ : Fin 100000) j := by
    funext a; apply Fin.ext
    match a with
    | ⟨0, _⟩ => show win0_2.index t (0 : Fin 2) * 5000 + 1 * p.val = t.val * 5000 + p.val; omega
    | ⟨1, _⟩ => show win0_2.index t (1 : Fin 2) * 64 + 1 * j.val = j.val; omega
  have hX : ∀ k : Fin 128, ((cfg0.win 0).blk t).view.emb (ix2 p k) = ix2 (⟨t.val * 5000 + p.val, hP⟩ : Fin 100000) k := by
    intro k; funext a; apply Fin.ext
    match a with
    | ⟨0, _⟩ => show win0_0.index t (0 : Fin 2) * 5000 + 1 * p.val = t.val * 5000 + p.val; omega
    | ⟨1, _⟩ => show win0_0.index t (1 : Fin 2) * 128 + 1 * k.val = k.val; omega
  have hW : ∀ k : Fin 128, ((cfg0.win 1).blk t).view.emb (ix2 k j) = ix2 k j := by
    intro k; funext a; apply Fin.ext
    match a with
    | ⟨0, _⟩ => show win0_1.index t (0 : Fin 2) * 128 + 1 * k.val = k.val; omega
    | ⟨1, _⟩ => show win0_1.index t (1 : Fin 2) * 64 + 1 * j.val = j.val; omega
  show k0_pay1 (iblk0 V c 0 t) (iblk0 V c 1 t) (ix2 p j)
    = Cert.Layers.mm64 (V c main_arg0) (V c main_arg2) (((cfg0.win 2).blk t).view.emb (ix2 p j))
  rw [hO, Cert.Layers.mm64_apply]
  refine (tile_apply _ _ p j).trans ?_
  refine Finset.sum_congr rfl fun k _ => congrArg₂ (fun a b : EReal => a * b) ?_ ?_
  · show V c main_arg0 (((cfg0.win 0).blk t).view.emb (ix2 p k)) = _
    rw [hX k]
  · show V c main_arg2 (((cfg0.win 1).blk t).view.emb (ix2 k j)) = _
    rw [hW k]

/-- An index of the result array is in point t's block iff each coordinate is in the block's range on its axis. -/
theorem mem_blk (t : Fin cfg0.N) (i : S100000x64.Idx) :
    i ∈ ((cfg0.win 2).blk t).view.set
      ↔ ∀ a : Fin 2, win0_2.index t a * S5000x64.size a ≤ (i a).val ∧ (i a).val < win0_2.index t a * S5000x64.size a + S5000x64.size a := by
  show i ∈ ((View.whole main_v29).slice (win0_2.rect t)).set ↔ _
  rw [View.set_slice_whole, Rect.mem_set_unit]
  exact Iff.rfl

/-- Every row of the result lies in the tile of point (row / 5000). -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hq : (i 0).val / 5000 < 20 := by omega
  refine ⟨⟨(i 0).val / 5000, hq⟩, flush0_2 _, ?_⟩
  rw [mem_blk]
  obtain ⟨-, -, -, -, e4, e5⟩ := blockAt ⟨(i 0).val / 5000, hq⟩
  intro a
  match a with
  | ⟨0, _⟩ =>
    show win0_2.index ⟨(i 0).val / 5000, hq⟩ (0 : Fin 2) * 5000 ≤ (i 0).val
      ∧ (i 0).val < win0_2.index ⟨(i 0).val / 5000, hq⟩ (0 : Fin 2) * 5000 + 5000
    rw [e4]
    show (i 0).val / 5000 * 5000 ≤ (i 0).val ∧ (i 0).val < (i 0).val / 5000 * 5000 + 5000
    omega
  | ⟨1, _⟩ =>
    show win0_2.index ⟨(i 0).val / 5000, hq⟩ (1 : Fin 2) * 64 ≤ (i 1).val
      ∧ (i 1).val < win0_2.index ⟨(i 0).val / 5000, hq⟩ (1 : Fin 2) * 64 + 64
    rw [e5]
    omega

/-- The result array after the region: the whole product of the two arrays the region found. -/
theorem final (c : Dev nD) :
    (dat0 V c).arrAt 2 cfg0.N = Cert.Layers.mm64 (V c main_arg0) (V c main_arg2) :=
  (dat0 V c).arrAt_eq_of_cover 2 _ (fun t _ => flushed_eq V c t) (cover)

end Cert.KernelIdeal.Region0

end
-- ==== Proof.Region1.lean ====
/-
  Pipeline 1 finishes the first graph-convolution layer on tiles of 5000 nodes: point t of its 20 grid points reads rows
  5000 t … 5000 t + 4999 of the transformed features h, of the neighbours' sum agg and of the self-loop column d, and the one
  bias row, and writes the same rows of the result: entry (p, j) of a tile is
  max (agg (5000 t + p, j) + d (5000 t + p) · h (5000 t + p, j) + b j) 0, which is entry (5000 t + p, j) of the whole-array
  layer. The 20 tiles cover the 100000 nodes.
-/
import proofs.«164043_j44212393345739_2_alg».proof.Proof.Gen.KernelIdeal.Frame
import proofs.«164043_j44212393345739_2_alg».proof.Proof.Layers

set_option maxRecDepth 16384

noncomputable section

open scoped BigOperators

namespace Cert.KernelIdeal.Region1

open Cert.KernelIdeal Cert.KernelIdeal.Gen Idealize.ShloMosaic Idealize.ShloMosaic.TcCoe Idealize.ShloMosaic.ValueIdx
open Idealize.ShloMosaic.Pipeline Idealize.SL.Sem

variable (V : (c : Dev nD) → (b : Ref sig .tc) → Buf (Elt Ideal) ((c : Thread nD τ).loc b))

theorem origin : (![0, 0] : Fin 2 → Nat) = fun _ => 0 := funext fun a => by fin_cases a <;> rfl

/-- Where each window's block sits at point t: the node-tiled windows at block (t, 0), the bias row at block (0, 0). -/
theorem blockAt : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- One tile at (p, j): neighbours' sum plus self-loop coefficient times the node's own row plus bias, cut at zero. -/
theorem tile_apply (agg : Vec Ideal S5000x64 .f32) (d : Vec Ideal S5000x1 .f32) (h : Vec Ideal S5000x64 .f32) (b : Vec Ideal S1x64 .f32)
    (p : Fin 5000) (j : Fin 64) :
    k1_pay1 agg d h b (ix2 p j)
      = max ((agg (ix2 p j) + d (ix2 p (0 : Fin 1)) * h (ix2 p j)) + b (ix2 (0 : Fin 1) j)) 0 := by
  unfold k1_pay1
  exact Cert.GraphConv.bodyConv_apply _ _ _ _ _ h agg d b p j

/-- What point t writes back is rows 5000 t … of the whole-array layer. -/
theorem flushed_eq (c : Dev nD) (t : Fin cfg1.N) :
    (dat1 V c).flushed 4 t
      = ((cfg1.win 4).blk t).view.read (Elt Ideal)
          (Cert.Layers.conv64 (V c main_v29) (V c main_v41) (V c main_v12) (V c main_v42)) := by
  show (cfg1.win 4).cut (grid1.coords t) ((dat1 V c).after 4 t) = _
  rw [after1_4]
  unfold out1_4
  rw [View.canon_unit_zero origin]
  simp only [View.ld_unit_zero (S := S5000x64) origin, View.ld_unit_zero (S := S5000x1) origin, View.ld_unit_zero (S := S1x64) origin]
  obtain ⟨e0, e1, e2, e3, e4, e5, e6, e7, e8, e9⟩ := blockAt t
  have ht : t.val < 20 := t.isLt
  funext y
  obtain ⟨p, j, rfl⟩ : ∃ (p : Fin 5000) (j : Fin 64), y = ix2 p j := ⟨y 0, y 1, eq_ix2 y⟩
  have hp : p.val < 5000 := p.isLt
  have hP : t.val * 5000 + p.val < 100000 := by omega
  have hO : ((cfg1.win 4).blk t).view.emb (ix2 p j) = ix2 (⟨t.val * 5000 + p.val, hP⟩ : Fin 100000) j := by
    funext a; apply Fin.ext
    match a with
    | ⟨0, _⟩ => show win1_4.index t (0 : Fin 2) * 5000 + 1 * p.val = t.val * 5000 + p.val; omega
    | ⟨1, _⟩ => show win1_4.index t (1 : Fin 2) * 64 + 1 * j.val = j.val; omega
  have hH : ((cfg1.win 0).blk t).view.emb (ix2 p j) = ix2 (⟨t.val * 5000 + p.val, hP⟩ : Fin 100000) j := by
    funext a; apply Fin.ext
    match a with
    | ⟨0, _⟩ => show win1_0.index t (0 : Fin 2) * 5000 + 1 * p.val = t.val * 5000 + p.val; omega
    | ⟨1, _⟩ => show win1_0.index t (1 : Fin 2) * 64 + 1 * j.val = j.val; omega
  have hA : ((cfg1.win 1).blk t).view.emb (ix2 p j) = ix2 (⟨t.val * 5000 + p.val, hP⟩ : Fin 100000) j := by
    funext a; apply Fin.ext
    match a with
    | ⟨0, _⟩ => show win1_1.index t (0 : Fin 2) * 5000 + 1 * p.val = t.val * 5000 + p.val; omega
    | ⟨1, _⟩ => show win1_1.index t (1 : Fin 2) * 64 + 1 * j.val = j.val; omega
  have hD : ((cfg1.win 2).blk t).view.emb (ix2 p (0 : Fin 1)) = ix2 (⟨t.val * 5000 + p.val, hP⟩ : Fin 100000) (0 : Fin 1) := by
    funext a; apply Fin.ext
    match a with
    | ⟨0, _⟩ => show win1_2.index t (0 : Fin 2) * 5000 + 1 * p.val = t.val * 5000 + p.val; omega
    | ⟨1, _⟩ => show win1_2.index t (1 : Fin 2) * 1 + 1 * 0 = 0; omega
  have hB : ((cfg1.win 3).blk t).view.emb (ix2 (0 : Fin 1) j) = ix2 (0 : Fin 1) j := by
    funext a; apply Fin.ext
    match a with
    | ⟨0, _⟩ => show win1_3.index t (0 : Fin 2) * 1 + 1 * 0 = 0; omega
    | ⟨1, _⟩ => show win1_3.index t (1 : Fin 2) * 64 + 1 * j.val = j.val; omega
  show k1_pay1 (iblk1 V c 1 t) (iblk1 V c 2 t) (iblk1 V c 0 t) (iblk1 V c 3 t) (ix2 p j)
    = Cert.Layers.conv64 (V c main_v29) (V c main_v41) (V c main_v12) (V c main_v42) (((cfg1.win 4).blk t).view.emb (ix2 p j))
  rw [hO, Cert.Layers.conv64_apply]
  refine (tile_apply _ _ _ _ p j).trans ?_
  refine congrArg (fun a : EReal => max a 0) (congrArg₂ (fun a b : EReal => a + b)
    (congrArg₂ (fun a b : EReal => a + b) ?_ (congrArg₂ (fun a b : EReal => a * b) ?_ ?_)) ?_)
  · show V c main_v41 (((cfg1.win 1).blk t).view.emb (ix2 p j)) = _
    rw [hA]
  · show V c main_v12 (((cfg1.win 2).blk t).view.emb (ix2 p (0 : Fin 1))) = _
    rw [hD]
  · show V c main_v29 (((cfg1.win 0).blk t).view.emb (ix2 p j)) = _
    rw [hH]
  · show V c main_v42 (((cfg1.win 3).blk t).view.emb (ix2 (0 : Fin 1) j)) = _
    rw [hB]

/-- An index of the result array is in point t's block iff each coordinate is in the block's range on its axis. -/
theorem mem_blk (t : Fin cfg1.N) (i : S100000x64.Idx) :
    i ∈ ((cfg1.win 4).blk t).view.set
      ↔ ∀ a : Fin 2, win1_4.index t a * S5000x64.size a ≤ (i a).val ∧ (i a).val < win1_4.index t a * S5000x64.size a + S5000x64.size a := by
  show i ∈ ((View.whole main_v43).slice (win1_4.rect t)).set ↔ _
  rw [View.set_slice_whole, Rect.mem_set_unit]
  exact Iff.rfl

/-- Every node's row lies in the tile of point (row / 5000). -/
theorem cover (i : S100000x64.Idx) :
    ∃ t : Fin cfg1.N, (cfg1.win 4).flush t = true ∧ i ∈ ((cfg1.win 4).blk t).view.set := by
  have hi0 : (i 0).val < 100000 := (i 0).isLt
  have hi1 : (i 1).val < 64 := (i 1).isLt
  have hq : (i 0).val / 5000 < 20 := by omega
  refine ⟨⟨(i 0).val / 5000, hq⟩, flush1_4 _, ?_⟩
  rw [mem_blk]
  obtain ⟨-, -, -, -, -, -, -, -, e8, e9⟩ := blockAt ⟨(i 0).val / 5000, hq⟩
  intro a
  match a with
  | ⟨0, _⟩ =>
    show win1_4.index ⟨(i 0).val / 5000, hq⟩ (0 : Fin 2) * 5000 ≤ (i 0).val
      ∧ (i 0).val < win1_4.index ⟨(i 0).val / 5000, hq⟩ (0 : Fin 2) * 5000 + 5000
    rw [e8]
    show (i 0).val / 5000 * 5000 ≤ (i 0).val ∧ (i 0).val < (i 0).val / 5000 * 5000 + 5000
    omega
  | ⟨1, _⟩ =>
    show win1_4.index ⟨(i 0).val / 5000, hq⟩ (1 : Fin 2) * 64 ≤ (i 1).val
      ∧ (i 1).val < win1_4.index ⟨(i 0).val / 5000, hq⟩ (1 : Fin 2) * 64 + 64
    rw [e9]
    omega

/-- The result array after the region: the whole-array layer of the four arrays the region found. -/
theorem final (c : Dev nD) :
    (dat1 V c).arrAt 4 cfg1.N = Cert.Layers.conv64 (V c main_v29) (V c main_v41) (V c main_v12) (V c main_v42) :=
  (dat1 V c).arrAt_eq_of_cover 4 _ (fun t _ => flushed_eq V c t) (cover)

end Cert.KernelIdeal.Region1

end
-- ==== Proof.Region2.lean ====
/-
  Pipeline 2 multiplies a tile of 5000 rows by the whole weight matrix and adds the bias row: point t of its 20 grid
  points reads rows 5000 t … 5000 t + 4999 of the left array, all of the weights and the one bias row, and writes the
  same rows of the result. Entry (p, j) of a tile is the sum over k of left (5000 t + p, k) · weights (k, j), plus
  bias (0, j) — the bf16 roundings are the identity on the extended reals — which is entry (5000 t + p, j) of the
  whole-array layer. The 20 tiles cover the result's 100000 rows.
-/
import proofs.«164043_j44212393345739_2_alg».proof.Proof.Gen.KernelIdeal.Frame
import proofs.«164043_j44212393345739_2_alg».proof.Proof.Layers

set_option maxRecDepth 16384

noncomputable section

open scoped BigOperators

namespace Cert.KernelIdeal.Region2

open Cert.KernelIdeal Cert.KernelIdeal.Gen Idealize.ShloMosaic Idealize.ShloMosaic.TcCoe Idealize.ShloMosaic.ValueIdx
open Idealize.ShloMosaic.Pipeline Idealize.SL.Sem

variable (V : (c : Dev nD) → (b : Ref sig .tc) → Buf (Elt Ideal) ((c : Thread nD τ).loc b))

theorem origin : (![0, 0] : Fin 2 → Nat) = fun _ => 0 := funext fun a => by fin_cases a <;> rfl

/-- Where each window's block sits at point t: the row-tiled windows at block (t, 0), the weights and the bias row
    at block (0, 0). -/
theorem blockAt : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- One tile at (p, j): the sum over k of the left tile at (p, k) times the weights at (k, j), plus the bias at j. -/
theorem tile_apply (x : Vec Ideal S5000x128 .f32) (w : Vec Ideal S128x32 .f32) (b : Vec Ideal S1x32 .f32) (p : Fin 5000) (j : Fin 32) :
    k2_pay1 x w b (ix2 p j) = (∑ k : Fin 128, x (ix2 p k) * w (ix2 k j)) + b (ix2 (0 : Fin 1) j) := by
  unfold k2_pay1
  exact Cert.PlainLayers.dense_bias_apply dot_S5000x128_S128x32_S5000x32_1_0_0_1_n_n rfl none _ _ b _ _ p j

/-- What point t writes back is rows 5000 t … of the whole-array layer. -/
theorem flushed_eq (c : Dev nD) (t : Fin cfg2.N) :
    (dat2 V c).flushed 3 t
      = ((cfg2.win 3).blk t).view.read (Elt Ideal) (Cert.Layers.lin32 (V c main_arg0) (V c main_arg8) (V c main_v44)) := by
  show (cfg2.win 3).cut (grid2.coords t) ((dat2 V c).after 3 t) = _
  rw [after2_3]
  unfold out2_3
  rw [View.canon_unit_zero origin]
  simp only [View.ld_unit_zero (S := S5000x128) origin, View.ld_unit_zero (S := S128x32) origin, View.ld_unit_zero (S := S1x32) origin]
  obtain ⟨e0, e1, e2, e3, e4, e5, e6, e7⟩ := blockAt t
  have ht : t.val < 20 := t.isLt
  funext y
  obtain ⟨p, j, rfl⟩ : ∃ (p : Fin 5000) (j : Fin 32), y = ix2 p j := ⟨y 0, y 1, eq_ix2 y⟩
  have hp : p.val < 5000 := p.isLt
  have hP : t.val * 5000 + p.val < 100000 := by omega
  have hO : ((cfg2.win 3).blk t).view.emb (ix2 p j) = ix2 (⟨t.val * 5000 + p.val, hP⟩ : Fin 100000) j := by
    funext a; apply Fin.ext
    match a with
    | ⟨0, _⟩ => show win2_3.index t (0 : Fin 2) * 5000 + 1 * p.val = t.val * 5000 + p.val; omega
    | ⟨1, _⟩ => show win2_3.index t (1 : Fin 2) * 32 + 1 * j.val = j.val; omega
  have hX : ∀ k : Fin 128, ((cfg2.win 0).blk t).view.emb (ix2 p k) = ix2 (⟨t.val * 5000 + p.val, hP⟩ : Fin 100000) k := by
    intro k; funext a; apply Fin.ext
    match a with
    | ⟨0, _⟩ => show win2_0.index t (0 : Fin 2) * 5000 + 1 * p.val = t.val * 5000 + p.val; omega
    | ⟨1, _⟩ => show win2_0.index t (1 : Fin 2) * 128 + 1 * k.val = k.val; omega
  have hW : ∀ k : Fin 128, ((cfg2.win 1).blk t).view.emb (ix2 k j) = ix2 k j := by
    intro k; funext a; apply Fin.ext
    match a with
    | ⟨0, _⟩ => show win2_1.index t (0 : Fin 2) * 128 + 1 * k.val = k.val; omega
    | ⟨1, _⟩ => show win2_1.index t (1 : Fin 2) * 32 + 1 * j.val = j.val; omega
  have hB : ((cfg2.win 2).blk t).view.emb (ix2 (0 : Fin 1) j) = ix2 (0 : Fin 1) j := by
    funext a; apply Fin.ext
    match a with
    | ⟨0, _⟩ => show win2_2.index t (0 : Fin 2) * 1 + 1 * 0 = 0; omega
    | ⟨1, _⟩ => show win2_2.index t (1 : Fin 2) * 32 + 1 * j.val = j.val; omega
  show k2_pay1 (iblk2 V c 0 t) (iblk2 V c 1 t) (iblk2 V c 2 t) (ix2 p j)
    = Cert.Layers.lin32 (V c main_arg0) (V c main_arg8) (V c main_v44) (((cfg2.win 3).blk t).view.emb (ix2 p j))
  rw [hO, Cert.Layers.lin32_apply]
  refine (tile_apply _ _ _ p j).trans ?_
  refine congrArg₂ (fun a b : EReal => a + b)
    (Finset.sum_congr rfl fun k _ => congrArg₂ (fun a b : EReal => a * b) ?_ ?_) ?_
  · show V c main_arg0 (((cfg2.win 0).blk t).view.emb (ix2 p k)) = _
    rw [hX k]
  · show V c main_arg8 (((cfg2.win 1).blk t).view.emb (ix2 k j)) = _
    rw [hW k]
  · show V c main_v44 (((cfg2.win 2).blk t).view.emb (ix2 (0 : Fin 1) j)) = _
    rw [hB]

/-- An index of the result array is in point t's block iff each coordinate is in the block's range on its axis. -/
theorem mem_blk (t : Fin cfg2.N) (i : S100000x32.Idx) :
    i ∈ ((cfg2.win 3).blk t).view.set
      ↔ ∀ a : Fin 2, win2_3.index t a * S5000x32.size a ≤ (i a).val ∧ (i a).val < win2_3.index t a * S5000x32.size a + S5000x32.size a := by
  show i ∈ ((View.whole main_v45).slice (win2_3.rect t)).set ↔ _
  rw [View.set_slice_whole, Rect.mem_set_unit]
  exact Iff.rfl

/-- Every row of the result lies in the tile of point (row / 5000). -/
theorem cover (i : S100000x32.Idx) :
    ∃ t : Fin cfg2.N, (cfg2.win 3).flush t = true ∧ i ∈ ((cfg2.win 3).blk t).view.set := by
  have hi0 : (i 0).val < 100000 := (i 0).isLt
  have hi1 : (i 1).val < 32 := (i 1).isLt
  have hq : (i 0).val / 5000 < 20 := by omega
  refine ⟨⟨(i 0).val / 5000, hq⟩, flush2_3 _, ?_⟩
  rw [mem_blk]
  obtain ⟨-, -, -, -, -, -, e6, e7⟩ := blockAt ⟨(i 0).val / 5000, hq⟩
  intro a
  match a with
  | ⟨0, _⟩ =>
    show win2_3.index ⟨(i 0).val / 5000, hq⟩ (0 : Fin 2) * 5000 ≤ (i 0).val
      ∧ (i 0).val < win2_3.index ⟨(i 0).val / 5000, hq⟩ (0 : Fin 2) * 5000 + 5000
    rw [e6]
    show (i 0).val / 5000 * 5000 ≤ (i 0).val ∧ (i 0).val < (i 0).val / 5000 * 5000 + 5000
    omega
  | ⟨1, _⟩ =>
    show win2_3.index ⟨(i 0).val / 5000, hq⟩ (1 : Fin 2) * 32 ≤ (i 1).val
      ∧ (i 1).val < win2_3.index ⟨(i 0).val / 5000, hq⟩ (1 : Fin 2) * 32 + 32
    rw [e7]
    omega

/-- The result array after the region: the whole-array layer of the three arrays the region found. -/
theorem final (c : Dev nD) :
    (dat2 V c).arrAt 3 cfg2.N = Cert.Layers.lin32 (V c main_arg0) (V c main_arg8) (V c main_v44) :=
  (dat2 V c).arrAt_eq_of_cover 3 _ (fun t _ => flushed_eq V c t) (cover)

end Cert.KernelIdeal.Region2

end
-- ==== Proof.Region3.lean ====
/-
  Pipeline 3 multiplies a tile of 5000 rows by the whole weight matrix: point t of its 20 grid points reads rows
  5000 t … 5000 t + 4999 of the left array and all of the right one, and writes the same rows of the result. Entry (p, j)
  of a tile is the sum over k of left (5000 t + p, k) · right (k, j) — the bf16 roundings are the identity on the extended
  reals — which is entry (5000 t + p, j) of the whole product. The 20 tiles cover the result's 100000 rows, so the
  result array ends holding the whole product of the two arrays the region found.
-/
import proofs.«164043_j44212393345739_2_alg».proof.Proof.Gen.KernelIdeal.Frame
import proofs.«164043_j44212393345739_2_alg».proof.Proof.Layers

set_option maxRecDepth 16384

noncomputable section

open scoped BigOperators

namespace Cert.KernelIdeal.Region3

open Cert.KernelIdeal Cert.KernelIdeal.Gen Idealize.ShloMosaic Idealize.ShloMosaic.TcCoe Idealize.ShloMosaic.ValueIdx
open Idealize.ShloMosaic.Pipeline Idealize.SL.Sem

variable (V : (c : Dev nD) → (b : Ref sig .tc) → Buf (Elt Ideal) ((c : Thread nD τ).loc b))

theorem origin : (![0, 0] : Fin 2 → Nat) = fun _ => 0 := funext fun a => by fin_cases a <;> rfl

/-- Where each window's block sits at point t: the row-tiled windows at block (t, 0), the weights at block (0, 0). -/
theorem blockAt : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- One tile of the product at (p, j): the sum over k of the left tile at (p, k) times the weights at (k, j). -/
theorem tile_apply (x : Vec Ideal S5000x64 .f32) (w : Vec Ideal S64x32 .f32) (p : Fin 5000) (j : Fin 32) :
    k3_pay1 x w (ix2 p j) = ∑ k : Fin 64, x (ix2 p k) * w (ix2 k j) := by
  unfold k3_pay1
  -- the left tile is first recast to its own shape, which changes nothing
  refine (Cert.PlainLayers.plainMM_of_eq dot_S5000x64_S64x32_S5000x32_1_0_0_1_n_n rfl none _ _ p j).trans ?_
  exact Finset.sum_congr rfl fun k _ =>
    congrArg (fun a : EReal => a * w (ix2 k j)) (congrFun (shapeCast_self x shapeCasts_S5000x64_S5000x64) (ix2 p k))

/-- What point t writes back is rows 5000 t … of the whole product. -/
theorem flushed_eq (c : Dev nD) (t : Fin cfg3.N) :
    (dat3 V c).flushed 2 t
      = ((cfg3.win 2).blk t).view.read (Elt Ideal) (Cert.Layers.mm32 (V c main_v43) (V c main_arg4)) := by
  show (cfg3.win 2).cut (grid3.coords t) ((dat3 V c).after 2 t) = _
  rw [after3_2]
  unfold out3_2
  rw [View.canon_unit_zero origin]
  simp only [View.ld_unit_zero (S := S5000x64) origin, View.ld_unit_zero (S := S64x32) origin]
  obtain ⟨e0, e1, e2, e3, e4, e5⟩ := blockAt t
  have ht : t.val < 20 := t.isLt
  funext y
  obtain ⟨p, j, rfl⟩ : ∃ (p : Fin 5000) (j : Fin 32), y = ix2 p j := ⟨y 0, y 1, eq_ix2 y⟩
  have hp : p.val < 5000 := p.isLt
  have hP : t.val * 5000 + p.val < 100000 := by omega
  have hO : ((cfg3.win 2).blk t).view.emb (ix2 p j) = ix2 (⟨t.val * 5000 + p.val, hP⟩ : Fin 100000) j := by
    funext a; apply Fin.ext
    match a with
    | ⟨0, _⟩ => show win3_2.index t (0 : Fin 2) * 5000 + 1 * p.val = t.val * 5000 + p.val; omega
    | ⟨1, _⟩ => show win3_2.index t (1 : Fin 2) * 32 + 1 * j.val = j.val; omega
  have hX : ∀ k : Fin 64, ((cfg3.win 0).blk t).view.emb (ix2 p k) = ix2 (⟨t.val * 5000 + p.val, hP⟩ : Fin 100000) k := by
    intro k; funext a; apply Fin.ext
    match a with
    | ⟨0, _⟩ => show win3_0.index t (0 : Fin 2) * 5000 + 1 * p.val = t.val * 5000 + p.val; omega
    | ⟨1, _⟩ => show win3_0.index t (1 : Fin 2) * 64 + 1 * k.val = k.val; omega
  have hW : ∀ k : Fin 64, ((cfg3.win 1).blk t).view.emb (ix2 k j) = ix2 k j := by
    intro k; funext a; apply Fin.ext
    match a with
    | ⟨0, _⟩ => show win3_1.index t (0 : Fin 2) * 64 + 1 * k.val = k.val; omega
    | ⟨1, _⟩ => show win3_1.index t (1 : Fin 2) * 32 + 1 * j.val = j.val; omega
  show k3_pay1 (iblk3 V c 0 t) (iblk3 V c 1 t) (ix2 p j)
    = Cert.Layers.mm32 (V c main_v43) (V c main_arg4) (((cfg3.win 2).blk t).view.emb (ix2 p j))
  rw [hO, Cert.Layers.mm32_apply]
  refine (tile_apply _ _ p j).trans ?_
  refine Finset.sum_congr rfl fun k _ => congrArg₂ (fun a b : EReal => a * b) ?_ ?_
  · show V c main_v43 (((cfg3.win 0).blk t).view.emb (ix2 p k)) = _
    rw [hX k]
  · show V c main_arg4 (((cfg3.win 1).blk t).view.emb (ix2 k j)) = _
    rw [hW k]

/-- An index of the result array is in point t's block iff each coordinate is in the block's range on its axis. -/
theorem mem_blk (t : Fin cfg3.N) (i : S100000x32.Idx) :
    i ∈ ((cfg3.win 2).blk t).view.set
      ↔ ∀ a : Fin 2, win3_2.index t a * S5000x32.size a ≤ (i a).val ∧ (i a).val < win3_2.index t a * S5000x32.size a + S5000x32.size a := by
  show i ∈ ((View.whole main_v46).slice (win3_2.rect t)).set ↔ _
  rw [View.set_slice_whole, Rect.mem_set_unit]
  exact Iff.rfl

/-- Every row of the result lies in the tile of point (row / 5000). -/
theorem cover (i : S100000x32.Idx) :
    ∃ t : Fin cfg3.N, (cfg3.win 2).flush t = true ∧ i ∈ ((cfg3.win 2).blk t).view.set := by
  have hi0 : (i 0).val < 100000 := (i 0).isLt
  have hi1 : (i 1).val < 32 := (i 1).isLt
  have hq : (i 0).val / 5000 < 20 := by omega
  refine ⟨⟨(i 0).val / 5000, hq⟩, flush3_2 _, ?_⟩
  rw [mem_blk]
  obtain ⟨-, -, -, -, e4, e5⟩ := blockAt ⟨(i 0).val / 5000, hq⟩
  intro a
  match a with
  | ⟨0, _⟩ =>
    show win3_2.index ⟨(i 0).val / 5000, hq⟩ (0 : Fin 2) * 5000 ≤ (i 0).val
      ∧ (i 0).val < win3_2.index ⟨(i 0).val / 5000, hq⟩ (0 : Fin 2) * 5000 + 5000
    rw [e4]
    show (i 0).val / 5000 * 5000 ≤ (i 0).val ∧ (i 0).val < (i 0).val / 5000 * 5000 + 5000
    omega
  | ⟨1, _⟩ =>
    show win3_2.index ⟨(i 0).val / 5000, hq⟩ (1 : Fin 2) * 32 ≤ (i 1).val
      ∧ (i 1).val < win3_2.index ⟨(i 0).val / 5000, hq⟩ (1 : Fin 2) * 32 + 32
    rw [e5]
    omega

/-- The result array after the region: the whole product of the two arrays the region found. -/
theorem final (c : Dev nD) :
    (dat3 V c).arrAt 2 cfg3.N = Cert.Layers.mm32 (V c main_v43) (V c main_arg4) :=
  (dat3 V c).arrAt_eq_of_cover 2 _ (fun t _ => flushed_eq V c t) (cover)

end Cert.KernelIdeal.Region3

end
-- ==== Proof.Region4.lean ====
/-
  Pipeline 4 finishes the second graph-convolution layer on tiles of 5000 nodes: point t of its 20 grid points reads
  rows 5000 t … 5000 t + 4999 of the transformed features h, of the neighbours' sum agg, of the self-loop column d and of
  the skip input s, and the one bias row, and writes the same rows of the result: entry (p, j) of a tile is
  max (agg (5000 t + p, j) + d (5000 t + p) · h (5000 t + p, j) + b j) 0 + s (5000 t + p, j), which is entry (5000 t + p, j)
  of the whole-array layer. The 20 tiles cover the 100000 nodes.
-/
import proofs.«164043_j44212393345739_2_alg».proof.Proof.Gen.KernelIdeal.Frame
import proofs.«164043_j44212393345739_2_alg».proof.Proof.Layers

set_option maxRecDepth 16384

noncomputable section

open scoped BigOperators

namespace Cert.KernelIdeal.Region4

open Cert.KernelIdeal Cert.KernelIdeal.Gen Idealize.ShloMosaic Idealize.ShloMosaic.TcCoe Idealize.ShloMosaic.ValueIdx
open Idealize.ShloMosaic.Pipeline Idealize.SL.Sem

variable (V : (c : Dev nD) → (b : Ref sig .tc) → Buf (Elt Ideal) ((c : Thread nD τ).loc b))

theorem origin : (![0, 0] : Fin 2 → Nat) = fun _ => 0 := funext fun a => by fin_cases a <;> rfl

/-- Where each window's block sits at point t: the node-tiled windows at block (t, 0), the bias row at block (0, 0). -/
theorem blockAt : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0
    ∧ win4_5.index t (0 : Fin 2) = t.val ∧ win4_5.index t (1 : Fin 2) = 0 :=
  (by decide +kernel : ∀ t : Fin grid4.N, _)

/-- One tile at (p, j): the layer's value cut at zero, plus the skip input. -/
theorem tile_apply (agg : Vec Ideal S5000x32 .f32) (d : Vec Ideal S5000x1 .f32) (h : Vec Ideal S5000x32 .f32) (b : Vec Ideal S1x32 .f32)
    (s : Vec Ideal S5000x32 .f32) (p : Fin 5000) (j : Fin 32) :
    k4_pay1 agg d h b s (ix2 p j)
      = max ((agg (ix2 p j) + d (ix2 p (0 : Fin 1)) * h (ix2 p j)) + b (ix2 (0 : Fin 1) j)) 0 + s (ix2 p j) := by
  unfold k4_pay1
  exact congrArg₂ (fun a b : EReal => a + b) (Cert.GraphConv.bodyConv_apply _ _ _ _ _ h agg d b p j)
    (congrFun (shapeCast_self s shapeCasts_S5000x32_S5000x32) (ix2 p j))

/-- What point t writes back is rows 5000 t … of the whole-array layer. -/
theorem flushed_eq (c : Dev nD) (t : Fin cfg4.N) :
    (dat4 V c).flushed 5 t
      = ((cfg4.win 5).blk t).view.read (Elt Ideal)
          (Cert.Layers.conv32 (V c main_v46) (V c main_v58) (V c main_v12) (V c main_v59) (V c main_v45)) := by
  show (cfg4.win 5).cut (grid4.coords t) ((dat4 V c).after 5 t) = _
  rw [after4_5]
  unfold out4_5
  rw [View.canon_unit_zero origin]
  simp only [View.ld_unit_zero (S := S5000x32) origin, View.ld_unit_zero (S := S5000x1) origin, View.ld_unit_zero (S := S1x32) origin]
  obtain ⟨e0, e1, e2, e3, e4, e5, e6, e7, e8, e9, e10, e11⟩ := blockAt t
  have ht : t.val < 20 := t.isLt
  funext y
  obtain ⟨p, j, rfl⟩ : ∃ (p : Fin 5000) (j : Fin 32), y = ix2 p j := ⟨y 0, y 1, eq_ix2 y⟩
  have hp : p.val < 5000 := p.isLt
  have hP : t.val * 5000 + p.val < 100000 := by omega
  have hO : ((cfg4.win 5).blk t).view.emb (ix2 p j) = ix2 (⟨t.val * 5000 + p.val, hP⟩ : Fin 100000) j := by
    funext a; apply Fin.ext
    match a with
    | ⟨0, _⟩ => show win4_5.index t (0 : Fin 2) * 5000 + 1 * p.val = t.val * 5000 + p.val; omega
    | ⟨1, _⟩ => show win4_5.index t (1 : Fin 2) * 32 + 1 * j.val = j.val; omega
  have hH : ((cfg4.win 0).blk t).view.emb (ix2 p j) = ix2 (⟨t.val * 5000 + p.val, hP⟩ : Fin 100000) j := by
    funext a; apply Fin.ext
    match a with
    | ⟨0, _⟩ => show win4_0.index t (0 : Fin 2) * 5000 + 1 * p.val = t.val * 5000 + p.val; omega
    | ⟨1, _⟩ => show win4_0.index t (1 : Fin 2) * 32 + 1 * j.val = j.val; omega
  have hA : ((cfg4.win 1).blk t).view.emb (ix2 p j) = ix2 (⟨t.val * 5000 + p.val, hP⟩ : Fin 100000) j := by
    funext a; apply Fin.ext
    match a with
    | ⟨0, _⟩ => show win4_1.index t (0 : Fin 2) * 5000 + 1 * p.val = t.val * 5000 + p.val; omega
    | ⟨1, _⟩ => show win4_1.index t (1 : Fin 2) * 32 + 1 * j.val = j.val; omega
  have hD : ((cfg4.win 2).blk t).view.emb (ix2 p (0 : Fin 1)) = ix2 (⟨t.val * 5000 + p.val, hP⟩ : Fin 100000) (0 : Fin 1) := by
    funext a; apply Fin.ext
    match a with
    | ⟨0, _⟩ => show win4_2.index t (0 : Fin 2) * 5000 + 1 * p.val = t.val * 5000 + p.val; omega
    | ⟨1, _⟩ => show win4_2.index t (1 : Fin 2) * 1 + 1 * 0 = 0; omega
  have hB : ((cfg4.win 3).blk t).view.emb (ix2 (0 : Fin 1) j) = ix2 (0 : Fin 1) j := by
    funext a; apply Fin.ext
    match a with
    | ⟨0, _⟩ => show win4_3.index t (0 : Fin 2) * 1 + 1 * 0 = 0; omega
    | ⟨1, _⟩ => show win4_3.index t (1 : Fin 2) * 32 + 1 * j.val = j.val; omega
  have hS : ((cfg4.win 4).blk t).view.emb (ix2 p j) = ix2 (⟨t.val * 5000 + p.val, hP⟩ : Fin 100000) j := by
    funext a; apply Fin.ext
    match a with
    | ⟨0, _⟩ => show win4_4.index t (0 : Fin 2) * 5000 + 1 * p.val = t.val * 5000 + p.val; omega
    | ⟨1, _⟩ => show win4_4.index t (1 : Fin 2) * 32 + 1 * j.val = j.val; omega
  show k4_pay1 (iblk4 V c 1 t) (iblk4 V c 2 t) (iblk4 V c 0 t) (iblk4 V c 3 t) (iblk4 V c 4 t) (ix2 p j)
    = Cert.Layers.conv32 (V c main_v46) (V c main_v58) (V c main_v12) (V c main_v59) (V c main_v45)
        (((cfg4.win 5).blk t).view.emb (ix2 p j))
  rw [hO, Cert.Layers.conv32_apply]
  refine (tile_apply _ _ _ _ _ p j).trans ?_
  refine congrArg₂ (fun a b : EReal => a + b) (congrArg (fun a : EReal => max a 0) (congrArg₂ (fun a b : EReal => a + b)
    (congrArg₂ (fun a b : EReal => a + b) ?_ (congrArg₂ (fun a b : EReal => a * b) ?_ ?_)) ?_)) ?_
  · show V c main_v58 (((cfg4.win 1).blk t).view.emb (ix2 p j)) = _
    rw [hA]
  · show V c main_v12 (((cfg4.win 2).blk t).view.emb (ix2 p (0 : Fin 1))) = _
    rw [hD]
  · show V c main_v46 (((cfg4.win 0).blk t).view.emb (ix2 p j)) = _
    rw [hH]
  · show V c main_v59 (((cfg4.win 3).blk t).view.emb (ix2 (0 : Fin 1) j)) = _
    rw [hB]
  · show V c main_v45 (((cfg4.win 4).blk t).view.emb (ix2 p j)) = _
    rw [hS]

/-- An index of the result array is in point t's block iff each coordinate is in the block's range on its axis. -/
theorem mem_blk (t : Fin cfg4.N) (i : S100000x32.Idx) :
    i ∈ ((cfg4.win 5).blk t).view.set
      ↔ ∀ a : Fin 2, win4_5.index t a * S5000x32.size a ≤ (i a).val ∧ (i a).val < win4_5.index t a * S5000x32.size a + S5000x32.size a := by
  show i ∈ ((View.whole main_v60).slice (win4_5.rect t)).set ↔ _
  rw [View.set_slice_whole, Rect.mem_set_unit]
  exact Iff.rfl

/-- Every node's row lies in the tile of point (row / 5000). -/
theorem cover (i : S100000x32.Idx) :
    ∃ t : Fin cfg4.N, (cfg4.win 5).flush t = true ∧ i ∈ ((cfg4.win 5).blk t).view.set := by
  have hi0 : (i 0).val < 100000 := (i 0).isLt
  have hi1 : (i 1).val < 32 := (i 1).isLt
  have hq : (i 0).val / 5000 < 20 := by omega
  refine ⟨⟨(i 0).val / 5000, hq⟩, flush4_5 _, ?_⟩
  rw [mem_blk]
  obtain ⟨-, -, -, -, -, -, -, -, -, -, e10, e11⟩ := blockAt ⟨(i 0).val / 5000, hq⟩
  intro a
  match a with
  | ⟨0, _⟩ =>
    show win4_5.index ⟨(i 0).val / 5000, hq⟩ (0 : Fin 2) * 5000 ≤ (i 0).val
      ∧ (i 0).val < win4_5.index ⟨(i 0).val / 5000, hq⟩ (0 : Fin 2) * 5000 + 5000
    rw [e10]
    show (i 0).val / 5000 * 5000 ≤ (i 0).val ∧ (i 0).val < (i 0).val / 5000 * 5000 + 5000
    omega
  | ⟨1, _⟩ =>
    show win4_5.index ⟨(i 0).val / 5000, hq⟩ (1 : Fin 2) * 32 ≤ (i 1).val
      ∧ (i 1).val < win4_5.index ⟨(i 0).val / 5000, hq⟩ (1 : Fin 2) * 32 + 32
    rw [e11]
    omega

/-- The result array after the region: the whole-array layer of the five arrays the region found. -/
theorem final (c : Dev nD) :
    (dat4 V c).arrAt 5 cfg4.N
      = Cert.Layers.conv32 (V c main_v46) (V c main_v58) (V c main_v12) (V c main_v59) (V c main_v45) :=
  (dat4 V c).arrAt_eq_of_cover 5 _ (fun t _ => flushed_eq V c t) (cover)

end Cert.KernelIdeal.Region4

end
-- ==== Proof.Region5.lean ====
/-
  Pipeline 5 multiplies a tile of 5000 rows by the whole weight matrix and adds the bias row: point t of its 20 grid
  points reads rows 5000 t … 5000 t + 4999 of the left array, all of the weights and the one bias row, and writes the
  same rows of the result. Entry (p, j) of a tile is the sum over k of left (5000 t + p, k) · weights (k, j), plus
  bias (0, j) — the bf16 roundings are the identity on the extended reals — which is entry (5000 t + p, j) of the
  whole-array layer. The 20 tiles cover the result's 100000 rows.
-/
import proofs.«164043_j44212393345739_2_alg».proof.Proof.Gen.KernelIdeal.Frame
import proofs.«164043_j44212393345739_2_alg».proof.Proof.Layers

set_option maxRecDepth 16384

noncomputable section

open scoped BigOperators

namespace Cert.KernelIdeal.Region5

open Cert.KernelIdeal Cert.KernelIdeal.Gen Idealize.ShloMosaic Idealize.ShloMosaic.TcCoe Idealize.ShloMosaic.ValueIdx
open Idealize.ShloMosaic.Pipeline Idealize.SL.Sem

variable (V : (c : Dev nD) → (b : Ref sig .tc) → Buf (Elt Ideal) ((c : Thread nD τ).loc b))

theorem origin : (![0, 0] : Fin 2 → Nat) = fun _ => 0 := funext fun a => by fin_cases a <;> rfl

/-- Where each window's block sits at point t: the row-tiled windows at block (t, 0), the weights and the bias row
    at block (0, 0). -/
theorem blockAt : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- One tile at (p, j): the sum over k of the left tile at (p, k) times the weights at (k, j), plus the bias at j. -/
theorem tile_apply (x : Vec Ideal S5000x128 .f32) (w : Vec Ideal S128x16 .f32) (b : Vec Ideal S1x16 .f32) (p : Fin 5000) (j : Fin 16) :
    k5_pay1 x w b (ix2 p j) = (∑ k : Fin 128, x (ix2 p k) * w (ix2 k j)) + b (ix2 (0 : Fin 1) j) := by
  unfold k5_pay1
  exact Cert.PlainLayers.dense_bias_apply dot_S5000x128_S128x16_S5000x16_1_0_0_1_n_n rfl none _ _ b _ _ p j

/-- What point t writes back is rows 5000 t … of the whole-array layer. -/
theorem flushed_eq (c : Dev nD) (t : Fin cfg5.N) :
    (dat5 V c).flushed 3 t
      = ((cfg5.win 3).blk t).view.read (Elt Ideal) (Cert.Layers.lin16a (V c main_arg0) (V c main_arg10) (V c main_v61)) := by
  show (cfg5.win 3).cut (grid5.coords t) ((dat5 V c).after 3 t) = _
  rw [after5_3]
  unfold out5_3
  rw [View.canon_unit_zero origin]
  simp only [View.ld_unit_zero (S := S5000x128) origin, View.ld_unit_zero (S := S128x16) origin, View.ld_unit_zero (S := S1x16) origin]
  obtain ⟨e0, e1, e2, e3, e4, e5, e6, e7⟩ := blockAt t
  have ht : t.val < 20 := t.isLt
  funext y
  obtain ⟨p, j, rfl⟩ : ∃ (p : Fin 5000) (j : Fin 16), y = ix2 p j := ⟨y 0, y 1, eq_ix2 y⟩
  have hp : p.val < 5000 := p.isLt
  have hP : t.val * 5000 + p.val < 100000 := by omega
  have hO : ((cfg5.win 3).blk t).view.emb (ix2 p j) = ix2 (⟨t.val * 5000 + p.val, hP⟩ : Fin 100000) j := by
    funext a; apply Fin.ext
    match a with
    | ⟨0, _⟩ => show win5_3.index t (0 : Fin 2) * 5000 + 1 * p.val = t.val * 5000 + p.val; omega
    | ⟨1, _⟩ => show win5_3.index t (1 : Fin 2) * 16 + 1 * j.val = j.val; omega
  have hX : ∀ k : Fin 128, ((cfg5.win 0).blk t).view.emb (ix2 p k) = ix2 (⟨t.val * 5000 + p.val, hP⟩ : Fin 100000) k := by
    intro k; funext a; apply Fin.ext
    match a with
    | ⟨0, _⟩ => show win5_0.index t (0 : Fin 2) * 5000 + 1 * p.val = t.val * 5000 + p.val; omega
    | ⟨1, _⟩ => show win5_0.index t (1 : Fin 2) * 128 + 1 * k.val = k.val; omega
  have hW : ∀ k : Fin 128, ((cfg5.win 1).blk t).view.emb (ix2 k j) = ix2 k j := by
    intro k; funext a; apply Fin.ext
    match a with
    | ⟨0, _⟩ => show win5_1.index t (0 : Fin 2) * 128 + 1 * k.val = k.val; omega
    | ⟨1, _⟩ => show win5_1.index t (1 : Fin 2) * 16 + 1 * j.val = j.val; omega
  have hB : ((cfg5.win 2).blk t).view.emb (ix2 (0 : Fin 1) j) = ix2 (0 : Fin 1) j := by
    funext a; apply Fin.ext
    match a with
    | ⟨0, _⟩ => show win5_2.index t (0 : Fin 2) * 1 + 1 * 0 = 0; omega
    | ⟨1, _⟩ => show win5_2.index t (1 : Fin 2) * 16 + 1 * j.val = j.val; omega
  show k5_pay1 (iblk5 V c 0 t) (iblk5 V c 1 t) (iblk5 V c 2 t) (ix2 p j)
    = Cert.Layers.lin16a (V c main_arg0) (V c main_arg10) (V c main_v61) (((cfg5.win 3).blk t).view.emb (ix2 p j))
  rw [hO, Cert.Layers.lin16a_apply]
  refine (tile_apply _ _ _ p j).trans ?_
  refine congrArg₂ (fun a b : EReal => a + b)
    (Finset.sum_congr rfl fun k _ => congrArg₂ (fun a b : EReal => a * b) ?_ ?_) ?_
  · show V c main_arg0 (((cfg5.win 0).blk t).view.emb (ix2 p k)) = _
    rw [hX k]
  · show V c main_arg10 (((cfg5.win 1).blk t).view.emb (ix2 k j)) = _
    rw [hW k]
  · show V c main_v61 (((cfg5.win 2).blk t).view.emb (ix2 (0 : Fin 1) j)) = _
    rw [hB]

/-- An index of the result array is in point t's block iff each coordinate is in the block's range on its axis. -/
theorem mem_blk (t : Fin cfg5.N) (i : S100000x16.Idx) :
    i ∈ ((cfg5.win 3).blk t).view.set
      ↔ ∀ a : Fin 2, win5_3.index t a * S5000x16.size a ≤ (i a).val ∧ (i a).val < win5_3.index t a * S5000x16.size a + S5000x16.size a := by
  show i ∈ ((View.whole main_v62).slice (win5_3.rect t)).set ↔ _
  rw [View.set_slice_whole, Rect.mem_set_unit]
  exact Iff.rfl

/-- Every row of the result lies in the tile of point (row / 5000). -/
theorem cover (i : S100000x16.Idx) :
    ∃ t : Fin cfg5.N, (cfg5.win 3).flush t = true ∧ i ∈ ((cfg5.win 3).blk t).view.set := by
  have hi0 : (i 0).val < 100000 := (i 0).isLt
  have hi1 : (i 1).val < 16 := (i 1).isLt
  have hq : (i 0).val / 5000 < 20 := by omega
  refine ⟨⟨(i 0).val / 5000, hq⟩, flush5_3 _, ?_⟩
  rw [mem_blk]
  obtain ⟨-, -, -, -, -, -, e6, e7⟩ := blockAt ⟨(i 0).val / 5000, hq⟩
  intro a
  match a with
  | ⟨0, _⟩ =>
    show win5_3.index ⟨(i 0).val / 5000, hq⟩ (0 : Fin 2) * 5000 ≤ (i 0).val
      ∧ (i 0).val < win5_3.index ⟨(i 0).val / 5000, hq⟩ (0 : Fin 2) * 5000 + 5000
    rw [e6]
    show (i 0).val / 5000 * 5000 ≤ (i 0).val ∧ (i 0).val < (i 0).val / 5000 * 5000 + 5000
    omega
  | ⟨1, _⟩ =>
    show win5_3.index ⟨(i 0).val / 5000, hq⟩ (1 : Fin 2) * 16 ≤ (i 1).val
      ∧ (i 1).val < win5_3.index ⟨(i 0).val / 5000, hq⟩ (1 : Fin 2) * 16 + 16
    rw [e7]
    omega

/-- The result array after the region: the whole-array layer of the three arrays the region found. -/
theorem final (c : Dev nD) :
    (dat5 V c).arrAt 3 cfg5.N = Cert.Layers.lin16a (V c main_arg0) (V c main_arg10) (V c main_v61) :=
  (dat5 V c).arrAt_eq_of_cover 3 _ (fun t _ => flushed_eq V c t) (cover)

end Cert.KernelIdeal.Region5

end
-- ==== Proof.Region6.lean ====
/-
  Pipeline 6 multiplies a tile of 5000 rows by the whole weight matrix and adds the bias row: point t of its 20 grid
  points reads rows 5000 t … 5000 t + 4999 of the left array, all of the weights and the one bias row, and writes the
  same rows of the result. Entry (p, j) of a tile is the sum over k of left (5000 t + p, k) · weights (k, j), plus
  bias (0, j) — the bf16 roundings are the identity on the extended reals — which is entry (5000 t + p, j) of the
  whole-array layer. The 20 tiles cover the result's 100000 rows.
-/
import proofs.«164043_j44212393345739_2_alg».proof.Proof.Gen.KernelIdeal.Frame
import proofs.«164043_j44212393345739_2_alg».proof.Proof.Layers

set_option maxRecDepth 16384

noncomputable section

open scoped BigOperators

namespace Cert.KernelIdeal.Region6

open Cert.KernelIdeal Cert.KernelIdeal.Gen Idealize.ShloMosaic Idealize.ShloMosaic.TcCoe Idealize.ShloMosaic.ValueIdx
open Idealize.ShloMosaic.Pipeline Idealize.SL.Sem

variable (V : (c : Dev nD) → (b : Ref sig .tc) → Buf (Elt Ideal) ((c : Thread nD τ).loc b))

theorem origin : (![0, 0] : Fin 2 → Nat) = fun _ => 0 := funext fun a => by fin_cases a <;> rfl

/-- Where each window's block sits at point t: the row-tiled windows at block (t, 0), the weights and the bias row
    at block (0, 0). -/
theorem blockAt : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- One tile at (p, j): the sum over k of the left tile at (p, k) times the weights at (k, j), plus the bias at j. -/
theorem tile_apply (x : Vec Ideal S5000x64 .f32) (w : Vec Ideal S64x16 .f32) (b : Vec Ideal S1x16 .f32) (p : Fin 5000) (j : Fin 16) :
    k6_pay1 x w b (ix2 p j) = (∑ k : Fin 64, x (ix2 p k) * w (ix2 k j)) + b (ix2 (0 : Fin 1) j) := by
  unfold k6_pay1
  -- the left tile is first recast to its own shape, which changes nothing
  refine (Cert.PlainLayers.dense_bias_apply dot_S5000x64_S64x16_S5000x16_1_0_0_1_n_n rfl none _ _ b _ _ p j).trans ?_
  exact congrArg (fun a : EReal => a + b (ix2 (0 : Fin 1) j)) (Finset.sum_congr rfl fun k _ =>
    congrArg (fun a : EReal => a * w (ix2 k j)) (congrFun (shapeCast_self x shapeCasts_S5000x64_S5000x64) (ix2 p k)))

/-- What point t writes back is rows 5000 t … of the whole-array layer. -/
theorem flushed_eq (c : Dev nD) (t : Fin cfg6.N) :
    (dat6 V c).flushed 3 t
      = ((cfg6.win 3).blk t).view.read (Elt Ideal) (Cert.Layers.lin16b (V c main_v43) (V c main_arg12) (V c main_v63)) := by
  show (cfg6.win 3).cut (grid6.coords t) ((dat6 V c).after 3 t) = _
  rw [after6_3]
  unfold out6_3
  rw [View.canon_unit_zero origin]
  simp only [View.ld_unit_zero (S := S5000x64) origin, View.ld_unit_zero (S := S64x16) origin, View.ld_unit_zero (S := S1x16) origin]
  obtain ⟨e0, e1, e2, e3, e4, e5, e6, e7⟩ := blockAt t
  have ht : t.val < 20 := t.isLt
  funext y
  obtain ⟨p, j, rfl⟩ : ∃ (p : Fin 5000) (j : Fin 16), y = ix2 p j := ⟨y 0, y 1, eq_ix2 y⟩
  have hp : p.val < 5000 := p.isLt
  have hP : t.val * 5000 + p.val < 100000 := by omega
  have hO : ((cfg6.win 3).blk t).view.emb (ix2 p j) = ix2 (⟨t.val * 5000 + p.val, hP⟩ : Fin 100000) j := by
    funext a; apply Fin.ext
    match a with
    | ⟨0, _⟩ => show win6_3.index t (0 : Fin 2) * 5000 + 1 * p.val = t.val * 5000 + p.val; omega
    | ⟨1, _⟩ => show win6_3.index t (1 : Fin 2) * 16 + 1 * j.val = j.val; omega
  have hX : ∀ k : Fin 64, ((cfg6.win 0).blk t).view.emb (ix2 p k) = ix2 (⟨t.val * 5000 + p.val, hP⟩ : Fin 100000) k := by
    intro k; funext a; apply Fin.ext
    match a with
    | ⟨0, _⟩ => show win6_0.index t (0 : Fin 2) * 5000 + 1 * p.val = t.val * 5000 + p.val; omega
    | ⟨1, _⟩ => show win6_0.index t (1 : Fin 2) * 64 + 1 * k.val = k.val; omega
  have hW : ∀ k : Fin 64, ((cfg6.win 1).blk t).view.emb (ix2 k j) = ix2 k j := by
    intro k; funext a; apply Fin.ext
    match a with
    | ⟨0, _⟩ => show win6_1.index t (0 : Fin 2) * 64 + 1 * k.val = k.val; omega
    | ⟨1, _⟩ => show win6_1.index t (1 : Fin 2) * 16 + 1 * j.val = j.val; omega
  have hB : ((cfg6.win 2).blk t).view.emb (ix2 (0 : Fin 1) j) = ix2 (0 : Fin 1) j := by
    funext a; apply Fin.ext
    match a with
    | ⟨0, _⟩ => show win6_2.index t (0 : Fin 2) * 1 + 1 * 0 = 0; omega
    | ⟨1, _⟩ => show win6_2.index t (1 : Fin 2) * 16 + 1 * j.val = j.val; omega
  show k6_pay1 (iblk6 V c 0 t) (iblk6 V c 1 t) (iblk6 V c 2 t) (ix2 p j)
    = Cert.Layers.lin16b (V c main_v43) (V c main_arg12) (V c main_v63) (((cfg6.win 3).blk t).view.emb (ix2 p j))
  rw [hO, Cert.Layers.lin16b_apply]
  refine (tile_apply _ _ _ p j).trans ?_
  refine congrArg₂ (fun a b : EReal => a + b)
    (Finset.sum_congr rfl fun k _ => congrArg₂ (fun a b : EReal => a * b) ?_ ?_) ?_
  · show V c main_v43 (((cfg6.win 0).blk t).view.emb (ix2 p k)) = _
    rw [hX k]
  · show V c main_arg12 (((cfg6.win 1).blk t).view.emb (ix2 k j)) = _
    rw [hW k]
  · show V c main_v63 (((cfg6.win 2).blk t).view.emb (ix2 (0 : Fin 1) j)) = _
    rw [hB]

/-- An index of the result array is in point t's block iff each coordinate is in the block's range on its axis. -/
theorem mem_blk (t : Fin cfg6.N) (i : S100000x16.Idx) :
    i ∈ ((cfg6.win 3).blk t).view.set
      ↔ ∀ a : Fin 2, win6_3.index t a * S5000x16.size a ≤ (i a).val ∧ (i a).val < win6_3.index t a * S5000x16.size a + S5000x16.size a := by
  show i ∈ ((View.whole main_v64).slice (win6_3.rect t)).set ↔ _
  rw [View.set_slice_whole, Rect.mem_set_unit]
  exact Iff.rfl

/-- Every row of the result lies in the tile of point (row / 5000). -/
theorem cover (i : S100000x16.Idx) :
    ∃ t : Fin cfg6.N, (cfg6.win 3).flush t = true ∧ i ∈ ((cfg6.win 3).blk t).view.set := by
  have hi0 : (i 0).val < 100000 := (i 0).isLt
  have hi1 : (i 1).val < 16 := (i 1).isLt
  have hq : (i 0).val / 5000 < 20 := by omega
  refine ⟨⟨(i 0).val / 5000, hq⟩, flush6_3 _, ?_⟩
  rw [mem_blk]
  obtain ⟨-, -, -, -, -, -, e6, e7⟩ := blockAt ⟨(i 0).val / 5000, hq⟩
  intro a
  match a with
  | ⟨0, _⟩ =>
    show win6_3.index ⟨(i 0).val / 5000, hq⟩ (0 : Fin 2) * 5000 ≤ (i 0).val
      ∧ (i 0).val < win6_3.index ⟨(i 0).val / 5000, hq⟩ (0 : Fin 2) * 5000 + 5000
    rw [e6]
    show (i 0).val / 5000 * 5000 ≤ (i 0).val ∧ (i 0).val < (i 0).val / 5000 * 5000 + 5000
    omega
  | ⟨1, _⟩ =>
    show win6_3.index ⟨(i 0).val / 5000, hq⟩ (1 : Fin 2) * 16 ≤ (i 1).val
      ∧ (i 1).val < win6_3.index ⟨(i 0).val / 5000, hq⟩ (1 : Fin 2) * 16 + 16
    rw [e7]
    omega

/-- The result array after the region: the whole-array layer of the three arrays the region found. -/
theorem final (c : Dev nD) :
    (dat6 V c).arrAt 3 cfg6.N = Cert.Layers.lin16b (V c main_v43) (V c main_arg12) (V c main_v63) :=
  (dat6 V c).arrAt_eq_of_cover 3 _ (fun t _ => flushed_eq V c t) (cover)

end Cert.KernelIdeal.Region6

end
-- ==== Proof.Region7.lean ====
/-
  Pipeline 7 multiplies a tile of 5000 rows by the whole weight matrix: point t of its 20 grid points reads rows
  5000 t … 5000 t + 4999 of the left array and all of the right one, and writes the same rows of the result. Entry (p, j)
  of a tile is the sum over k of left (5000 t + p, k) · right (k, j) — the bf16 roundings are the identity on the extended
  reals — which is entry (5000 t + p, j) of the whole product. The 20 tiles cover the result's 100000 rows, so the
  result array ends holding the whole product of the two arrays the region found.
-/
import proofs.«164043_j44212393345739_2_alg».proof.Proof.Gen.KernelIdeal.Frame
import proofs.«164043_j44212393345739_2_alg».proof.Proof.Layers

set_option maxRecDepth 16384

noncomputable section

open scoped BigOperators

namespace Cert.KernelIdeal.Region7

open Cert.KernelIdeal Cert.KernelIdeal.Gen Idealize.ShloMosaic Idealize.ShloMosaic.TcCoe Idealize.ShloMosaic.ValueIdx
open Idealize.ShloMosaic.Pipeline Idealize.SL.Sem

variable (V : (c : Dev nD) → (b : Ref sig .tc) → Buf (Elt Ideal) ((c : Thread nD τ).loc b))

theorem origin : (![0, 0] : Fin 2 → Nat) = fun _ => 0 := funext fun a => by fin_cases a <;> rfl

/-- Where each window's block sits at point t: the row-tiled windows at block (t, 0), the weights at block (0, 0). -/
theorem blockAt : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 :=
  (by decide +kernel : ∀ t : Fin grid7.N, _)

/-- One tile of the product at (p, j): the sum over k of the left tile at (p, k) times the weights at (k, j). -/
theorem tile_apply (x : Vec Ideal S5000x32 .f32) (w : Vec Ideal S32x16 .f32) (p : Fin 5000) (j : Fin 16) :
    k7_pay1 x w (ix2 p j) = ∑ k : Fin 32, x (ix2 p k) * w (ix2 k j) := by
  unfold k7_pay1
  -- the left tile is first recast to its own shape, which changes nothing
  refine (Cert.PlainLayers.plainMM_of_eq dot_S5000x32_S32x16_S5000x16_1_0_0_1_n_n rfl none _ _ p j).trans ?_
  exact Finset.sum_congr rfl fun k _ =>
    congrArg (fun a : EReal => a * w (ix2 k j)) (congrFun (shapeCast_self x shapeCasts_S5000x32_S5000x32) (ix2 p k))

/-- What point t writes back is rows 5000 t … of the whole product. -/
theorem flushed_eq (c : Dev nD) (t : Fin cfg7.N) :
    (dat7 V c).flushed 2 t
      = ((cfg7.win 2).blk t).view.read (Elt Ideal) (Cert.Layers.mm16 (V c main_v60) (V c main_arg6)) := by
  show (cfg7.win 2).cut (grid7.coords t) ((dat7 V c).after 2 t) = _
  rw [after7_2]
  unfold out7_2
  rw [View.canon_unit_zero origin]
  simp only [View.ld_unit_zero (S := S5000x32) origin, View.ld_unit_zero (S := S32x16) origin]
  obtain ⟨e0, e1, e2, e3, e4, e5⟩ := blockAt t
  have ht : t.val < 20 := t.isLt
  funext y
  obtain ⟨p, j, rfl⟩ : ∃ (p : Fin 5000) (j : Fin 16), y = ix2 p j := ⟨y 0, y 1, eq_ix2 y⟩
  have hp : p.val < 5000 := p.isLt
  have hP : t.val * 5000 + p.val < 100000 := by omega
  have hO : ((cfg7.win 2).blk t).view.emb (ix2 p j) = ix2 (⟨t.val * 5000 + p.val, hP⟩ : Fin 100000) j := by
    funext a; apply Fin.ext
    match a with
    | ⟨0, _⟩ => show win7_2.index t (0 : Fin 2) * 5000 + 1 * p.val = t.val * 5000 + p.val; omega
    | ⟨1, _⟩ => show win7_2.index t (1 : Fin 2) * 16 + 1 * j.val = j.val; omega
  have hX : ∀ k : Fin 32, ((cfg7.win 0).blk t).view.emb (ix2 p k) = ix2 (⟨t.val * 5000 + p.val, hP⟩ : Fin 100000) k := by
    intro k; funext a; apply Fin.ext
    match a with
    | ⟨0, _⟩ => show win7_0.index t (0 : Fin 2) * 5000 + 1 * p.val = t.val * 5000 + p.val; omega
    | ⟨1, _⟩ => show win7_0.index t (1 : Fin 2) * 32 + 1 * k.val = k.val; omega
  have hW : ∀ k : Fin 32, ((cfg7.win 1).blk t).view.emb (ix2 k j) = ix2 k j := by
    intro k; funext a; apply Fin.ext
    match a with
    | ⟨0, _⟩ => show win7_1.index t (0 : Fin 2) * 32 + 1 * k.val = k.val; omega
    | ⟨1, _⟩ => show win7_1.index t (1 : Fin 2) * 16 + 1 * j.val = j.val; omega
  show k7_pay1 (iblk7 V c 0 t) (iblk7 V c 1 t) (ix2 p j)
    = Cert.Layers.mm16 (V c main_v60) (V c main_arg6) (((cfg7.win 2).blk t).view.emb (ix2 p j))
  rw [hO, Cert.Layers.mm16_apply]
  refine (tile_apply _ _ p j).trans ?_
  refine Finset.sum_congr rfl fun k _ => congrArg₂ (fun a b : EReal => a * b) ?_ ?_
  · show V c main_v60 (((cfg7.win 0).blk t).view.emb (ix2 p k)) = _
    rw [hX k]
  · show V c main_arg6 (((cfg7.win 1).blk t).view.emb (ix2 k j)) = _
    rw [hW k]

/-- An index of the result array is in point t's block iff each coordinate is in the block's range on its axis. -/
theorem mem_blk (t : Fin cfg7.N) (i : S100000x16.Idx) :
    i ∈ ((cfg7.win 2).blk t).view.set
      ↔ ∀ a : Fin 2, win7_2.index t a * S5000x16.size a ≤ (i a).val ∧ (i a).val < win7_2.index t a * S5000x16.size a + S5000x16.size a := by
  show i ∈ ((View.whole main_v65).slice (win7_2.rect t)).set ↔ _
  rw [View.set_slice_whole, Rect.mem_set_unit]
  exact Iff.rfl

/-- Every row of the result lies in the tile of point (row / 5000). -/
theorem cover (i : S100000x16.Idx) :
    ∃ t : Fin cfg7.N, (cfg7.win 2).flush t = true ∧ i ∈ ((cfg7.win 2).blk t).view.set := by
  have hi0 : (i 0).val < 100000 := (i 0).isLt
  have hi1 : (i 1).val < 16 := (i 1).isLt
  have hq : (i 0).val / 5000 < 20 := by omega
  refine ⟨⟨(i 0).val / 5000, hq⟩, flush7_2 _, ?_⟩
  rw [mem_blk]
  obtain ⟨-, -, -, -, e4, e5⟩ := blockAt ⟨(i 0).val / 5000, hq⟩
  intro a
  match a with
  | ⟨0, _⟩ =>
    show win7_2.index ⟨(i 0).val / 5000, hq⟩ (0 : Fin 2) * 5000 ≤ (i 0).val
      ∧ (i 0).val < win7_2.index ⟨(i 0).val / 5000, hq⟩ (0 : Fin 2) * 5000 + 5000
    rw [e4]
    show (i 0).val / 5000 * 5000 ≤ (i 0).val ∧ (i 0).val < (i 0).val / 5000 * 5000 + 5000
    omega
  | ⟨1, _⟩ =>
    show win7_2.index ⟨(i 0).val / 5000, hq⟩ (1 : Fin 2) * 16 ≤ (i 1).val
      ∧ (i 1).val < win7_2.index ⟨(i 0).val / 5000, hq⟩ (1 : Fin 2) * 16 + 16
    rw [e5]
    omega

/-- The result array after the region: the whole product of the two arrays the region found. -/
theorem final (c : Dev nD) :
    (dat7 V c).arrAt 2 cfg7.N = Cert.Layers.mm16 (V c main_v60) (V c main_arg6) :=
  (dat7 V c).arrAt_eq_of_cover 2 _ (fun t _ => flushed_eq V c t) (cover)

end Cert.KernelIdeal.Region7

end
-- ==== Proof.Region8.lean ====
/-
  Pipeline 8 finishes the third graph-convolution layer on tiles of 5000 nodes: point t of its 20 grid points reads
  rows 5000 t … 5000 t + 4999 of the transformed features h, of the neighbours' sum agg, of the self-loop column d and of
  the two skip inputs s and u, and the one bias row, and writes the same rows of the result: entry (p, j) of a tile is
  max (agg (5000 t + p, j) + d (5000 t + p) · h (5000 t + p, j) + b j) 0 + s (5000 t + p, j) + u (5000 t + p, j), the two
  skips added in that order, which is entry (5000 t + p, j) of the whole-array layer. The 20 tiles cover the 100000 nodes.
-/
import proofs.«164043_j44212393345739_2_alg».proof.Proof.Gen.KernelIdeal.Frame
import proofs.«164043_j44212393345739_2_alg».proof.Proof.Layers

set_option maxRecDepth 16384

noncomputable section

open scoped BigOperators

namespace Cert.KernelIdeal.Region8

open Cert.KernelIdeal Cert.KernelIdeal.Gen Idealize.ShloMosaic Idealize.ShloMosaic.TcCoe Idealize.ShloMosaic.ValueIdx
open Idealize.ShloMosaic.Pipeline Idealize.SL.Sem

variable (V : (c : Dev nD) → (b : Ref sig .tc) → Buf (Elt Ideal) ((c : Thread nD τ).loc b))

theorem origin : (![0, 0] : Fin 2 → Nat) = fun _ => 0 := funext fun a => by fin_cases a <;> rfl

/-- Where each window's block sits at point t: the node-tiled windows at block (t, 0), the bias row at block (0, 0). -/
theorem blockAt : ∀ t : Fin cfg8.N,
    win8_0.index t (0 : Fin 2) = t.val ∧ win8_0.index t (1 : Fin 2) = 0
    ∧ win8_1.index t (0 : Fin 2) = t.val ∧ win8_1.index t (1 : Fin 2) = 0
    ∧ win8_2.index t (0 : Fin 2) = t.val ∧ win8_2.index t (1 : Fin 2) = 0
    ∧ win8_3.index t (0 : Fin 2) = 0 ∧ win8_3.index t (1 : Fin 2) = 0
    ∧ win8_4.index t (0 : Fin 2) = t.val ∧ win8_4.index t (1 : Fin 2) = 0
    ∧ win8_5.index t (0 : Fin 2) = t.val ∧ win8_5.index t (1 : Fin 2) = 0
    ∧ win8_6.index t (0 : Fin 2) = t.val ∧ win8_6.index t (1 : Fin 2) = 0 :=
  (by decide +kernel : ∀ t : Fin grid8.N, _)

/-- One tile at (p, j): the layer's value cut at zero, plus the first skip input, plus the second. -/
theorem tile_apply (agg : Vec Ideal S5000x16 .f32) (d : Vec Ideal S5000x1 .f32) (h : Vec Ideal S5000x16 .f32) (b : Vec Ideal S1x16 .f32)
    (s u : Vec Ideal S5000x16 .f32) (p : Fin 5000) (j : Fin 16) :
    k8_pay1 agg d h b s u (ix2 p j)
      = max ((agg (ix2 p j) + d (ix2 p (0 : Fin 1)) * h (ix2 p j)) + b (ix2 (0 : Fin 1) j)) 0 + s (ix2 p j) + u (ix2 p j) := by
  unfold k8_pay1
  exact congrArg₂ (fun a b : EReal => a + b)
    (congrArg₂ (fun a b : EReal => a + b) (Cert.GraphConv.bodyConv_apply _ _ _ _ _ h agg d b p j)
      (congrFun (shapeCast_self s shapeCasts_S5000x16_S5000x16) (ix2 p j)))
    (congrFun (shapeCast_self u shapeCasts_S5000x16_S5000x16) (ix2 p j))

set_option maxHeartbeats 1600000 in  -- seven windows' index arithmetic in one statement
/-- What point t writes back is rows 5000 t … of the whole-array layer. -/
theorem flushed_eq (c : Dev nD) (t : Fin cfg8.N) :
    (dat8 V c).flushed 6 t
      = ((cfg8.win 6).blk t).view.read (Elt Ideal)
          (Cert.Layers.conv16 (V c main_v65) (V c main_v77) (V c main_v12) (V c main_v78) (V c main_v62) (V c main_v64)) := by
  show (cfg8.win 6).cut (grid8.coords t) ((dat8 V c).after 6 t) = _
  rw [after8_6]
  unfold out8_6
  rw [View.canon_unit_zero origin]
  simp only [View.ld_unit_zero (S := S5000x16) origin, View.ld_unit_zero (S := S5000x1) origin, View.ld_unit_zero (S := S1x16) origin]
  obtain ⟨e0, e1, e2, e3, e4, e5, e6, e7, e8, e9, e10, e11, e12, e13⟩ := blockAt t
  have ht : t.val < 20 := t.isLt
  funext y
  obtain ⟨p, j, rfl⟩ : ∃ (p : Fin 5000) (j : Fin 16), y = ix2 p j := ⟨y 0, y 1, eq_ix2 y⟩
  have hp : p.val < 5000 := p.isLt
  have hP : t.val * 5000 + p.val < 100000 := by omega
  have hO : ((cfg8.win 6).blk t).view.emb (ix2 p j) = ix2 (⟨t.val * 5000 + p.val, hP⟩ : Fin 100000) j := by
    funext a; apply Fin.ext
    match a with
    | ⟨0, _⟩ => show win8_6.index t (0 : Fin 2) * 5000 + 1 * p.val = t.val * 5000 + p.val; omega
    | ⟨1, _⟩ => show win8_6.index t (1 : Fin 2) * 16 + 1 * j.val = j.val; omega
  have hH : ((cfg8.win 0).blk t).view.emb (ix2 p j) = ix2 (⟨t.val * 5000 + p.val, hP⟩ : Fin 100000) j := by
    funext a; apply Fin.ext
    match a with
    | ⟨0, _⟩ => show win8_0.index t (0 : Fin 2) * 5000 + 1 * p.val = t.val * 5000 + p.val; omega
    | ⟨1, _⟩ => show win8_0.index t (1 : Fin 2) * 16 + 1 * j.val = j.val; omega
  have hA : ((cfg8.win 1).blk t).view.emb (ix2 p j) = ix2 (⟨t.val * 5000 + p.val, hP⟩ : Fin 100000) j := by
    funext a; apply Fin.ext
    match a with
    | ⟨0, _⟩ => show win8_1.index t (0 : Fin 2) * 5000 + 1 * p.val = t.val * 5000 + p.val; omega
    | ⟨1, _⟩ => show win8_1.index t (1 : Fin 2) * 16 + 1 * j.val = j.val; omega
  have hD : ((cfg8.win 2).blk t).view.emb (ix2 p (0 : Fin 1)) = ix2 (⟨t.val * 5000 + p.val, hP⟩ : Fin 100000) (0 : Fin 1) := by
    funext a; apply Fin.ext
    match a with
    | ⟨0, _⟩ => show win8_2.index t (0 : Fin 2) * 5000 + 1 * p.val = t.val * 5000 + p.val; omega
    | ⟨1, _⟩ => show win8_2.index t (1 : Fin 2) * 1 + 1 * 0 = 0; omega
  have hB : ((cfg8.win 3).blk t).view.emb (ix2 (0 : Fin 1) j) = ix2 (0 : Fin 1) j := by
    funext a; apply Fin.ext
    match a with
    | ⟨0, _⟩ => show win8_3.index t (0 : Fin 2) * 1 + 1 * 0 = 0; omega
    | ⟨1, _⟩ => show win8_3.index t (1 : Fin 2) * 16 + 1 * j.val = j.val; omega
  have hS : ((cfg8.win 4).blk t).view.emb (ix2 p j) = ix2 (⟨t.val * 5000 + p.val, hP⟩ : Fin 100000) j := by
    funext a; apply Fin.ext
    match a with
    | ⟨0, _⟩ => show win8_4.index t (0 : Fin 2) * 5000 + 1 * p.val = t.val * 5000 + p.val; omega
    | ⟨1, _⟩ => show win8_4.index t (1 : Fin 2) * 16 + 1 * j.val = j.val; omega
  have hU : ((cfg8.win 5).blk t).view.emb (ix2 p j) = ix2 (⟨t.val * 5000 + p.val, hP⟩ : Fin 100000) j := by
    funext a; apply Fin.ext
    match a with
    | ⟨0, _⟩ => show win8_5.index t (0 : Fin 2) * 5000 + 1 * p.val = t.val * 5000 + p.val; omega
    | ⟨1, _⟩ => show win8_5.index t (1 : Fin 2) * 16 + 1 * j.val = j.val; omega
  show k8_pay1 (iblk8 V c 1 t) (iblk8 V c 2 t) (iblk8 V c 0 t) (iblk8 V c 3 t) (iblk8 V c 4 t) (iblk8 V c 5 t) (ix2 p j)
    = Cert.Layers.conv16 (V c main_v65) (V c main_v77) (V c main_v12) (V c main_v78) (V c main_v62) (V c main_v64)
        (((cfg8.win 6).blk t).view.emb (ix2 p j))
  rw [hO, Cert.Layers.conv16_apply]
  refine (tile_apply _ _ _ _ _ _ p j).trans ?_
  refine congrArg₂ (fun a b : EReal => a + b) (congrArg₂ (fun a b : EReal => a + b)
    (congrArg (fun a : EReal => max a 0) (congrArg₂ (fun a b : EReal => a + b)
      (congrArg₂ (fun a b : EReal => a + b) ?_ (congrArg₂ (fun a b : EReal => a * b) ?_ ?_)) ?_)) ?_) ?_
  · show V c main_v77 (((cfg8.win 1).blk t).view.emb (ix2 p j)) = _
    rw [hA]
  · show V c main_v12 (((cfg8.win 2).blk t).view.emb (ix2 p (0 : Fin 1))) = _
    rw [hD]
  · show V c main_v65 (((cfg8.win 0).blk t).view.emb (ix2 p j)) = _
    rw [hH]
  · show V c main_v78 (((cfg8.win 3).blk t).view.emb (ix2 (0 : Fin 1) j)) = _
    rw [hB]
  · show V c main_v62 (((cfg8.win 4).blk t).view.emb (ix2 p j)) = _
    rw [hS]
  · show V c main_v64 (((cfg8.win 5).blk t).view.emb (ix2 p j)) = _
    rw [hU]

/-- An index of the result array is in point t's block iff each coordinate is in the block's range on its axis. -/
theorem mem_blk (t : Fin cfg8.N) (i : S100000x16.Idx) :
    i ∈ ((cfg8.win 6).blk t).view.set
      ↔ ∀ a : Fin 2, win8_6.index t a * S5000x16.size a ≤ (i a).val ∧ (i a).val < win8_6.index t a * S5000x16.size a + S5000x16.size a := by
  show i ∈ ((View.whole main_v79).slice (win8_6.rect t)).set ↔ _
  rw [View.set_slice_whole, Rect.mem_set_unit]
  exact Iff.rfl

/-- Every node's row lies in the tile of point (row / 5000). -/
theorem cover (i : S100000x16.Idx) :
    ∃ t : Fin cfg8.N, (cfg8.win 6).flush t = true ∧ i ∈ ((cfg8.win 6).blk t).view.set := by
  have hi0 : (i 0).val < 100000 := (i 0).isLt
  have hi1 : (i 1).val < 16 := (i 1).isLt
  have hq : (i 0).val / 5000 < 20 := by omega
  refine ⟨⟨(i 0).val / 5000, hq⟩, flush8_6 _, ?_⟩
  rw [mem_blk]
  obtain ⟨-, -, -, -, -, -, -, -, -, -, -, -, e12, e13⟩ := blockAt ⟨(i 0).val / 5000, hq⟩
  intro a
  match a with
  | ⟨0, _⟩ =>
    show win8_6.index ⟨(i 0).val / 5000, hq⟩ (0 : Fin 2) * 5000 ≤ (i 0).val
      ∧ (i 0).val < win8_6.index ⟨(i 0).val / 5000, hq⟩ (0 : Fin 2) * 5000 + 5000
    rw [e12]
    show (i 0).val / 5000 * 5000 ≤ (i 0).val ∧ (i 0).val < (i 0).val / 5000 * 5000 + 5000
    omega
  | ⟨1, _⟩ =>
    show win8_6.index ⟨(i 0).val / 5000, hq⟩ (1 : Fin 2) * 16 ≤ (i 1).val
      ∧ (i 1).val < win8_6.index ⟨(i 0).val / 5000, hq⟩ (1 : Fin 2) * 16 + 16
    rw [e13]
    omega

/-- The result array after the region: the whole-array layer of the six arrays the region found. -/
theorem final (c : Dev nD) :
    (dat8 V c).arrAt 6 cfg8.N
      = Cert.Layers.conv16 (V c main_v65) (V c main_v77) (V c main_v12) (V c main_v78) (V c main_v62) (V c main_v64) :=
  (dat8 V c).arrAt_eq_of_cover 6 _ (fun t _ => flushed_eq V c t) (cover)

end Cert.KernelIdeal.Region8

end
-- ==== Proof.Fold.lean ====
/-
  What @main's output buffer holds at the last boundary.

  The buffer contents at the sixteen boundaries of @main are a fold from the launch memory. Walking the fold in program
  order, each buffer that a later segment reads is identified, at the boundary where it is read, with a stage of the
  reference program applied to the launch contents a₀ … a₁₃ of the fourteen argument arrays:

    * a host stretch computes its results by the very operations the reference applies, so once its operands are
      rewritten to reference stages its result is the next stage by unfolding — except that the kernel recasts a vector
      as a one-column (or one-row) matrix where the reference lays it along that axis, which is the same array;
    * a region leaves in its output array one whole layer (a product, a product plus bias, or a graph-convolution
      layer) of the arrays it found, and each reference stage of that kind is that layer of earlier stages;
    * between the boundary where a buffer is written and the one where it is read no segment writes it.

  The kernel computes the edge weights and the self-loop column once and reuses them in all three layers, where the
  reference recomputes them per layer by the same operations: those stages are equal by unfolding.
-/
import proofs.«164043_j44212393345739_2_alg».proof.Proof.FoldSteps
import proofs.«164043_j44212393345739_2_alg».proof.Proof.Gen.ReferenceIdeal.Read
import proofs.«164043_j44212393345739_2_alg».proof.Proof.Layers
import proofs.«164043_j44212393345739_2_alg».proof.Proof.Region0
import proofs.«164043_j44212393345739_2_alg».proof.Proof.Region1
import proofs.«164043_j44212393345739_2_alg».proof.Proof.Region2
import proofs.«164043_j44212393345739_2_alg».proof.Proof.Region3
import proofs.«164043_j44212393345739_2_alg».proof.Proof.Region4
import proofs.«164043_j44212393345739_2_alg».proof.Proof.Region5
import proofs.«164043_j44212393345739_2_alg».proof.Proof.Region6
import proofs.«164043_j44212393345739_2_alg».proof.Proof.Region7
import proofs.«164043_j44212393345739_2_alg».proof.Proof.Region8

set_option maxRecDepth 16384

noncomputable section

namespace Cert.KernelIdeal.Whole

open Cert.KernelIdeal.Gen
open Idealize.ShloMosaic Idealize.ShloMosaic.TcCoe Idealize.SL.Sem

variable (m : (ℓ : Loc nD τ sig) → Buf (Elt Ideal) ℓ) (ρ : Dev nD → PrngReg)

/-! ## The reference recomputes per layer what the kernel computes once -/

/-- The edge weights of the second layer are those of the first: the same operations on the same edge list. -/
theorem weights2 (x1 : (⟨Cert.ReferenceIdeal.S2x3200000, .i32⟩ : BufTy).Contents (Elt Ideal)) :
    Cert.ReferenceIdeal.Read.val_main_v27 (F := Ideal) x1 = Cert.ReferenceIdeal.Read.val_main_v65 (F := Ideal) x1 := rfl
/-- And those of the third. -/
theorem weights3 (x1 : (⟨Cert.ReferenceIdeal.S2x3200000, .i32⟩ : BufTy).Contents (Elt Ideal)) :
    Cert.ReferenceIdeal.Read.val_main_v27 (F := Ideal) x1 = Cert.ReferenceIdeal.Read.val_main_v108 (F := Ideal) x1 := rfl
/-- The self-loop column of the second layer is that of the first. -/
theorem selfloop2 (x1 : (⟨Cert.ReferenceIdeal.S2x3200000, .i32⟩ : BufTy).Contents (Elt Ideal)) :
    Cert.ReferenceIdeal.Read.val_main_v41 (F := Ideal) x1 = Cert.ReferenceIdeal.Read.val_main_v79 (F := Ideal) x1 := rfl
/-- And that of the third. -/
theorem selfloop3 (x1 : (⟨Cert.ReferenceIdeal.S2x3200000, .i32⟩ : BufTy).Contents (Elt Ideal)) :
    Cert.ReferenceIdeal.Read.val_main_v41 (F := Ideal) x1 = Cert.ReferenceIdeal.Read.val_main_v122 (F := Ideal) x1 := rfl

/-! ## Boundary 1: after the first host stretch -/

theorem at1_arg0 (c : Dev nD) : W1 m ρ c (Proc.devRef .tc main_arg0) = (m ((c.tc : Thread nD τ).loc main_arg0)) :=
  keep m ρ c main_arg0 0 1 (by decide) (by decide)

theorem at1_arg2 (c : Dev nD) : W1 m ρ c (Proc.devRef .tc main_arg2) = (m ((c.tc : Thread nD τ).loc main_arg2)) :=
  keep m ρ c main_arg2 0 1 (by decide) (by decide)

theorem at1_v1 (c : Dev nD) : W1 m ρ c (Proc.devRef .tc main_v1) = Cert.ReferenceIdeal.Read.val_main_v1 (F := Ideal) (m ((c.tc : Thread nD τ).loc main_arg1)) := by
  unfold W1 hostOps0
  after_results_simp
  rfl
theorem at1_v3 (c : Dev nD) : W1 m ρ c (Proc.devRef .tc main_v3) = Cert.ReferenceIdeal.Read.val_main_v3 (F := Ideal) (m ((c.tc : Thread nD τ).loc main_arg1)) := by
  unfold W1 hostOps0
  after_results_simp
  rfl
set_option maxHeartbeats 1000000 in
theorem at1_v12 (c : Dev nD) : W1 m ρ c (Proc.devRef .tc main_v12) = Cert.ReferenceIdeal.Read.val_main_v41 (F := Ideal) (m ((c.tc : Thread nD τ).loc main_arg1)) := by
  unfold W1 hostOps0
  after_results_simp
  refine (shapeCast_col _ _ Cert.ReferenceIdeal.Gen.bcast_S100000_S100000x1_0).trans ?_
  rfl
set_option maxHeartbeats 2000000 in
theorem at1_v28 (c : Dev nD) : W1 m ρ c (Proc.devRef .tc main_v28) = Cert.ReferenceIdeal.Read.val_main_v27 (F := Ideal) (m ((c.tc : Thread nD τ).loc main_arg1)) := by
  unfold W1 hostOps0
  after_results_simp
  refine (shapeCast_col _ _ Cert.ReferenceIdeal.Gen.bcast_S3200000_S3200000x1_0).trans ?_
  rfl

/-! ## Boundary 2: region 0 has multiplied the features by the first weights -/

theorem at2_v29 (c : Dev nD) : W2 m ρ c (Proc.devRef .tc main_v29) = Cert.ReferenceIdeal.Read.val_main_v11 (F := Ideal) (m ((c.tc : Thread nD τ).loc main_arg0)) (m ((c.tc : Thread nD τ).loc main_arg2)) := by
  refine (W2_arr m ρ c 2).trans ((Cert.KernelIdeal.Region0.final (V1 m ρ) c).trans ?_)
  show Cert.Layers.mm64 (W1 m ρ c (Proc.devRef .tc main_arg0)) (W1 m ρ c (Proc.devRef .tc main_arg2)) = _
  rw [at1_arg0 m ρ c, at1_arg2 m ρ c]
  exact (Cert.Layers.v11_eq _ _).symm

theorem at2_v1 (c : Dev nD) : W2 m ρ c (Proc.devRef .tc main_v1) = Cert.ReferenceIdeal.Read.val_main_v1 (F := Ideal) (m ((c.tc : Thread nD τ).loc main_arg1)) :=
  (keep m ρ c main_v1 1 1 (by decide) (by decide)).trans (at1_v1 m ρ c)

theorem at2_v3 (c : Dev nD) : W2 m ρ c (Proc.devRef .tc main_v3) = Cert.ReferenceIdeal.Read.val_main_v3 (F := Ideal) (m ((c.tc : Thread nD τ).loc main_arg1)) :=
  (keep m ρ c main_v3 1 1 (by decide) (by decide)).trans (at1_v3 m ρ c)

theorem at2_v28 (c : Dev nD) : W2 m ρ c (Proc.devRef .tc main_v28) = Cert.ReferenceIdeal.Read.val_main_v27 (F := Ideal) (m ((c.tc : Thread nD τ).loc main_arg1)) :=
  (keep m ρ c main_v28 1 1 (by decide) (by decide)).trans (at1_v28 m ρ c)

theorem at2_arg3 (c : Dev nD) : W2 m ρ c (Proc.devRef .tc main_arg3) = (m ((c.tc : Thread nD τ).loc main_arg3)) :=
  keep m ρ c main_arg3 0 2 (by decide) (by decide)

/-! ## Boundary 3: the neighbours' sums of the first layer, and its bias as a row -/

set_option maxHeartbeats 1000000 in
theorem at3_v41 (c : Dev nD) : W3 m ρ c (Proc.devRef .tc main_v41) = Cert.ReferenceIdeal.Read.val_main_v39 (F := Ideal) (m ((c.tc : Thread nD τ).loc main_arg0)) (m ((c.tc : Thread nD τ).loc main_arg1)) (m ((c.tc : Thread nD τ).loc main_arg2)) := by
  unfold W3 hostOps1
  after_results_simp
  rw [at2_v1 m ρ c, at2_v3 m ρ c, at2_v28 m ρ c, at2_v29 m ρ c]
  rfl

theorem at3_v42 (c : Dev nD) : W3 m ρ c (Proc.devRef .tc main_v42) = Cert.ReferenceIdeal.Read.val_main_v45 (F := Ideal) (m ((c.tc : Thread nD τ).loc main_arg3)) := by
  unfold W3 hostOps1
  after_results_simp
  refine (shapeCast_row _ _ Cert.ReferenceIdeal.Gen.bcast_S64_S1x64_1).trans ?_
  rw [at2_arg3 m ρ c]
  rfl

theorem at3_v29 (c : Dev nD) : W3 m ρ c (Proc.devRef .tc main_v29) = Cert.ReferenceIdeal.Read.val_main_v11 (F := Ideal) (m ((c.tc : Thread nD τ).loc main_arg0)) (m ((c.tc : Thread nD τ).loc main_arg2)) :=
  (keep m ρ c main_v29 2 1 (by decide) (by decide)).trans (at2_v29 m ρ c)

theorem at3_v12 (c : Dev nD) : W3 m ρ c (Proc.devRef .tc main_v12) = Cert.ReferenceIdeal.Read.val_main_v41 (F := Ideal) (m ((c.tc : Thread nD τ).loc main_arg1)) :=
  (keep m ρ c main_v12 1 2 (by decide) (by decide)).trans (at1_v12 m ρ c)

/-! ## Boundary 4: region 1 has closed the first layer -/

theorem at4_v43 (c : Dev nD) : W4 m ρ c (Proc.devRef .tc main_v43) = Cert.ReferenceIdeal.Read.val_main_v48 (F := Ideal) (m ((c.tc : Thread nD τ).loc main_arg0)) (m ((c.tc : Thread nD τ).loc main_arg1)) (m ((c.tc : Thread nD τ).loc main_arg2)) (m ((c.tc : Thread nD τ).loc main_arg3)) := by
  refine (W4_arr m ρ c 4).trans ((Cert.KernelIdeal.Region1.final (V3 m ρ) c).trans ?_)
  show Cert.Layers.conv64 (W3 m ρ c (Proc.devRef .tc main_v29)) (W3 m ρ c (Proc.devRef .tc main_v41)) (W3 m ρ c (Proc.devRef .tc main_v12)) (W3 m ρ c (Proc.devRef .tc main_v42)) = _
  rw [at3_v29 m ρ c, at3_v41 m ρ c, at3_v12 m ρ c, at3_v42 m ρ c]
  exact (Cert.Layers.v48_eq _ _ _ _).symm

theorem at4_arg9 (c : Dev nD) : W4 m ρ c (Proc.devRef .tc main_arg9) = (m ((c.tc : Thread nD τ).loc main_arg9)) :=
  keep m ρ c main_arg9 0 4 (by decide) (by decide)

/-! ## Boundaries 5 and 6: the first skip branch -/

theorem at5_v44 (c : Dev nD) : W5 m ρ c (Proc.devRef .tc main_v44) = Cert.ReferenceIdeal.Read.val_main_v88 (F := Ideal) (m ((c.tc : Thread nD τ).loc main_arg9)) := by
  unfold W5 hostOps2
  after_results_simp
  refine (shapeCast_row _ _ Cert.ReferenceIdeal.Gen.bcast_S32_S1x32_1).trans ?_
  rw [at4_arg9 m ρ c]
  rfl

theorem at5_arg0 (c : Dev nD) : W5 m ρ c (Proc.devRef .tc main_arg0) = (m ((c.tc : Thread nD τ).loc main_arg0)) :=
  keep m ρ c main_arg0 0 5 (by decide) (by decide)

theorem at5_arg8 (c : Dev nD) : W5 m ρ c (Proc.devRef .tc main_arg8) = (m ((c.tc : Thread nD τ).loc main_arg8)) :=
  keep m ρ c main_arg8 0 5 (by decide) (by decide)

theorem at6_v45 (c : Dev nD) : W6 m ρ c (Proc.devRef .tc main_v45) = Cert.ReferenceIdeal.Read.val_main_v90 (F := Ideal) (m ((c.tc : Thread nD τ).loc main_arg0)) (m ((c.tc : Thread nD τ).loc main_arg8)) (m ((c.tc : Thread nD τ).loc main_arg9)) := by
  refine (W6_arr m ρ c 3).trans ((Cert.KernelIdeal.Region2.final (V5 m ρ) c).trans ?_)
  show Cert.Layers.lin32 (W5 m ρ c (Proc.devRef .tc main_arg0)) (W5 m ρ c (Proc.devRef .tc main_arg8)) (W5 m ρ c (Proc.devRef .tc main_v44)) = _
  rw [at5_arg0 m ρ c, at5_arg8 m ρ c, at5_v44 m ρ c]
  exact (Cert.Layers.v90_eq _ _ _).symm

theorem at6_v43 (c : Dev nD) : W6 m ρ c (Proc.devRef .tc main_v43) = Cert.ReferenceIdeal.Read.val_main_v48 (F := Ideal) (m ((c.tc : Thread nD τ).loc main_arg0)) (m ((c.tc : Thread nD τ).loc main_arg1)) (m ((c.tc : Thread nD τ).loc main_arg2)) (m ((c.tc : Thread nD τ).loc main_arg3)) :=
  (keep m ρ c main_v43 4 2 (by decide) (by decide)).trans (at4_v43 m ρ c)

theorem at6_arg4 (c : Dev nD) : W6 m ρ c (Proc.devRef .tc main_arg4) = (m ((c.tc : Thread nD τ).loc main_arg4)) :=
  keep m ρ c main_arg4 0 6 (by decide) (by decide)

/-! ## Boundary 7: region 3 has multiplied by the second weights -/

theorem at7_v46 (c : Dev nD) : W7 m ρ c (Proc.devRef .tc main_v46) = Cert.ReferenceIdeal.Read.val_main_v49 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (W7_arr m ρ c 2).trans ((Cert.KernelIdeal.Region3.final (V6 m ρ) c).trans ?_)
  show Cert.Layers.mm32 (W6 m ρ c (Proc.devRef .tc main_v43)) (W6 m ρ c (Proc.devRef .tc main_arg4)) = _
  rw [at6_v43 m ρ c, at6_arg4 m ρ c]
  exact (Cert.Layers.v49_eq _ _ _ _ _).symm

theorem at7_v1 (c : Dev nD) : W7 m ρ c (Proc.devRef .tc main_v1) = Cert.ReferenceIdeal.Read.val_main_v1 (F := Ideal) (m ((c.tc : Thread nD τ).loc main_arg1)) :=
  (keep m ρ c main_v1 1 6 (by decide) (by decide)).trans (at1_v1 m ρ c)

theorem at7_v3 (c : Dev nD) : W7 m ρ c (Proc.devRef .tc main_v3) = Cert.ReferenceIdeal.Read.val_main_v3 (F := Ideal) (m ((c.tc : Thread nD τ).loc main_arg1)) :=
  (keep m ρ c main_v3 1 6 (by decide) (by decide)).trans (at1_v3 m ρ c)

theorem at7_v28 (c : Dev nD) : W7 m ρ c (Proc.devRef .tc main_v28) = Cert.ReferenceIdeal.Read.val_main_v65 (F := Ideal) (m ((c.tc : Thread nD τ).loc main_arg1)) :=
  (keep m ρ c main_v28 1 6 (by decide) (by decide)).trans ((at1_v28 m ρ c).trans (weights2 _))

theorem at7_arg5 (c : Dev nD) : W7 m ρ c (Proc.devRef .tc main_arg5) = (m ((c.tc : Thread nD τ).loc main_arg5)) :=
  keep m ρ c main_arg5 0 7 (by decide) (by decide)

/-! ## Boundary 8: the neighbours' sums of the second layer, and its bias as a row -/

set_option maxHeartbeats 1000000 in
theorem at8_v58 (c : Dev nD) : W8 m ρ c (Proc.devRef .tc main_v58) = Cert.ReferenceIdeal.Read.val_main_v77 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  unfold W8 hostOps4
  after_results_simp
  rw [at7_v1 m ρ c, at7_v3 m ρ c, at7_v28 m ρ c, at7_v46 m ρ c]
  rfl

theorem at8_v59 (c : Dev nD) : W8 m ρ c (Proc.devRef .tc main_v59) = Cert.ReferenceIdeal.Read.val_main_v83 (F := Ideal) (m ((c.tc : Thread nD τ).loc main_arg5)) := by
  unfold W8 hostOps4
  after_results_simp
  refine (shapeCast_row _ _ Cert.ReferenceIdeal.Gen.bcast_S32_S1x32_1).trans ?_
  rw [at7_arg5 m ρ c]
  rfl

theorem at8_v46 (c : Dev nD) : W8 m ρ c (Proc.devRef .tc main_v46) = Cert.ReferenceIdeal.Read.val_main_v49 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
  (keep m ρ c main_v46 7 1 (by decide) (by decide)).trans (at7_v46 m ρ c)

theorem at8_v12 (c : Dev nD) : W8 m ρ c (Proc.devRef .tc main_v12) = Cert.ReferenceIdeal.Read.val_main_v79 (F := Ideal) (m ((c.tc : Thread nD τ).loc main_arg1)) :=
  (keep m ρ c main_v12 1 7 (by decide) (by decide)).trans ((at1_v12 m ρ c).trans (selfloop2 _))

theorem at8_v45 (c : Dev nD) : W8 m ρ c (Proc.devRef .tc main_v45) = Cert.ReferenceIdeal.Read.val_main_v90 (F := Ideal) (m ((c.tc : Thread nD τ).loc main_arg0)) (m ((c.tc : Thread nD τ).loc main_arg8)) (m ((c.tc : Thread nD τ).loc main_arg9)) :=
  (keep m ρ c main_v45 6 2 (by decide) (by decide)).trans (at6_v45 m ρ c)

/-! ## Boundary 9: region 4 has closed the second layer and added the first skip branch -/

theorem at9_v60 (c : Dev nD) : W9 m ρ c (Proc.devRef .tc main_v60) = Cert.ReferenceIdeal.Read.val_main_v91 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9)) := by
  refine (W9_arr m ρ c 5).trans ((Cert.KernelIdeal.Region4.final (V8 m ρ) c).trans ?_)
  show Cert.Layers.conv32 (W8 m ρ c (Proc.devRef .tc main_v46)) (W8 m ρ c (Proc.devRef .tc main_v58)) (W8 m ρ c (Proc.devRef .tc main_v12)) (W8 m ρ c (Proc.devRef .tc main_v59)) (W8 m ρ c (Proc.devRef .tc main_v45)) = _
  rw [at8_v46 m ρ c, at8_v58 m ρ c, at8_v12 m ρ c, at8_v59 m ρ c, at8_v45 m ρ c]
  exact (Cert.Layers.v91_eq _ _ _ _ _ _ _ _).symm

theorem at9_arg11 (c : Dev nD) : W9 m ρ c (Proc.devRef .tc main_arg11) = (m ((c.tc : Thread nD τ).loc main_arg11)) :=
  keep m ρ c main_arg11 0 9 (by decide) (by decide)

/-! ## Boundaries 10 to 13: the two skip branches of the last layer -/

theorem at10_v61 (c : Dev nD) : W10 m ρ c (Proc.devRef .tc main_v61) = Cert.ReferenceIdeal.Read.val_main_v131 (F := Ideal) (m ((c.tc : Thread nD τ).loc main_arg11)) := by
  unfold W10 hostOps5
  after_results_simp
  refine (shapeCast_row _ _ Cert.ReferenceIdeal.Gen.bcast_S16_S1x16_1).trans ?_
  rw [at9_arg11 m ρ c]
  rfl

theorem at10_arg0 (c : Dev nD) : W10 m ρ c (Proc.devRef .tc main_arg0) = (m ((c.tc : Thread nD τ).loc main_arg0)) :=
  keep m ρ c main_arg0 0 10 (by decide) (by decide)

theorem at10_arg10 (c : Dev nD) : W10 m ρ c (Proc.devRef .tc main_arg10) = (m ((c.tc : Thread nD τ).loc main_arg10)) :=
  keep m ρ c main_arg10 0 10 (by decide) (by decide)

theorem at11_v62 (c : Dev nD) : W11 m ρ c (Proc.devRef .tc main_v62) = Cert.ReferenceIdeal.Read.val_main_v133 (F := Ideal) (m ((c.tc : Thread nD τ).loc main_arg0)) (m ((c.tc : Thread nD τ).loc main_arg10)) (m ((c.tc : Thread nD τ).loc main_arg11)) := by
  refine (W11_arr m ρ c 3).trans ((Cert.KernelIdeal.Region5.final (V10 m ρ) c).trans ?_)
  show Cert.Layers.lin16a (W10 m ρ c (Proc.devRef .tc main_arg0)) (W10 m ρ c (Proc.devRef .tc main_arg10)) (W10 m ρ c (Proc.devRef .tc main_v61)) = _
  rw [at10_arg0 m ρ c, at10_arg10 m ρ c, at10_v61 m ρ c]
  exact (Cert.Layers.v133_eq _ _ _).symm

theorem at11_arg13 (c : Dev nD) : W11 m ρ c (Proc.devRef .tc main_arg13) = (m ((c.tc : Thread nD τ).loc main_arg13)) :=
  keep m ρ c main_arg13 0 11 (by decide) (by decide)

theorem at12_v63 (c : Dev nD) : W12 m ρ c (Proc.devRef .tc main_v63) = Cert.ReferenceIdeal.Read.val_main_v136 (F := Ideal) (m ((c.tc : Thread nD τ).loc main_arg13)) := by
  unfold W12 hostOps6
  after_results_simp
  refine (shapeCast_row _ _ Cert.ReferenceIdeal.Gen.bcast_S16_S1x16_1).trans ?_
  rw [at11_arg13 m ρ c]
  rfl

theorem at12_v43 (c : Dev nD) : W12 m ρ c (Proc.devRef .tc main_v43) = Cert.ReferenceIdeal.Read.val_main_v48 (F := Ideal) (m ((c.tc : Thread nD τ).loc main_arg0)) (m ((c.tc : Thread nD τ).loc main_arg1)) (m ((c.tc : Thread nD τ).loc main_arg2)) (m ((c.tc : Thread nD τ).loc main_arg3)) :=
  (keep m ρ c main_v43 4 8 (by decide) (by decide)).trans (at4_v43 m ρ c)

theorem at12_arg12 (c : Dev nD) : W12 m ρ c (Proc.devRef .tc main_arg12) = (m ((c.tc : Thread nD τ).loc main_arg12)) :=
  keep m ρ c main_arg12 0 12 (by decide) (by decide)

theorem at13_v64 (c : Dev nD) : W13 m ρ c (Proc.devRef .tc main_v64) = Cert.ReferenceIdeal.Read.val_main_v138 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg12)) (m ((c.tc : Thread nD τ).loc main_arg13)) := by
  refine (W13_arr m ρ c 3).trans ((Cert.KernelIdeal.Region6.final (V12 m ρ) c).trans ?_)
  show Cert.Layers.lin16b (W12 m ρ c (Proc.devRef .tc main_v43)) (W12 m ρ c (Proc.devRef .tc main_arg12)) (W12 m ρ c (Proc.devRef .tc main_v63)) = _
  rw [at12_v43 m ρ c, at12_arg12 m ρ c, at12_v63 m ρ c]
  exact (Cert.Layers.v138_eq _ _ _ _ _ _).symm

theorem at13_v60 (c : Dev nD) : W13 m ρ c (Proc.devRef .tc main_v60) = Cert.ReferenceIdeal.Read.val_main_v91 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9)) :=
  (keep m ρ c main_v60 9 4 (by decide) (by decide)).trans (at9_v60 m ρ c)

theorem at13_arg6 (c : Dev nD) : W13 m ρ c (Proc.devRef .tc main_arg6) = (m ((c.tc : Thread nD τ).loc main_arg6)) :=
  keep m ρ c main_arg6 0 13 (by decide) (by decide)

/-! ## Boundary 14: region 7 has multiplied by the third weights -/

theorem at14_v65 (c : Dev nD) : W14 m ρ c (Proc.devRef .tc main_v65) = Cert.ReferenceIdeal.Read.val_main_v92 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg8)) (m ((c.tc : Thread nD τ).loc main_arg9)) := by
  refine (W14_arr m ρ c 2).trans ((Cert.KernelIdeal.Region7.final (V13 m ρ) c).trans ?_)
  show Cert.Layers.mm16 (W13 m ρ c (Proc.devRef .tc main_v60)) (W13 m ρ c (Proc.devRef .tc main_arg6)) = _
  rw [at13_v60 m ρ c, at13_arg6 m ρ c]
  exact (Cert.Layers.v92_eq _ _ _ _ _ _ _ _ _).symm

theorem at14_v1 (c : Dev nD) : W14 m ρ c (Proc.devRef .tc main_v1) = Cert.ReferenceIdeal.Read.val_main_v1 (F := Ideal) (m ((c.tc : Thread nD τ).loc main_arg1)) :=
  (keep m ρ c main_v1 1 13 (by decide) (by decide)).trans (at1_v1 m ρ c)

theorem at14_v3 (c : Dev nD) : W14 m ρ c (Proc.devRef .tc main_v3) = Cert.ReferenceIdeal.Read.val_main_v3 (F := Ideal) (m ((c.tc : Thread nD τ).loc main_arg1)) :=
  (keep m ρ c main_v3 1 13 (by decide) (by decide)).trans (at1_v3 m ρ c)

theorem at14_v28 (c : Dev nD) : W14 m ρ c (Proc.devRef .tc main_v28) = Cert.ReferenceIdeal.Read.val_main_v108 (F := Ideal) (m ((c.tc : Thread nD τ).loc main_arg1)) :=
  (keep m ρ c main_v28 1 13 (by decide) (by decide)).trans ((at1_v28 m ρ c).trans (weights3 _))

theorem at14_arg7 (c : Dev nD) : W14 m ρ c (Proc.devRef .tc main_arg7) = (m ((c.tc : Thread nD τ).loc main_arg7)) :=
  keep m ρ c main_arg7 0 14 (by decide) (by decide)

/-! ## Boundary 15: the neighbours' sums of the third layer, and its bias as a row -/

set_option maxHeartbeats 1000000 in
theorem at15_v77 (c : Dev nD) : W15 m ρ c (Proc.devRef .tc main_v77) = Cert.ReferenceIdeal.Read.val_main_v120 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg8)) (m ((c.tc : Thread nD τ).loc main_arg9)) := by
  unfold W15 hostOps8
  after_results_simp
  rw [at14_v1 m ρ c, at14_v3 m ρ c, at14_v28 m ρ c, at14_v65 m ρ c]
  rfl

theorem at15_v78 (c : Dev nD) : W15 m ρ c (Proc.devRef .tc main_v78) = Cert.ReferenceIdeal.Read.val_main_v126 (F := Ideal) (m ((c.tc : Thread nD τ).loc main_arg7)) := by
  unfold W15 hostOps8
  after_results_simp
  refine (shapeCast_row _ _ Cert.ReferenceIdeal.Gen.bcast_S16_S1x16_1).trans ?_
  rw [at14_arg7 m ρ c]
  rfl

theorem at15_v65 (c : Dev nD) : W15 m ρ c (Proc.devRef .tc main_v65) = Cert.ReferenceIdeal.Read.val_main_v92 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg8)) (m ((c.tc : Thread nD τ).loc main_arg9)) :=
  (keep m ρ c main_v65 14 1 (by decide) (by decide)).trans (at14_v65 m ρ c)

theorem at15_v12 (c : Dev nD) : W15 m ρ c (Proc.devRef .tc main_v12) = Cert.ReferenceIdeal.Read.val_main_v122 (F := Ideal) (m ((c.tc : Thread nD τ).loc main_arg1)) :=
  (keep m ρ c main_v12 1 14 (by decide) (by decide)).trans ((at1_v12 m ρ c).trans (selfloop3 _))

theorem at15_v62 (c : Dev nD) : W15 m ρ c (Proc.devRef .tc main_v62) = Cert.ReferenceIdeal.Read.val_main_v133 (F := Ideal) (m ((c.tc : Thread nD τ).loc main_arg0)) (m ((c.tc : Thread nD τ).loc main_arg10)) (m ((c.tc : Thread nD τ).loc main_arg11)) :=
  (keep m ρ c main_v62 11 4 (by decide) (by decide)).trans (at11_v62 m ρ c)

theorem at15_v64 (c : Dev nD) : W15 m ρ c (Proc.devRef .tc main_v64) = Cert.ReferenceIdeal.Read.val_main_v138 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg12)) (m ((c.tc : Thread nD τ).loc main_arg13)) :=
  (keep m ρ c main_v64 13 2 (by decide) (by decide)).trans (at13_v64 m ρ c)

/-! ## Boundary 16: region 8 has closed the last layer and added both skip branches -/

/-- At the last boundary the output buffer holds the reference's result on the launch contents of the fourteen
    argument arrays. -/
theorem out_eq (c : Dev nD) : W16 (F := Ideal) m ρ c (Proc.devRef .tc main_v79) = Cert.ReferenceIdeal.Read.val_main_v139 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) := by
  refine (W16_arr m ρ c 6).trans ((Cert.KernelIdeal.Region8.final (V15 m ρ) c).trans ?_)
  show Cert.Layers.conv16 (W15 m ρ c (Proc.devRef .tc main_v65)) (W15 m ρ c (Proc.devRef .tc main_v77)) (W15 m ρ c (Proc.devRef .tc main_v12)) (W15 m ρ c (Proc.devRef .tc main_v78)) (W15 m ρ c (Proc.devRef .tc main_v62)) (W15 m ρ c (Proc.devRef .tc main_v64)) = _
  rw [at15_v65 m ρ c, at15_v77 m ρ c, at15_v12 m ρ c, at15_v78 m ρ c, at15_v62 m ρ c, at15_v64 m ρ c]
  exact (Cert.Layers.v139_eq _ _ _ _ _ _ _ _ _ _ _ _ _ _).symm

end Cert.KernelIdeal.Whole

end
-- ==== Proof.lean ====
/-
  The certificate's five claims for the three-layer graph-convolution network with skip connections.

  The kernel program runs nine tiled pallas regions among stretches of host operations; the reference is one host
  program. Over the extended reals both compute, operation for operation, the same function of the argument arrays:
  degree by a scatter-add of ones, d = 1 / deg as the square of its reciprocal root, edge weights from two gathers,
  and per layer h = x · W, the neighbours' sum agg by gather, weighting and scatter-add, and
  max (agg + d · h + b) 0 plus the skip inputs x · Ws + bs. The kernel's tiles are blocks of 5000 rows of the same
  whole-array layers (the modules Region0 … Region8), its bf16 roundings are the identity, and its reshapes of a vector
  to a column or a row read the same entries as the reference's broadcasts; the host operations between the regions are
  the reference's own. The module Fold reads the kernel's result buffer back, boundary by boundary, to the reference's
  last stage of the argument arrays; KernelRun is the kernel's run with that buffer kept in its post.
  The frames of the two kernel programs are the generated ones, the reference's frame is its generated run with the
  result dropped, and the idealization rewrote no operation, so there is nothing to preserve.
-/
import proofs.«164043_j44212393345739_2_alg».proof.Defs
import proofs.«164043_j44212393345739_2_alg».proof.Proof.Gen.Kernel
import proofs.«164043_j44212393345739_2_alg».proof.Proof.Gen.Kernel.Frame
import proofs.«164043_j44212393345739_2_alg».proof.Proof.Gen.KernelIdeal
import proofs.«164043_j44212393345739_2_alg».proof.Proof.Gen.KernelIdeal.Frame
import proofs.«164043_j44212393345739_2_alg».proof.Proof.Gen.ReferenceIdeal
import proofs.«164043_j44212393345739_2_alg».proof.Proof.Gen.Pre_finite_inputs
import proofs.«164043_j44212393345739_2_alg».proof.Proof.Gen.ReferenceIdeal.Run
import proofs.«164043_j44212393345739_2_alg».proof.Proof.Gen.ReferenceIdeal.Read
import proofs.«164043_j44212393345739_2_alg».proof.Proof.KernelRun
import proofs.«164043_j44212393345739_2_alg».proof.Proof.Fold
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the reference's last stage of the argument arrays in their result buffer. -/
theorem algebraic : Cert.algebraic_KernelIdeal_ReferenceIdeal := by
  intro m ρ m' ρ' _ hagree
  refine ⟨fun c => Cert.ReferenceIdeal.Read.val_main_v139 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)), ?_, ?_⟩
  · exact (θ_run Cert.KernelIdeal.defs _ _).mono
      (fun _ h c => ⟨(h c).1.trans (Cert.KernelIdeal.Whole.out_eq m ρ c), (h c).2⟩)
      (Cert.KernelIdeal.Whole.run (F := Ideal) m ρ)
  · refine (θ_run Cert.ReferenceIdeal.defs _ _).mono (fun _ h c => ⟨?_, (h c).2⟩)
      (Cert.ReferenceIdeal.Value.run (F := Ideal) m' ρ')
    obtain ⟨a0, a1, a2, a3, a4, a5, a6, a7, a8, a9, a10, a11, a12, a13⟩ := hagree c
    rw [(h c).1, Cert.ReferenceIdeal.Read.val_main_v139_eq, a0, a1, a2, a3, a4, a5, a6, a7, a8, a9, a10, a11, a12, a13]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
